-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S262144x2 : Shape := ⟨2, ![262144, 2]⟩
abbrev S8192x512 : Shape := ⟨2, ![8192, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S262144x2 : S_.BroadcastsInDim S262144x2 (![] : Fin 0 → Fin S262144x2.rank)
  reducesTo_S262144x2_S_d0_1 : S262144x2.ReducesTo [0, 1] S_

variable [Facts]

def fn_part1 {F : FTy → Type} [FloatOps F] (main_arg1 : IVec S262144x2 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S262144x2 32 := broadcastInDim S262144x2 ![] bcast_S_S262144x2 main_c_6
  let main_v20 : IVec S262144x2 1 := cmpi .sge main_arg1 main_v19
  let main_c_7 : IVec S_ 32 := constantI S_ 32 8192#32
  let main_v21 : IVec S262144x2 32 := broadcastInDim S262144x2 ![] bcast_S_S262144x2 main_c_7
  let main_v22 : IVec S262144x2 1 := cmpi .slt main_arg1 main_v21
  let main_v23 : IVec S262144x2 1 := andi main_v20 main_v22
  let main_c_8 : IVec S_ 1 := constantI S_ 1 1#1
  let main_v24 : IVec S_ 1 := (fun x v => Host.reduce IntOp.andi x v reducesTo_S262144x2_S_d0_1 h_S_) main_v23 main_c_8
  let main_v25 : IVec S_ 1 := andi main_v18 main_v24
  main_v25

def fn {F : FTy → Type} [FloatOps F] (main_arg0 : IVec S2048 32) (main_arg1 : IVec S262144x2 32) (main_arg2 : FVec F S8192x512 .f32) (main_arg3 : FVec F S512 .f32) (main_arg4 : FVec F S512x128 .f32) (main_arg5 : FVec F S128 .f32) : IVec S_ 1 :=
  let main_v0 : FVec F S8192x512 .f32 := Host.absf main_arg2
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512 .f32 := Host.absf main_arg3
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_v13 main_v16
-- ==== Kernel.lean ====
abbrev S2048 : Shape := ⟨1, ![2048]⟩
abbrev S262144x2 : Shape := ⟨2, ![262144, 2]⟩
abbrev S8192x512 : Shape := ⟨2, ![8192, 512]⟩
abbrev S512 : Shape := ⟨1, ![512]⟩
abbrev S512x128 : Shape := ⟨2, ![512, 128]⟩
abbrev S128 : Shape := ⟨1, ![128]⟩
abbrev S262144x1 : Shape := ⟨2, ![262144, 1]⟩
abbrev S262144 : Shape := ⟨1, ![262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S8192x8192 : Shape := ⟨2, ![8192, 8192]⟩
abbrev S270336x2 : Shape := ⟨2, ![270336, 2]⟩
abbrev S1x512 : Shape := ⟨2, ![1, 512]⟩
abbrev S1x128 : Shape := ⟨2, ![1, 128]⟩
abbrev S8192x128 : Shape := ⟨2, ![8192, 128]⟩
abbrev S2048x2048 : Shape := ⟨2, ![2048, 2048]⟩
abbrev S2048x512 : Shape := ⟨2, ![2048, 512]⟩
abbrev S2048x128 : Shape := ⟨2, ![2048, 128]⟩
abbrev S2048x1 : Shape := ⟨2, ![2048, 1]⟩
abbrev S2048x8192 : Shape := ⟨2, ![2048, 8192]⟩

abbrev nBuf : Space → Nat
  | .hbm => 79
  | .vmem => 16
  | .smem => 0
  | _ => 0

abbrev bufTy : (tb : Table) → Fin (tcTables nBuf tb) → BufTy
  | .hbm, ⟨0, _⟩ => ⟨S2048, .i32⟩
  | .hbm, ⟨1, _⟩ => ⟨S262144x2, .i32⟩
  | .hbm, ⟨2, _⟩ => ⟨S8192x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S262144x1, .i32⟩
  | .hbm, ⟨7, _⟩ => ⟨S262144, .i32⟩
  | .hbm, ⟨8, _⟩ => ⟨S262144x1, .i32⟩
  | .hbm, ⟨9, _⟩ => ⟨S262144, .i32⟩
  | .hbm, ⟨10, _⟩ => ⟨S8192, .i32⟩
  | .hbm, ⟨11, _⟩ => ⟨S270336, .i32⟩
  | .hbm, ⟨12, _⟩ => ⟨S270336, .i32⟩
  | .hbm, ⟨13, _⟩ => ⟨S_, .f32⟩
  | .hbm, ⟨14, _⟩ => ⟨S270336, .f32⟩
  | .hbm, ⟨15, _⟩ => ⟨S_, .f32⟩
  | .hbm, ⟨16, _⟩ => ⟨S8192, .f32⟩
  | .hbm, ⟨17, _⟩ => ⟨S270336x1, .i32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .i1⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .i32⟩
  | .hbm, ⟨28, _⟩ => ⟨S270336, .i32⟩
  | .hbm, ⟨29, _⟩ => ⟨S270336, .i1⟩
  | .hbm, ⟨30, _⟩ => ⟨S_, .i32⟩
  | .hbm, ⟨31, _⟩ => ⟨S270336, .i32⟩
  | .hbm, ⟨32, _⟩ => ⟨S270336, .i32⟩
  | .hbm, ⟨33, _⟩ => ⟨S270336, .i32⟩
  | .hbm, ⟨34, _⟩ => ⟨S270336x1, .i32⟩
  | .hbm, ⟨35, _⟩ => ⟨S270336, .f32⟩
  | .hbm, ⟨36, _⟩ => ⟨S_, .i32⟩
  | .hbm, ⟨37, _⟩ => ⟨S270336, .i32⟩
  | .hbm, ⟨38, _⟩ => ⟨S270336, .i1⟩
  | .hbm, ⟨39, _⟩ => ⟨S_, .i32⟩
  | .hbm, ⟨40, _⟩ => ⟨S270336, .i32⟩
  | .hbm, ⟨41, _⟩ => ⟨S270336, .i32⟩
  | .hbm, ⟨42, _⟩ => ⟨S270336, .i32⟩
  | .hbm, ⟨43, _⟩ => ⟨S270336x1, .i32⟩
  | .hbm, ⟨44, _⟩ => ⟨S270336, .f32⟩
  | .hbm, ⟨45, _⟩ => ⟨S270336, .f32⟩
  | .hbm, ⟨46, _⟩ => ⟨S_, .f32⟩
  | .hbm, ⟨47, _⟩ => ⟨S8192x8192, .f32⟩
  | .hbm, ⟨48, _⟩ => ⟨S_, .i32⟩
  | .hbm, ⟨49, _⟩ => ⟨S270336, .i32⟩
  | .hbm, ⟨50, _⟩ => ⟨S270336, .i1⟩
  | .hbm, ⟨51, _⟩ => ⟨S_, .i32⟩
  | .hbm, ⟨52, _⟩ => ⟨S270336, .i32⟩
  | .hbm, ⟨53, _⟩ => ⟨S270336, .i32⟩
  | .hbm, ⟨54, _⟩ => ⟨S270336, .i32⟩
  | .hbm, ⟨55, _⟩ => ⟨S_, .i32⟩
  | .hbm, ⟨56, _⟩ => ⟨S270336, .i32⟩
  | .hbm, ⟨57, _⟩ => ⟨S270336, .i1⟩
  | .hbm, ⟨58, _⟩ => ⟨S_, .i32⟩
  | .hbm, ⟨59, _⟩ => ⟨S270336, .i32⟩
  | .hbm, ⟨60, _⟩ => ⟨S270336, .i32⟩
  | .hbm, ⟨61, _⟩ => ⟨S270336, .i32⟩
  | .hbm, ⟨62, _⟩ => ⟨S270336x1, .i32⟩
  | .hbm, ⟨63, _⟩ => ⟨S270336x1, .i32⟩
  | .hbm, ⟨64, _⟩ => ⟨S270336x2, .i32⟩
  | .hbm, ⟨65, _⟩ => ⟨S8192x8192, .f32⟩
  | .hbm, ⟨66, _⟩ => ⟨S1x512, .f32⟩
  | .hbm, ⟨67, _⟩ => ⟨S1x128, .f32⟩
  | .hbm, ⟨68, _⟩ => ⟨S8192x128, .f32⟩
  | .hbm, ⟨69, _⟩ => ⟨S_, .i32⟩
  | .hbm, ⟨70, _⟩ => ⟨S2048, .i32⟩
  | .hbm, ⟨71, _⟩ => ⟨S2048, .i1⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S2048, .i32⟩
  | .hbm, ⟨76, _⟩ => ⟨S2048x1, .i32⟩
  | .hbm, ⟨77, _⟩ => ⟨S2048x8192, .f32⟩
  | .hbm, ⟨78, _⟩ => ⟨S2048x128, .f32⟩
  | .local _ .vmem, ⟨0, _⟩ => ⟨S2048x2048, .f32⟩
  | .local _ .vmem, ⟨1, _⟩ => ⟨S2048x2048, .f32⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S512x128, .f32⟩
  | .local _ .vmem, ⟨6, _⟩ => ⟨S2048x128, .f32⟩
  | .local _ .vmem, ⟨7, _⟩ => ⟨S2048x128, .f32⟩
  | .local _ .vmem, ⟨8, _⟩ => ⟨S2048x512, .f32⟩
  | .local _ .vmem, ⟨9, _⟩ => ⟨S2048x2048, .f32⟩
  | .local _ .vmem, ⟨10, _⟩ => ⟨S2048x2048, .f32⟩
  | .local _ .vmem, ⟨11, _⟩ => ⟨S2048x128, .f32⟩
  | .local _ .vmem, ⟨12, _⟩ => ⟨S2048x128, .f32⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S262144x2_S262144x1_0_0 : S262144x2.Slices ![0, 0] S262144x1
  shapeCasts_S262144x1_S262144 : S262144x1.ShapeCasts S262144
  slices_S262144x2_S262144x1_0_1 : S262144x2.Slices ![0, 1] S262144x1
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S_S8192x8192 : S_.BroadcastsInDim S8192x8192 (![] : Fin 0 → Fin S8192x8192.rank)
  concatenates_S270336x1_S270336x1_S270336x2_d1 : Shape.Concatenates [S270336x1, S270336x1] S270336x2 1
  shapeCasts_S512_S1x512 : S512.ShapeCasts S1x512
  shapeCasts_S128_S1x128 : S128.ShapeCasts S1x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  bcast_S_S2048 : S_.BroadcastsInDim S2048 (![] : Fin 0 → Fin S2048.rank)
  bcast_S2048_S2048x1_0 : S2048.BroadcastsInDim S2048x1 (![0] : Fin 1 → Fin S2048x1.rank)
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  scatter_S8192x8192_S270336x2_S270336_n_01_01_1_wf : ScatterDims.WF S8192x8192 S270336x2 S270336 [] [0, 1] [0, 1] 1
  dot_S2048x2048_S2048x512_S2048x512_1_0_0_1_n_n_wf : DotDims.WF S2048x2048 S2048x512 S2048x512 [1] [0] [0] [1] [] []
  dot_S2048x512_S512x128_S2048x128_1_0_0_1_n_n_wf : DotDims.WF S2048x512 S512x128 S2048x128 [1] [0] [0] [1] [] []
  gather_S8192x8192_S2048x1_S2048x8192_1_0_n_n_0_1_18192_wf : GatherDims.WF S8192x8192 S2048x1 S2048x8192 [1] [0] [] [0] [] 1 ![1, 8192]
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .f32 = 32 ∨ (Rect.block (s := S8192x8192) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .f32 = 32 ∨ (Rect.block (s := S8192x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S8192x128.size a
  hwx0_4 : ∀ i : grid0.Coords, EltTy.bits .f32 = 32 ∨ (Rect.block (s := S8192x128) S2048x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S2048x8192.size a
  hwx1_0 : ∀ i : grid1.Coords, EltTy.bits .f32 = 32 ∨ (Rect.block (s := S2048x8192) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S2048x128.size a
  hwx1_3 : ∀ i : grid1.Coords, EltTy.bits .f32 = 32 ∨ (Rect.block (s := S2048x128) S2048x128.size (cc1_transform_3 i) (hinb1_3 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def gather_S8192x8192_S2048x1_S2048x8192_1_0_n_n_0_1_18192 : GatherDims S8192x8192 S2048x1 S2048x8192 where
  offsetDims := [1]
  collapsedSliceDims := [0]
  operandBatchingDims := []
  startIndicesBatchingDims := []
  startIndexMap := [0]
  indexVectorDim := 1
  sliceSizes := ![1, 8192]
  wf := gather_S8192x8192_S2048x1_S2048x8192_1_0_n_n_0_1_18192_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_v44) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v54) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S2048x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2048 : Shape := ⟨1, ![2048]⟩
abbrev S262144x2 : Shape := ⟨2, ![262144, 2]⟩
abbrev S8192x512 : Shape := ⟨2, ![8192, 512]⟩
abbrev S512 : Shape := ⟨1, ![512]⟩
abbrev S512x128 : Shape := ⟨2, ![512, 128]⟩
abbrev S128 : Shape := ⟨1, ![128]⟩
abbrev S262144x1 : Shape := ⟨2, ![262144, 1]⟩
abbrev S262144 : Shape := ⟨1, ![262144]⟩
abbrev S8192x8192 : Shape := ⟨2, ![8192, 8192]⟩
abbrev S_ : Shape := ⟨0, ![]⟩
abbrev S8192 : Shape := ⟨1, ![8192]⟩
abbrev S270336 : Shape := ⟨1, ![270336]⟩
abbrev S270336x1 : Shape := ⟨2, ![270336, 1]⟩
abbrev S270336x512 : Shape := ⟨2, ![270336, 512]⟩
abbrev S1x512 : Shape := ⟨2, ![1, 512]⟩
abbrev S8192x128 : Shape := ⟨2, ![8192, 128]⟩
abbrev S270336x128 : Shape := ⟨2, ![270336, 128]⟩
abbrev S1x128 : Shape := ⟨2, ![1, 128]⟩
abbrev S2048x1 : Shape := ⟨2, ![2048, 1]⟩
abbrev S2048x128 : Shape := ⟨2, ![2048, 128]⟩

abbrev nBuf : Space → Nat
  | .hbm => 141
  | .vmem => 0
  | .smem => 0
  | _ => 0

abbrev hbmTy0_0 (i : Nat) : BufTy := match i % 128 with
  | 0 => ⟨S2048, .i32⟩
  | 1 => ⟨S262144x2, .i32⟩
  | 2 => ⟨S8192x512, .f32⟩
  | 3 => ⟨S512, .f32⟩
  | 4 => ⟨S512x128, .f32⟩
  | 5 => ⟨S128, .f32⟩
  | 6 => ⟨S262144x1, .i32⟩
  | 7 => ⟨S262144, .i32⟩
  | 8 => ⟨S262144x1, .i32⟩
  | 9 => ⟨S262144, .i32⟩
  | 10 => ⟨S8192x8192, .i32⟩
  | 11 => ⟨S8192x8192, .i32⟩
  | 12 => ⟨S_, .i32⟩
  | 13 => ⟨S8192x8192, .i32⟩
  | 14 => ⟨S8192x8192, .i32⟩
  | 15 => ⟨S8192x8192, .i1⟩
  | 16 => ⟨S8192x8192, .f32⟩
  | 17 => ⟨S8192x512, .f32⟩
  | 18 => ⟨S8192, .i32⟩
  | 19 => ⟨S270336, .i32⟩
  | 20 => ⟨S270336, .i32⟩
  | 21 => ⟨S_, .f32⟩
  | 22 => ⟨S270336, .f32⟩
  | 23 => ⟨S_, .f32⟩
  | 24 => ⟨S8192, .f32⟩
  | 25 => ⟨S270336x1, .i32⟩
  | 26 => ⟨S8192, .f32⟩
  | 27 => ⟨S_, .f32⟩
  | 28 => ⟨S8192, .f32⟩
  | 29 => ⟨S8192, .i1⟩
  | 30 => ⟨S8192, .f32⟩
  | 31 => ⟨S_, .f32⟩
  | 32 => ⟨S_, .f32⟩
  | 33 => ⟨S8192, .f32⟩
  | 34 => ⟨S8192, .f32⟩
  | 35 => ⟨S_, .i32⟩
  | 36 => ⟨S270336, .i32⟩
  | 37 => ⟨S270336, .i1⟩
  | 38 => ⟨S_, .i32⟩
  | 39 => ⟨S270336, .i32⟩
  | 40 => ⟨S270336, .i32⟩
  | 41 => ⟨S270336, .i32⟩
  | 42 => ⟨S270336x1, .i32⟩
  | 43 => ⟨S270336, .f32⟩
  | 44 => ⟨S_, .i32⟩
  | 45 => ⟨S270336, .i32⟩
  | 46 => ⟨S270336, .i1⟩
  | 47 => ⟨S_, .i32⟩
  | 48 => ⟨S270336, .i32⟩
  | 49 => ⟨S270336, .i32⟩
  | 50 => ⟨S270336, .i32⟩
  | 51 => ⟨S270336x1, .i32⟩
  | 52 => ⟨S270336, .f32⟩
  | 53 => ⟨S270336, .f32⟩
  | 54 => ⟨S_, .i32⟩
  | 55 => ⟨S270336, .i32⟩
  | 56 => ⟨S270336, .i1⟩
  | 57 => ⟨S_, .i32⟩
  | 58 => ⟨S270336, .i32⟩
  | 59 => ⟨S270336, .i32⟩
  | 60 => ⟨S270336, .i32⟩
  | 61 => ⟨S270336x1, .i32⟩
  | 62 => ⟨S270336x512, .f32⟩
  | 63 => ⟨S270336x1, .f32⟩
  | 64 => ⟨S270336x512, .f32⟩
  | 65 => ⟨S270336x512, .f32⟩
  | 66 => ⟨S_, .f32⟩
  | 67 => ⟨S8192x512, .f32⟩
  | 68 => ⟨S270336x1, .i32⟩
  | 69 => ⟨S8192x512, .f32⟩
  | 70 => ⟨S1x512, .f32⟩
  | 71 => ⟨S8192x512, .f32⟩
  | 72 => ⟨S8192x512, .f32⟩
  | 73 => ⟨S_, .f32⟩
  | 74 => ⟨S8192x512, .f32⟩
  | 75 => ⟨S8192x512, .f32⟩
  | 76 => ⟨S8192x128, .f32⟩
  | 77 => ⟨S8192, .i32⟩
  | 78 => ⟨S270336, .i32⟩
  | 79 => ⟨S270336, .i32⟩
  | 80 => ⟨S_, .f32⟩
  | 81 => ⟨S270336, .f32⟩
  | 82 => ⟨S_, .f32⟩
  | 83 => ⟨S8192, .f32⟩
  | 84 => ⟨S270336x1, .i32⟩
  | 85 => ⟨S8192, .f32⟩
  | 86 => ⟨S_, .f32⟩
  | 87 => ⟨S8192, .f32⟩
  | 88 => ⟨S8192, .i1⟩
  | 89 => ⟨S8192, .f32⟩
  | 90 => ⟨S_, .f32⟩
  | 91 => ⟨S_, .f32⟩
  | 92 => ⟨S8192, .f32⟩
  | 93 => ⟨S8192, .f32⟩
  | 94 => ⟨S_, .i32⟩
  | 95 => ⟨S270336, .i32⟩
  | 96 => ⟨S270336, .i1⟩
  | 97 => ⟨S_, .i32⟩
  | 98 => ⟨S270336, .i32⟩
  | 99 => ⟨S270336, .i32⟩
  | 100 => ⟨S270336, .i32⟩
  | 101 => ⟨S270336x1, .i32⟩
  | 102 => ⟨S270336, .f32⟩
  | 103 => ⟨S_, .i32⟩
  | 104 => ⟨S270336, .i32⟩
  | 105 => ⟨S270336, .i1⟩
  | 106 => ⟨S_, .i32⟩
  | 107 => ⟨S270336, .i32⟩
  | 108 => ⟨S270336, .i32⟩
  | 109 => ⟨S270336, .i32⟩
  | 110 => ⟨S270336x1, .i32⟩
  | 111 => ⟨S270336, .f32⟩
  | 112 => ⟨S270336, .f32⟩
  | 113 => ⟨S_, .i32⟩
  | 114 => ⟨S270336, .i32⟩
  | 115 => ⟨S270336, .i1⟩
  | 116 => ⟨S_, .i32⟩
  | 117 => ⟨S270336, .i32⟩
  | 118 => ⟨S270336, .i32⟩
  | 119 => ⟨S270336, .i32⟩
  | 120 => ⟨S270336x1, .i32⟩
  | 121 => ⟨S270336x128, .f32⟩
  | 122 => ⟨S270336x1, .f32⟩
  | 123 => ⟨S270336x128, .f32⟩
  | 124 => ⟨S270336x128, .f32⟩
  | 125 => ⟨S_, .f32⟩
  | 126 => ⟨S8192x128, .f32⟩
  | 127 => ⟨S270336x1, .i32⟩
  | _ => ⟨S2048, .i32⟩

abbrev hbmTy0_1 (i : Nat) : BufTy := match i % 128 with
  | 0 => ⟨S8192x128, .f32⟩
  | 1 => ⟨S1x128, .f32⟩
  | 2 => ⟨S8192x128, .f32⟩
  | 3 => ⟨S8192x128, .f32⟩
  | 4 => ⟨S_, .i32⟩
  | 5 => ⟨S2048, .i32⟩
  | 6 => ⟨S2048, .i1⟩
  | 7 => ⟨S_, .i32⟩
  | 8 => ⟨S2048, .i32⟩
  | 9 => ⟨S2048, .i32⟩
  | 10 => ⟨S2048, .i32⟩
  | 11 => ⟨S2048x1, .i32⟩
  | 12 => ⟨S2048x128, .f32⟩
  | _ => ⟨S2048, .i32⟩

abbrev hbmTy (i : Nat) : BufTy := match i / 128 with
  | 0 => hbmTy0_0 i
  | 1 => hbmTy0_1 i
  | _ => ⟨S2048, .i32⟩

abbrev bufTy : (tb : Table) → Fin (tcTables nBuf tb) → BufTy
  | .hbm, ⟨i, _⟩ => hbmTy i
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call1_cst : Ref sig .tc := ⟨.hbm, 73, rfl⟩
abbrev main_call1_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_13 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_20 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_c_21 : Ref sig .tc := ⟨.hbm, 132, rfl⟩
abbrev main_v97 : Ref sig .tc := ⟨.hbm, 133, rfl⟩
abbrev main_v98 : Ref sig .tc := ⟨.hbm, 134, rfl⟩
abbrev main_c_22 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]

class Facts₀ : Prop where
  slices_S262144x2_S262144x1_0_0 : S262144x2.Slices ![0, 0] S262144x1
  shapeCasts_S262144x1_S262144 : S262144x1.ShapeCasts S262144
  slices_S262144x2_S262144x1_0_1 : S262144x2.Slices ![0, 1] S262144x1
  bcast_S_S8192x8192 : S_.BroadcastsInDim S8192x8192 (![] : Fin 0 → Fin S8192x8192.rank)
  concatenates_S262144_S8192_S270336_d0 : Shape.Concatenates [S262144, S8192] S270336 0
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x512_0_1 : S270336x1.BroadcastsInDim S270336x512 (![0, 1] : Fin 2 → Fin S270336x512.rank)
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S2048 : S_.BroadcastsInDim S2048 (![] : Fin 0 → Fin S2048.rank)
  bcast_S2048_S2048x1_0 : S2048.BroadcastsInDim S2048x1 (![0] : Fin 1 → Fin S2048x1.rank)
  dot_S8192x8192_S8192x512_S8192x512_1_0_0_1_n_n_wf : DotDims.WF S8192x8192 S8192x512 S8192x512 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x512_S270336x1_S270336x512_1_0_n_n_0_1_1512_wf : GatherDims.WF S8192x512 S270336x1 S270336x512 [1] [0] [] [0] [] 1 ![1, 512]
  scatter_S8192x512_S270336x1_S270336x512_1_0_0_1_wf : ScatterDims.WF S8192x512 S270336x1 S270336x512 [1] [0] [0] 1
  dot_S8192x512_S512x128_S8192x128_1_0_0_1_n_n_wf : DotDims.WF S8192x512 S512x128 S8192x128 [1] [0] [0] [1] [] []
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  gather_S8192x128_S2048x1_S2048x128_1_0_n_n_0_1_1128_wf : GatherDims.WF S8192x128 S2048x1 S2048x128 [1] [0] [] [0] [] 1 ![1, 128]

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x512_S270336x1_S270336x512_1_0_n_n_0_1_1512 : GatherDims S8192x512 S270336x1 S270336x512 where
  offsetDims := [1]
  collapsedSliceDims := [0]
  operandBatchingDims := []
  startIndicesBatchingDims := []
  startIndexMap := [0]
  indexVectorDim := 1
  sliceSizes := ![1, 512]
  wf := gather_S8192x512_S270336x1_S270336x512_1_0_n_n_0_1_1512_wf
def scatter_S8192x512_S270336x1_S270336x512_1_0_0_1 : ScatterDims S8192x512 S270336x1 S270336x512 where
  updateWindowDims := [1]
  insertedWindowDims := [0]
  scatterDimsToOperandDims := [0]
  indexVectorDim := 1
  wf := scatter_S8192x512_S270336x1_S270336x512_1_0_0_1_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def gather_S8192x128_S2048x1_S2048x128_1_0_n_n_0_1_1128 : GatherDims S8192x128 S2048x1 S2048x128 where
  offsetDims := [1]
  collapsedSliceDims := [0]
  operandBatchingDims := []
  startIndicesBatchingDims := []
  startIndexMap := [0]
  indexVectorDim := 1
  sliceSizes := ![1, 128]
  wf := gather_S8192x128_S2048x1_S2048x128_1_0_n_n_0_1_1128_wf

class Facts : Prop extends Facts₀ where

variable [Facts]
-- ==== Proof.KB.AggCases.lean ====
/- Written by the script scratch/gen_modules.js (bun scratch/gen_modules.js <dir>; its function genRegion, called with the record printed at the end of this comment): the same text for each
   of the two pallas_calls and for both printings of the program; the argument is written once, in that script's template.
   The second pallas_call, out = A_sel · h2 + b2, walks the contraction axis in four blocks of 2048 columns (grid point k = 0..3).
   A VMEM accumulator of shape 2048×128 is zeroed at k = 0, takes one block product at every k, and at k = 3 is read out with the bias
   row added into the one output block. This module fixes, for that kernel: the two branch conditions as facts about the grid point, at
   which points the output window is idle, the memrefs the body is called with, and the region invariant with the accumulator singled out.
   genRegion({"prog":"Kernel","ns":"Agg","K":1,"kernel":"cc1__agg_kernel","axis":0,"N":4}) -/
import proofs.«157338_j2456721293623_2_alg».proof.Proof.Gen.Kernel.Launch
import proofs.«157338_j2456721293623_2_alg».proof.Proof.Gen.Kernel.Skeleton
import proofs.«157338_j2456721293623_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "this is the first block of the contraction": the accumulator is zeroed. -/
abbrev isFirst (i : grid1.Coords) : Prop :=
  (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)

/-- "this is the last block of the contraction": the accumulator is read out. -/
abbrev isLast (i : grid1.Coords) : Prop := k1_cond2 i = 1#1
theorem isLast_iff : ∀ t : Fin cfg1.N, isLast (grid1.coords t) ↔ t.val = 3 :=
  (by decide +kernel : ∀ t : Fin grid1.N, isLast (grid1.coords t) ↔ t.val = 3)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Before the last block nothing is stored into the output block: the window is idle and is not written back. -/
theorem idle_out : ∀ t : Fin cfg1.N, ¬isLast (grid1.coords t) → cfg1.idle 3 (grid1.coords t) = true := by decide +kernel
theorem noFlush_out : ∀ t : Fin cfg1.N, ¬isLast (grid1.coords t) → (cfg1.win 3).flush t = false := by decide +kernel
theorem live_out : ∀ t : Fin cfg1.N, isLast (grid1.coords t) → cfg1.idle 3 (grid1.coords t) = false := by decide +kernel

/-! ## The memrefs the body is called with -/

abbrev ms_0 (t : Fin cfg1.N) : Memref sig .tc .vmem S2048x2048 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S2048x128 .f32 := win1_3.stage (cfg1.slots t 3)
abbrev hs_3 (t : Fin cfg1.N) : (ms_3 t).IsWhole := hstage1_3 ((cfg1.slots t 3).cast nbuf1_3)
/-- The accumulator: a whole scoped buffer of the kernel's own. -/
abbrev accM : Memref sig .tc .vmem S2048x128 .f32 := Memref.whole cc1_scratch0
/-- The views through which the output block's and the accumulator's contents are stated. -/
abbrev outV : View sig .tc .vmem S2048x128 .f32 := (Memref.whole cc1_stg3_0 : Memref sig .tc .vmem S2048x128 .f32).view
abbrev accV : View sig .tc .vmem S2048x128 .f32 := accM.view

/-! ## The region invariant, the accumulator singled out -/

/-- The other pallas_call's scoped buffers, each whole at some contents, and the generator register: what this kernel
    never touches. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f)
    ∗ (∃ r, prngReg c r))

/-- The class invariant hands out the accumulator at some contents beside the rest, -/
theorem inv_split (c : Dev nD) :
    (Pipeline.ΦA spec1 c : sProp 𝕄) ⊢ iprop((∃ d, owns (c : Thread nD τ) accM fullShare d) ∗ others c) := by
  unfold Pipeline.ΦA others; rw [scopedRest1_eq]; simp only [accM, owns_whole]
  iintro ⟨⟨H0, H1, H2, H3, H4, H5, H6, H7, H8, HA⟩, Hp⟩
  isplitl [HA]; · iexact HA
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hp

/-- and takes it back. -/
theorem inv_join (c : Dev nD) :
    iprop((∃ d, owns (c : Thread nD τ) accM fullShare d) ∗ others c) ⊢ (Pipeline.ΦA spec1 c : sProp 𝕄) := by
  unfold Pipeline.ΦA others; rw [scopedRest1_eq]; simp only [accM, owns_whole]
  iintro ⟨HA, H0, H1, H2, H3, H4, H5, H6, H7, H8, Hp⟩
  isplitr [Hp]; swap; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HA

end Cert.Kernel.Agg

end
-- ==== Proof.KB.AggFirst.lean ====
/- Written by the script scratch/gen_modules.js (see AggCases.lean's header for the invocation).
   The aggregation kernel's body at the first block of the contraction (k = 0): the accumulator, whatever it held, is zeroed and takes the
   first block product; nothing is stored into the output block. -/
import proofs.«157338_j2456721293623_2_alg».proof.Proof.KB.AggCases

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes in this case, as pieces (last first), with the proof that the body runs from whole buffers to
    its return, the input blocks kept. -/
noncomputable def runFirst (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : isFirst i) (hc1 : ¬isLast i)
    (x0 : Vec F S2048x2048 .f32) (x1 : Vec F S2048x128 .f32) (x2 : Vec F S1x128 .f32) :
    Σ' (LO : List (View.Piece (Elt F) S2048x128 .f32)), { LS : List (View.Piece (Elt F) S2048x128 .f32) //
      ∀ (xo : Vec F S2048x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg1 harg1 arg2 harg2 arg3 harg3 arg4 harg4 arg5 harg5) K } := by
  refine ⟨[], ?_, fun xo E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fO, %hfO, HO⟩, ⟨%ds, %fs, -, HS⟩, Hk⟩
    obtain rfl := harg1.eq_unread hf0; obtain rfl := harg2.eq_unread hf1; obtain rfl := harg3.eq_unread hf2; obtain rfl := harg4.eq_unread hfO
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HO]
    · iexists _; isplitr; · ipureintro; exact harg4.read_unread _
      iexact HO
    iexists _; iexact HS

end Cert.Kernel.Agg

end
-- ==== Proof.KB.AggMiddle.lean ====
/- Written by the script scratch/gen_modules.js (see AggCases.lean's header for the invocation).
   The aggregation kernel's body at an inner block of the contraction (k = 1, 2): the accumulator takes one more block product on top of
   what the block before left; nothing is stored into the output block. -/
import proofs.«157338_j2456721293623_2_alg».proof.Proof.KB.AggCases

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes in this case, as pieces (last first), with the proof that the body runs from whole buffers to
    its return, the input blocks kept. -/
noncomputable def runMiddle (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : ¬isLast i)
    (x0 : Vec F S2048x2048 .f32) (x1 : Vec F S2048x128 .f32) (x2 : Vec F S1x128 .f32) (xs : Vec F S2048x128 .f32) :
    Σ' (LO : List (View.Piece (Elt F) S2048x128 .f32)), { LS : List (View.Piece (Elt F) S2048x128 .f32) //
      ∀ (xo : Vec F S2048x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg1 harg1 arg2 harg2 arg3 harg3 arg4 harg4 arg5 harg5) K } := by
  refine ⟨[], ?_, fun xo E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fO, %hfO, HO⟩, ⟨%fs, %hfs, HS⟩, Hk⟩
    obtain rfl := harg1.eq_unread hf0; obtain rfl := harg2.eq_unread hf1; obtain rfl := harg3.eq_unread hf2; obtain rfl := harg4.eq_unread hfO
    obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HO]
    · iexists _; isplitr; · ipureintro; exact harg4.read_unread _
      iexact HO
    iexists _; iexact HS

end Cert.Kernel.Agg

end
-- ==== Proof.KB.AggLast.lean ====
/- Written by the script scratch/gen_modules.js (see AggCases.lean's header for the invocation).
   The aggregation kernel's body at the last block of the contraction (k = 3): the accumulator takes the last block product, and the
   output block is stored whole: the accumulator plus the bias row. -/
import proofs.«157338_j2456721293623_2_alg».proof.Proof.KB.AggCases

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes in this case, as pieces (last first), with the proof that the body runs from whole buffers to
    its return, the input blocks kept. -/
noncomputable def runLast (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : isLast i)
    (x0 : Vec F S2048x2048 .f32) (x1 : Vec F S2048x128 .f32) (x2 : Vec F S1x128 .f32) (xs : Vec F S2048x128 .f32) :
    Σ' (LO : List (View.Piece (Elt F) S2048x128 .f32)), { LS : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg1 harg1 arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%dO, %fO, -, HO⟩, ⟨%fs, %hfs, HS⟩, Hk⟩
    obtain rfl := harg1.eq_unread hf0; obtain rfl := harg2.eq_unread hf1; obtain rfl := harg3.eq_unread hf2
    obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HO]; · iexists _; iexact HO
    iexists _; iexact HS

end Cert.Kernel.Agg

end
-- ==== Proof.KB.AggData.lean ====
/- Written by the script scratch/gen_modules.js (see AggCases.lean's header for the invocation).
   The aggregation kernel, point by point. After the body at grid point k the accumulator holds the k-th partial sum (zero plus the block
   products so far) and, at k = 3 only, the output block holds the last partial sum plus the bias row. This module names those contents as
   the read-back of the stores each run makes (stateAt), states the region invariant that carries the accumulator from one point to the
   next, gives the pipeline's proof data, and proves the body obligation at every point by running the body in the case the point is in. -/
import proofs.«157338_j2456721293623_2_alg».proof.Proof.KB.AggFirst
import proofs.«157338_j2456721293623_2_alg».proof.Proof.KB.AggMiddle
import proofs.«157338_j2456721293623_2_alg».proof.Proof.KB.AggLast

set_option maxRecDepth 16384

noncomputable section

namespace Cert.Kernel.Agg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each run leaves, read back -/

def accFirst (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : isFirst i) (hc1 : ¬isLast i) (x0 : Vec F S2048x2048 .f32) (x1 : Vec F S2048x128 .f32) (x2 : Vec F S1x128 .f32) : Vec F S2048x128 .f32 :=
  accV.read (Elt F) (accV.writes (Elt F) accV.junk (runFirst c i arg1 harg1 arg2 harg2 arg3 harg3 arg4 harg4 arg5 harg5 hc0 hc1 x0 x1 x2).2.1)
theorem accFirst_cover (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : isFirst i) (hc1 : ¬isLast i) (x0 : Vec F S2048x2048 .f32) (x1 : Vec F S2048x128 .f32) (x2 : Vec F S1x128 .f32) (y : S2048x128.Idx) :
    ∃ pc ∈ (runFirst c i arg1 harg1 arg2 harg2 arg3 harg3 arg4 harg4 arg5 harg5 hc0 hc1 x0 x1 x2).2.1, y ∈ pc.1.set :=
  View.cover_of_tiledL (runFirst c i arg1 harg1 arg2 harg2 arg3 harg3 arg4 harg4 arg5 harg5 hc0 hc1 x0 x1 x2).2.1 S2048x128.size (by sl_kernel_rfl) y
def outFirst (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : isFirst i) (hc1 : ¬isLast i) (x0 : Vec F S2048x2048 .f32) (x1 : Vec F S2048x128 .f32) (x2 : Vec F S1x128 .f32) : Vec F S2048x128 .f32 :=
  outV.read (Elt F) (outV.writes (Elt F) outV.junk (runFirst c i arg1 harg1 arg2 harg2 arg3 harg3 arg4 harg4 arg5 harg5 hc0 hc1 x0 x1 x2).1)

def accMiddle (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : ¬isLast i) (x0 : Vec F S2048x2048 .f32) (x1 : Vec F S2048x128 .f32) (x2 : Vec F S1x128 .f32) (xs : Vec F S2048x128 .f32) : Vec F S2048x128 .f32 :=
  accV.read (Elt F) (accV.writes (Elt F) accV.junk (runMiddle c i arg1 harg1 arg2 harg2 arg3 harg3 arg4 harg4 arg5 harg5 hc0 hc1 x0 x1 x2 xs).2.1)
theorem accMiddle_cover (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : ¬isLast i) (x0 : Vec F S2048x2048 .f32) (x1 : Vec F S2048x128 .f32) (x2 : Vec F S1x128 .f32) (xs : Vec F S2048x128 .f32) (y : S2048x128.Idx) :
    ∃ pc ∈ (runMiddle c i arg1 harg1 arg2 harg2 arg3 harg3 arg4 harg4 arg5 harg5 hc0 hc1 x0 x1 x2 xs).2.1, y ∈ pc.1.set :=
  View.cover_of_tiledL (runMiddle c i arg1 harg1 arg2 harg2 arg3 harg3 arg4 harg4 arg5 harg5 hc0 hc1 x0 x1 x2 xs).2.1 S2048x128.size (by sl_kernel_rfl) y
def outMiddle (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : ¬isLast i) (x0 : Vec F S2048x2048 .f32) (x1 : Vec F S2048x128 .f32) (x2 : Vec F S1x128 .f32) (xs : Vec F S2048x128 .f32) : Vec F S2048x128 .f32 :=
  outV.read (Elt F) (outV.writes (Elt F) outV.junk (runMiddle c i arg1 harg1 arg2 harg2 arg3 harg3 arg4 harg4 arg5 harg5 hc0 hc1 x0 x1 x2 xs).1)

def accLast (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : isLast i) (x0 : Vec F S2048x2048 .f32) (x1 : Vec F S2048x128 .f32) (x2 : Vec F S1x128 .f32) (xs : Vec F S2048x128 .f32) : Vec F S2048x128 .f32 :=
  accV.read (Elt F) (accV.writes (Elt F) accV.junk (runLast c i arg1 harg1 arg2 harg2 arg3 harg3 arg4 harg4 arg5 harg5 hc0 hc1 x0 x1 x2 xs).2.1)
theorem accLast_cover (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : isLast i) (x0 : Vec F S2048x2048 .f32) (x1 : Vec F S2048x128 .f32) (x2 : Vec F S1x128 .f32) (xs : Vec F S2048x128 .f32) (y : S2048x128.Idx) :
    ∃ pc ∈ (runLast c i arg1 harg1 arg2 harg2 arg3 harg3 arg4 harg4 arg5 harg5 hc0 hc1 x0 x1 x2 xs).2.1, y ∈ pc.1.set :=
  View.cover_of_tiledL (runLast c i arg1 harg1 arg2 harg2 arg3 harg3 arg4 harg4 arg5 harg5 hc0 hc1 x0 x1 x2 xs).2.1 S2048x128.size (by sl_kernel_rfl) y
def outLast (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : isLast i) (x0 : Vec F S2048x2048 .f32) (x1 : Vec F S2048x128 .f32) (x2 : Vec F S1x128 .f32) (xs : Vec F S2048x128 .f32) : Vec F S2048x128 .f32 :=
  outV.read (Elt F) (outV.writes (Elt F) outV.junk (runLast c i arg1 harg1 arg2 harg2 arg3 harg3 arg4 harg4 arg5 harg5 hc0 hc1 x0 x1 x2 xs).1)
theorem outLast_cover (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : isLast i) (x0 : Vec F S2048x2048 .f32) (x1 : Vec F S2048x128 .f32) (x2 : Vec F S1x128 .f32) (xs : Vec F S2048x128 .f32) (y : S2048x128.Idx) :
    ∃ pc ∈ (runLast c i arg1 harg1 arg2 harg2 arg3 harg3 arg4 harg4 arg5 harg5 hc0 hc1 x0 x1 x2 xs).1, y ∈ pc.1.set :=
  View.cover_of_tiledL (runLast c i arg1 harg1 arg2 harg2 arg3 harg3 arg4 harg4 arg5 harg5 hc0 hc1 x0 x1 x2 xs).1 S2048x128.size (by sl_kernel_rfl) y

/-! ## The windows' blocks as the region finds them -/

-- the TensorCore's buffer contents when the region is entered
variable (V : (c : Dev nD) → (b : Ref sig .tc) → Buf (Elt F) ((c : Thread nD τ).loc b))

/-- Window `w`'s block at point `t`, read off its array at the region's entry. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulation -/

/-- No point is both a first and a last block. -/
theorem not_first_last (t : Fin cfg1.N) (hF : isFirst (grid1.coords t)) (hL : isLast (grid1.coords t)) : False := by
  have h0 := (isFirst_iff t).mp hF; have h3 := (isLast_iff t).mp hL; omega

/-- What the output block's staging buffer (first component) and the accumulator (second) hold after the body at
    position `n`: the run of the case `n` is in, at the point's memrefs and input blocks, over what the accumulator held
    after position `n - 1` (nothing of it at a first block, where the accumulator is zeroed). -/
def stateAt (c : Dev nD) : (n : ℕ) → n < cfg1.N → Vec F S2048x128 .f32 × Vec F S2048x128 .f32
  | 0, hn =>
    (outFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) accM (Memref.isWhole_whole _) ((isFirst_iff ⟨0, hn⟩).mpr rfl) (fun h => absurd ((isLast_iff ⟨0, hn⟩).mp h) (show ¬((0 : ℕ) = 3) from by decide)) (iblk V c 0 ⟨0, hn⟩) (iblk V c 1 ⟨0, hn⟩) (iblk V c 2 ⟨0, hn⟩),
     accFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) accM (Memref.isWhole_whole _) ((isFirst_iff ⟨0, hn⟩).mpr rfl) (fun h => absurd ((isLast_iff ⟨0, hn⟩).mp h) (show ¬((0 : ℕ) = 3) from by decide)) (iblk V c 0 ⟨0, hn⟩) (iblk V c 1 ⟨0, hn⟩) (iblk V c 2 ⟨0, hn⟩))
  | n + 1, hn =>
    if hF : isFirst (grid1.coords ⟨n + 1, hn⟩) then
      (outFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) hF (fun hL => not_first_last ⟨n + 1, hn⟩ hF hL) (iblk V c 0 ⟨n + 1, hn⟩) (iblk V c 1 ⟨n + 1, hn⟩) (iblk V c 2 ⟨n + 1, hn⟩),
       accFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) hF (fun hL => not_first_last ⟨n + 1, hn⟩ hF hL) (iblk V c 0 ⟨n + 1, hn⟩) (iblk V c 1 ⟨n + 1, hn⟩) (iblk V c 2 ⟨n + 1, hn⟩))
    else
      if hL : isLast (grid1.coords ⟨n + 1, hn⟩) then
        (outLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) hF hL (iblk V c 0 ⟨n + 1, hn⟩) (iblk V c 1 ⟨n + 1, hn⟩) (iblk V c 2 ⟨n + 1, hn⟩) (stateAt c n (Nat.lt_of_succ_lt hn)).2,
         accLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) hF hL (iblk V c 0 ⟨n + 1, hn⟩) (iblk V c 1 ⟨n + 1, hn⟩) (iblk V c 2 ⟨n + 1, hn⟩) (stateAt c n (Nat.lt_of_succ_lt hn)).2)
      else
        (outMiddle c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) hF hL (iblk V c 0 ⟨n + 1, hn⟩) (iblk V c 1 ⟨n + 1, hn⟩) (iblk V c 2 ⟨n + 1, hn⟩) (stateAt c n (Nat.lt_of_succ_lt hn)).2,
         accMiddle c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) hF hL (iblk V c 0 ⟨n + 1, hn⟩) (iblk V c 1 ⟨n + 1, hn⟩) (iblk V c 2 ⟨n + 1, hn⟩) (stateAt c n (Nat.lt_of_succ_lt hn)).2)

theorem stateAt_first (c : Dev nD) (t : Fin cfg1.N) (hF : isFirst (grid1.coords t)) (hL : ¬isLast (grid1.coords t)) :
    stateAt V c t.val t.isLt = (outFirst c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t), accFirst c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t)) := by
  obtain ⟨n, hn⟩ := t
  cases n with
  | zero => rfl
  | succ n => exact (dif_pos hF).trans rfl

theorem stateAt_middle (c : Dev nD) (t : Fin cfg1.N) (hF : ¬isFirst (grid1.coords t)) (hL : ¬isLast (grid1.coords t)) :
    stateAt V c t.val t.isLt = (outMiddle c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) (stateAt V c (t.val - 1) (Nat.lt_of_le_of_lt (Nat.sub_le _ _) t.isLt)).2,
      accMiddle c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) (stateAt V c (t.val - 1) (Nat.lt_of_le_of_lt (Nat.sub_le _ _) t.isLt)).2) := by
  obtain ⟨n, hn⟩ := t
  cases n with
  | zero => exact absurd ((isFirst_iff ⟨0, hn⟩).mpr rfl) hF
  | succ n => exact (dif_neg hF).trans ((dif_neg hL).trans rfl)

theorem stateAt_last (c : Dev nD) (t : Fin cfg1.N) (hF : ¬isFirst (grid1.coords t)) (hL : isLast (grid1.coords t)) :
    stateAt V c t.val t.isLt = (outLast c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) (stateAt V c (t.val - 1) (Nat.lt_of_le_of_lt (Nat.sub_le _ _) t.isLt)).2,
      accLast c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) (stateAt V c (t.val - 1) (Nat.lt_of_le_of_lt (Nat.sub_le _ _) t.isLt)).2) := by
  obtain ⟨n, hn⟩ := t
  cases n with
  | zero => exact absurd ((isFirst_iff ⟨0, hn⟩).mpr rfl) hF
  | succ n => exact (dif_neg hF).trans ((dif_pos hL).trans rfl)

/-! ## The invariant between points -/

/-- Before the first point the class invariant (every scoped buffer at anything); afterwards the accumulator at what
    the point before left, the other pallas_call's scoped buffers at anything and the generator register. -/
def inv (c : Dev nD) : (n : ℕ) → n ≤ cfg1.N → sProp 𝕄
  | 0, _ => Pipeline.ΦA spec1 c
  | n + 1, hn => iprop(owns (c : Thread nD τ) accM fullShare ((stateAt V c n hn).2) ∗ others c)

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(owns (c : Thread nD τ) accM fullShare ((stateAt V c n hn).2) ∗ others c) := rfl
theorem inv_pos (c : Dev nD) (n : ℕ) (h : n ≤ cfg1.N) (hz : n ≠ 0) :
    inv V c n h = iprop(owns (c : Thread nD τ) accM fullShare ((stateAt V c (n - 1) (by omega)).2) ∗ others c) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (stateAt V c t.val t.isLt).1
  Φ t := inv V c t.val (Nat.le_of_lt_succ t.isLt)
  q _ := fullShare
  owed _ := 0

theorem A_eq (c : Dev nD) (w : Fin cfg1.W) : (dat V c).A w = V c (Pipeline.arrRef spec1 w) := by dsimp only [dat]
theorem inv_castSucc (c : Dev nD) (t : Fin cfg1.N) : (dat V c).Φ t.castSucc = inv V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_out (c : Dev nD) (t : Fin cfg1.N) : (dat V c).after 3 t = (stateAt V c t.val t.isLt).1 := by dsimp only [dat]
theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

theorem leaves_in (c : Dev nD) (t : Fin cfg1.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t) := by
  refine ⟨?_, ?_, ?_⟩
  · unfold Dat.leavesExact; rw [live_0 t, after_0]
  · unfold Dat.leavesExact; rw [live_1 t, after_1]
  · unfold Dat.leavesExact; rw [live_2 t, after_2]

set_option maxHeartbeats 4800000 in
/-- The body at any point: the inputs' memrefs hold their blocks; the point is a first block, an inner one or a last one
    (`by_cases` on the two conditions), and the run of that case applies; the invariant hands the body the accumulator
    (at anything before the very first point, at what the point before left afterwards — which a first block then
    overwrites) and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = inv V c (t.val + 1) t.isLt from rfl, inv_succ]
  rw [(leaves_in V c t).1, (leaves_in V c t).2.1, (leaves_in V c t).2.2]
  by_cases hF : isFirst (grid1.coords t)
  · have hL : ¬isLast (grid1.coords t) := fun h => not_first_last t hF h
    by_cases hz : t.val = 0
    · rw [Dat.leavesExact_idle (dat V c) 3 t (idle_out t hL) (noFlush_out t hL)]
      rw [stateAt_first V c t hF hL]
      unfold accFirst; (try dsimp only)
      rw [inv_castSucc V c t, inv_zero V c _ _ hz]
      iintro ⟨HΦ, Ho, ⟨%d0, H0⟩, ⟨%d1, H1⟩, ⟨%d2, H2⟩, ⟨%dO, HO⟩⟩
      ihave HΦ' := (inv_split (F := F) c) $$ HΦ
      icases HΦ' with ⟨HS, Hoth⟩
      iapply ((runFirst c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t)).2.2 _ Set.univ _)
      isplitl [H0]; · iexact H0
      isplitl [H1]; · iexact H1
      isplitl [H2]; · iexact H2
      isplitl [HO]; · iexact HO
      isplitl [HS]; · iexact HS
      iintro ⟨H0, H1, H2, HO, ⟨%es, HS⟩⟩
      isplitl [HS Hoth]
      · isplitl [HS]
        · unfold owns; iexists _; isplitr
          swap; · iexact HS
          ipureintro; exact View.read_writes_of_cover _ _ _ _ _ (accFirst_cover c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t))
        iexact Hoth
      isplitl [Ho]; · iexact Ho
      isplitl [H0]; · iexact H0
      isplitl [H1]; · iexact H1
      isplitl [H2]; · iexact H2
      iexists _; iexact HO
    · rw [Dat.leavesExact_idle (dat V c) 3 t (idle_out t hL) (noFlush_out t hL)]
      rw [stateAt_first V c t hF hL]
      unfold accFirst; (try dsimp only)
      rw [inv_castSucc V c t, inv_pos V c _ _ hz]
      iintro ⟨⟨HS, Hoth⟩, Ho, ⟨%d0, H0⟩, ⟨%d1, H1⟩, ⟨%d2, H2⟩, ⟨%dO, HO⟩⟩
      iapply ((runFirst c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t)).2.2 _ Set.univ _)
      isplitl [H0]; · iexact H0
      isplitl [H1]; · iexact H1
      isplitl [H2]; · iexact H2
      isplitl [HO]; · iexact HO
      isplitl [HS]; · iexists _; iexact HS
      iintro ⟨H0, H1, H2, HO, ⟨%es, HS⟩⟩
      isplitl [HS Hoth]
      · isplitl [HS]
        · unfold owns; iexists _; isplitr
          swap; · iexact HS
          ipureintro; exact View.read_writes_of_cover _ _ _ _ _ (accFirst_cover c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t))
        iexact Hoth
      isplitl [Ho]; · iexact Ho
      isplitl [H0]; · iexact H0
      isplitl [H1]; · iexact H1
      isplitl [H2]; · iexact H2
      iexists _; iexact HO
  · have hz : t.val ≠ 0 := fun h => hF ((isFirst_iff t).mpr (by rw [h]))
    by_cases hL : isLast (grid1.coords t)
    · rw [show (dat V c).leavesExact 3 t = owns (c : Thread nD τ) (ms_3 t) fullShare ((dat V c).after 3 t) from by
            unfold Dat.leavesExact; rw [live_out t hL], after_out]
      rw [stateAt_last V c t hF hL]
      unfold outLast accLast; (try dsimp only)
      rw [inv_castSucc V c t, inv_pos V c _ _ hz]
      iintro ⟨⟨HS, Hoth⟩, Ho, ⟨%d0, H0⟩, ⟨%d1, H1⟩, ⟨%d2, H2⟩, ⟨%dO, HO⟩⟩
      iapply ((runLast c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) _).2.2 Set.univ _)
      isplitl [H0]; · iexact H0
      isplitl [H1]; · iexact H1
      isplitl [H2]; · iexact H2
      isplitl [HO]; · iexists _; iexact HO
      isplitl [HS]; · iexact HS
      iintro ⟨H0, H1, H2, ⟨%eO, HO⟩, ⟨%es, HS⟩⟩
      isplitl [HS Hoth]
      · isplitl [HS]
        · unfold owns; iexists _; isplitr
          swap; · iexact HS
          ipureintro; exact View.read_writes_of_cover _ _ _ _ _ (accLast_cover c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) _)
        iexact Hoth
      isplitl [Ho]; · iexact Ho
      isplitl [H0]; · iexact H0
      isplitl [H1]; · iexact H1
      isplitl [H2]; · iexact H2
      unfold owns; iexists _; isplitr
      swap; · iexact HO
      ipureintro; exact View.read_writes_of_cover _ _ _ _ _ (outLast_cover c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) _)
    · rw [Dat.leavesExact_idle (dat V c) 3 t (idle_out t hL) (noFlush_out t hL)]
      rw [stateAt_middle V c t hF hL]
      unfold accMiddle; (try dsimp only)
      rw [inv_castSucc V c t, inv_pos V c _ _ hz]
      iintro ⟨⟨HS, Hoth⟩, Ho, ⟨%d0, H0⟩, ⟨%d1, H1⟩, ⟨%d2, H2⟩, ⟨%dO, HO⟩⟩
      iapply ((runMiddle c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) _).2.2 _ Set.univ _)
      isplitl [H0]; · iexact H0
      isplitl [H1]; · iexact H1
      isplitl [H2]; · iexact H2
      isplitl [HO]; · iexact HO
      isplitl [HS]; · iexact HS
      iintro ⟨H0, H1, H2, HO, ⟨%es, HS⟩⟩
      isplitl [HS Hoth]
      · isplitl [HS]
        · unfold owns; iexists _; isplitr
          swap; · iexact HS
          ipureintro; exact View.read_writes_of_cover _ _ _ _ _ (accMiddle_cover c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) _)
        iexact Hoth
      isplitl [Ho]; · iexact Ho
      isplitl [H0]; · iexact H0
      isplitl [H1]; · iexact H1
      isplitl [H2]; · iexact H2
      iexists _; iexact HO

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After the last point the invariant gives the class invariant back: the accumulator's contents are forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 4 := N_1; omega)]
  iintro ⟨HS, Hoth⟩
  iapply (inv_join (F := F) c)
  isplitl [HS]
  · iexists _; iexact HS
  iexact Hoth

end Cert.Kernel.Agg

end
-- ==== Proof.KB.FusedCases.lean ====
/- Written by the script scratch/gen_modules.js (bun scratch/gen_modules.js <dir>; its function genRegion, called with the record printed at the end of this comment): the same text for each
   of the two pallas_calls and for both printings of the program; the argument is written once, in that script's template.
   The first pallas_call, h2 = relu(A · W1 + b1) · W2, runs on a 4 × 4 grid: row block i of 2048 rows of A (the outer axis) and block k of
   2048 columns of the contraction (the inner axis), point t = 4·i + k. A VMEM accumulator of shape 2048×512 is zeroed at k = 0, takes one
   block product at every k, and at k = 3 is read out: bias row added, clamped below at zero, multiplied by W2 into the row block's output.
   This module fixes, for that kernel: the two branch conditions as facts about the grid point, at which points the output window is idle,
   the memrefs the body is called with, and the region invariant with the accumulator singled out.
   genRegion({"prog":"Kernel","ns":"Fused","K":0,"kernel":"cc0__fused_layer1_kernel","axis":1,"N":16}) -/
import proofs.«157338_j2456721293623_2_alg».proof.Proof.Gen.Kernel.Launch
import proofs.«157338_j2456721293623_2_alg».proof.Proof.Gen.Kernel.Skeleton
import proofs.«157338_j2456721293623_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "this is the first block of the contraction": the accumulator is zeroed. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "this is the last block of the contraction": the accumulator is read out. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
/-- Before the last block nothing is stored into the output block: the window is idle and is not written back. -/
theorem idle_out : ∀ t : Fin cfg0.N, ¬isLast (grid0.coords t) → cfg0.idle 4 (grid0.coords t) = true := by decide +kernel
theorem noFlush_out : ∀ t : Fin cfg0.N, ¬isLast (grid0.coords t) → (cfg0.win 4).flush t = false := by decide +kernel
theorem live_out : ∀ t : Fin cfg0.N, isLast (grid0.coords t) → cfg0.idle 4 (grid0.coords t) = false := by decide +kernel

/-! ## The memrefs the body is called with -/

abbrev ms_0 (t : Fin cfg0.N) : Memref sig .tc .vmem S2048x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x512 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x512 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2048x128 .f32 := win0_4.stage (cfg0.slots t 4)
abbrev hs_4 (t : Fin cfg0.N) : (ms_4 t).IsWhole := hstage0_4 ((cfg0.slots t 4).cast nbuf0_4)
/-- The accumulator: a whole scoped buffer of the kernel's own. -/
abbrev accM : Memref sig .tc .vmem S2048x512 .f32 := Memref.whole cc0_scratch0
/-- The views through which the output block's and the accumulator's contents are stated. -/
abbrev outV : View sig .tc .vmem S2048x128 .f32 := (Memref.whole cc0_stg4_0 : Memref sig .tc .vmem S2048x128 .f32).view
abbrev accV : View sig .tc .vmem S2048x512 .f32 := accM.view

/-! ## The region invariant, the accumulator singled out -/

/-- The other pallas_call's scoped buffers, each whole at some contents, and the generator register: what this kernel
    never touches. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_scratch0), ((c : Thread nD τ).loc cc1_scratch0) ↦{fullShare} f)
    ∗ (∃ r, prngReg c r))

/-- The class invariant hands out the accumulator at some contents beside the rest, -/
theorem inv_split (c : Dev nD) :
    (Pipeline.ΦA spec0 c : sProp 𝕄) ⊢ iprop((∃ d, owns (c : Thread nD τ) accM fullShare d) ∗ others c) := by
  unfold Pipeline.ΦA others; rw [scopedRest0_eq]; simp only [accM, owns_whole]
  iintro ⟨⟨HA, H0, H1, H2, H3, H4, H5, H6⟩, Hp⟩
  isplitl [HA]; · iexact HA
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hp

/-- and takes it back. -/
theorem inv_join (c : Dev nD) :
    iprop((∃ d, owns (c : Thread nD τ) accM fullShare d) ∗ others c) ⊢ (Pipeline.ΦA spec0 c : sProp 𝕄) := by
  unfold Pipeline.ΦA others; rw [scopedRest0_eq]; simp only [accM, owns_whole]
  iintro ⟨HA, H0, H1, H2, H3, H4, H5, H6, Hp⟩
  isplitr [Hp]; swap; · iexact Hp
  isplitl [HA]; · iexact HA
  isplitl [H0]; · iexact H0
  isplitl [H1]; · iexact H1
  isplitl [H2]; · iexact H2
  isplitl [H3]; · iexact H3
  isplitl [H4]; · iexact H4
  isplitl [H5]; · iexact H5
  iexact H6

end Cert.Kernel.Fused

end
-- ==== Proof.KB.FusedFirst.lean ====
/- Written by the script scratch/gen_modules.js (see FusedCases.lean's header for the invocation).
   The fused layer kernel's body at the first block of a row block's contraction (k = 0): the accumulator, whatever it held, is zeroed and
   takes the first block product; nothing is stored into the output block. -/
import proofs.«157338_j2456721293623_2_alg».proof.Proof.KB.FusedCases

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes in this case, as pieces (last first), with the proof that the body runs from whole buffers to
    its return, the input blocks kept. -/
noncomputable def runFirst (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : isFirst i) (hc1 : ¬isLast i)
    (x0 : Vec F S2048x2048 .f32) (x1 : Vec F S2048x512 .f32) (x2 : Vec F S1x512 .f32) (x3 : Vec F S512x128 .f32) :
    Σ' (LO : List (View.Piece (Elt F) S2048x128 .f32)), { LS : List (View.Piece (Elt F) S2048x512 .f32) //
      ∀ (xo : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__fused_layer1_kernel i arg2 harg2 arg3 harg3 arg4 harg4 arg5 harg5 arg6 harg6 arg7 harg7) K } := by
  refine ⟨[], ?_, fun xo E K => ?run⟩
  case run =>
    simp only [cc0__fused_layer1_kernel_eq_skeleton]; unfold cc0__fused_layer1_kernel_skel
    unfold owns
    iintro ⟨⟨%f0, %hf0, H0⟩, ⟨%f1, %hf1, H1⟩, ⟨%f2, %hf2, H2⟩, ⟨%f3, %hf3, H3⟩, ⟨%fO, %hfO, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.Kernel.Fused

end
-- ==== Proof.KB.FusedMiddle.lean ====
/- Written by the script scratch/gen_modules.js (see FusedCases.lean's header for the invocation).
   The fused layer kernel's body at an inner block of the contraction (k = 1, 2): the accumulator takes one more block product; nothing is
   stored into the output block. -/
import proofs.«157338_j2456721293623_2_alg».proof.Proof.KB.FusedCases

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes in this case, as pieces (last first), with the proof that the body runs from whole buffers to
    its return, the input blocks kept. -/
noncomputable def runMiddle (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : ¬isLast i)
    (x0 : Vec F S2048x2048 .f32) (x1 : Vec F S2048x512 .f32) (x2 : Vec F S1x512 .f32) (x3 : Vec F S512x128 .f32) (xs : Vec F S2048x512 .f32) :
    Σ' (LO : List (View.Piece (Elt F) S2048x128 .f32)), { LS : List (View.Piece (Elt F) S2048x512 .f32) //
      ∀ (xo : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__fused_layer1_kernel i arg2 harg2 arg3 harg3 arg4 harg4 arg5 harg5 arg6 harg6 arg7 harg7) K } := by
  refine ⟨[], ?_, fun xo E K => ?run⟩
  case run =>
    simp only [cc0__fused_layer1_kernel_eq_skeleton]; unfold cc0__fused_layer1_kernel_skel
    unfold owns
    iintro ⟨⟨%f0, %hf0, H0⟩, ⟨%f1, %hf1, H1⟩, ⟨%f2, %hf2, H2⟩, ⟨%f3, %hf3, H3⟩, ⟨%fO, %hfO, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfO
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.Kernel.Fused

end
-- ==== Proof.KB.FusedLast.lean ====
/- Written by the script scratch/gen_modules.js (see FusedCases.lean's header for the invocation).
   The fused layer kernel's body at the last block of the contraction (k = 3): the accumulator takes the last block product, and the
   output block is stored whole: relu(accumulator + bias row) · W2. -/
import proofs.«157338_j2456721293623_2_alg».proof.Proof.KB.FusedCases

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes in this case, as pieces (last first), with the proof that the body runs from whole buffers to
    its return, the input blocks kept. -/
noncomputable def runLast (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : isLast i)
    (x0 : Vec F S2048x2048 .f32) (x1 : Vec F S2048x512 .f32) (x2 : Vec F S1x512 .f32) (x3 : Vec F S512x128 .f32) (xs : Vec F S2048x512 .f32) :
    Σ' (LO : List (View.Piece (Elt F) S2048x128 .f32)), { LS : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__fused_layer1_kernel i arg2 harg2 arg3 harg3 arg4 harg4 arg5 harg5 arg6 harg6 arg7 harg7) K } := by
  refine ⟨?_, ?_, fun E K => ?run⟩
  case run =>
    simp only [cc0__fused_layer1_kernel_eq_skeleton]; unfold cc0__fused_layer1_kernel_skel
    unfold owns
    iintro ⟨⟨%f0, %hf0, H0⟩, ⟨%f1, %hf1, H1⟩, ⟨%f2, %hf2, H2⟩, ⟨%f3, %hf3, H3⟩, ⟨%dO, %fO, -, HO⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.Kernel.Fused

end
-- ==== Proof.KB.FusedData.lean ====
/- Written by the script scratch/gen_modules.js (see FusedCases.lean's header for the invocation).
   The fused layer kernel, point by point: after the body at point t = 4·i + k the accumulator holds row block i's k-th partial sum, and
   at k = 3 the output block holds relu(sum + b1) · W2 for that row block. This module names those contents as the read-back of the stores
   each run makes (stateAt), states the region invariant that carries the accumulator from one point to the next (a first block overwrites
   what the previous row block left), gives the pipeline's proof data, and proves the body obligation at every point. -/
import proofs.«157338_j2456721293623_2_alg».proof.Proof.KB.FusedFirst
import proofs.«157338_j2456721293623_2_alg».proof.Proof.KB.FusedMiddle
import proofs.«157338_j2456721293623_2_alg».proof.Proof.KB.FusedLast

set_option maxRecDepth 16384

noncomputable section

namespace Cert.Kernel.Fused

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each run leaves, read back -/

def accFirst (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : isFirst i) (hc1 : ¬isLast i) (x0 : Vec F S2048x2048 .f32) (x1 : Vec F S2048x512 .f32) (x2 : Vec F S1x512 .f32) (x3 : Vec F S512x128 .f32) : Vec F S2048x512 .f32 :=
  accV.read (Elt F) (accV.writes (Elt F) accV.junk (runFirst c i arg2 harg2 arg3 harg3 arg4 harg4 arg5 harg5 arg6 harg6 arg7 harg7 hc0 hc1 x0 x1 x2 x3).2.1)
theorem accFirst_cover (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : isFirst i) (hc1 : ¬isLast i) (x0 : Vec F S2048x2048 .f32) (x1 : Vec F S2048x512 .f32) (x2 : Vec F S1x512 .f32) (x3 : Vec F S512x128 .f32) (y : S2048x512.Idx) :
    ∃ pc ∈ (runFirst c i arg2 harg2 arg3 harg3 arg4 harg4 arg5 harg5 arg6 harg6 arg7 harg7 hc0 hc1 x0 x1 x2 x3).2.1, y ∈ pc.1.set :=
  View.cover_of_tiledL (runFirst c i arg2 harg2 arg3 harg3 arg4 harg4 arg5 harg5 arg6 harg6 arg7 harg7 hc0 hc1 x0 x1 x2 x3).2.1 S2048x512.size (by sl_kernel_rfl) y
def outFirst (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : isFirst i) (hc1 : ¬isLast i) (x0 : Vec F S2048x2048 .f32) (x1 : Vec F S2048x512 .f32) (x2 : Vec F S1x512 .f32) (x3 : Vec F S512x128 .f32) : Vec F S2048x128 .f32 :=
  outV.read (Elt F) (outV.writes (Elt F) outV.junk (runFirst c i arg2 harg2 arg3 harg3 arg4 harg4 arg5 harg5 arg6 harg6 arg7 harg7 hc0 hc1 x0 x1 x2 x3).1)

def accMiddle (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : ¬isLast i) (x0 : Vec F S2048x2048 .f32) (x1 : Vec F S2048x512 .f32) (x2 : Vec F S1x512 .f32) (x3 : Vec F S512x128 .f32) (xs : Vec F S2048x512 .f32) : Vec F S2048x512 .f32 :=
  accV.read (Elt F) (accV.writes (Elt F) accV.junk (runMiddle c i arg2 harg2 arg3 harg3 arg4 harg4 arg5 harg5 arg6 harg6 arg7 harg7 hc0 hc1 x0 x1 x2 x3 xs).2.1)
theorem accMiddle_cover (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : ¬isLast i) (x0 : Vec F S2048x2048 .f32) (x1 : Vec F S2048x512 .f32) (x2 : Vec F S1x512 .f32) (x3 : Vec F S512x128 .f32) (xs : Vec F S2048x512 .f32) (y : S2048x512.Idx) :
    ∃ pc ∈ (runMiddle c i arg2 harg2 arg3 harg3 arg4 harg4 arg5 harg5 arg6 harg6 arg7 harg7 hc0 hc1 x0 x1 x2 x3 xs).2.1, y ∈ pc.1.set :=
  View.cover_of_tiledL (runMiddle c i arg2 harg2 arg3 harg3 arg4 harg4 arg5 harg5 arg6 harg6 arg7 harg7 hc0 hc1 x0 x1 x2 x3 xs).2.1 S2048x512.size (by sl_kernel_rfl) y
def outMiddle (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : ¬isLast i) (x0 : Vec F S2048x2048 .f32) (x1 : Vec F S2048x512 .f32) (x2 : Vec F S1x512 .f32) (x3 : Vec F S512x128 .f32) (xs : Vec F S2048x512 .f32) : Vec F S2048x128 .f32 :=
  outV.read (Elt F) (outV.writes (Elt F) outV.junk (runMiddle c i arg2 harg2 arg3 harg3 arg4 harg4 arg5 harg5 arg6 harg6 arg7 harg7 hc0 hc1 x0 x1 x2 x3 xs).1)

def accLast (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : isLast i) (x0 : Vec F S2048x2048 .f32) (x1 : Vec F S2048x512 .f32) (x2 : Vec F S1x512 .f32) (x3 : Vec F S512x128 .f32) (xs : Vec F S2048x512 .f32) : Vec F S2048x512 .f32 :=
  accV.read (Elt F) (accV.writes (Elt F) accV.junk (runLast c i arg2 harg2 arg3 harg3 arg4 harg4 arg5 harg5 arg6 harg6 arg7 harg7 hc0 hc1 x0 x1 x2 x3 xs).2.1)
theorem accLast_cover (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : isLast i) (x0 : Vec F S2048x2048 .f32) (x1 : Vec F S2048x512 .f32) (x2 : Vec F S1x512 .f32) (x3 : Vec F S512x128 .f32) (xs : Vec F S2048x512 .f32) (y : S2048x512.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S2048x512.size (by sl_kernel_rfl) y
def outLast (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : isLast i) (x0 : Vec F S2048x2048 .f32) (x1 : Vec F S2048x512 .f32) (x2 : Vec F S1x512 .f32) (x3 : Vec F S512x128 .f32) (xs : Vec F S2048x512 .f32) : Vec F S2048x128 .f32 :=
  outV.read (Elt F) (outV.writes (Elt F) outV.junk (runLast c i arg2 harg2 arg3 harg3 arg4 harg4 arg5 harg5 arg6 harg6 arg7 harg7 hc0 hc1 x0 x1 x2 x3 xs).1)
theorem outLast_cover (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : isLast i) (x0 : Vec F S2048x2048 .f32) (x1 : Vec F S2048x512 .f32) (x2 : Vec F S1x512 .f32) (x3 : Vec F S512x128 .f32) (xs : Vec F S2048x512 .f32) (y : S2048x128.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S2048x128.size (by sl_kernel_rfl) y

/-! ## The windows' blocks as the region finds them -/

-- the TensorCore's buffer contents when the region is entered
variable (V : (c : Dev nD) → (b : Ref sig .tc) → Buf (Elt F) ((c : Thread nD τ).loc b))

/-- Window `w`'s block at point `t`, read off its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The accumulation -/

/-- No point is both a first and a last block. -/
theorem not_first_last (t : Fin cfg0.N) (hF : isFirst (grid0.coords t)) (hL : isLast (grid0.coords t)) : False := by
  have h0 := (isFirst_iff t).mp hF; have h3 := (isLast_iff t).mp hL; omega

/-- What the output block's staging buffer (first component) and the accumulator (second) hold after the body at
    position `n`: the run of the case `n` is in, at the point's memrefs and input blocks, over what the accumulator held
    after position `n - 1` (nothing of it at a first block, where the accumulator is zeroed). -/
def stateAt (c : Dev nD) : (n : ℕ) → n < cfg0.N → Vec F S2048x128 .f32 × Vec F S2048x512 .f32
  | 0, hn =>
    (outFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) accM (Memref.isWhole_whole _) ((isFirst_iff ⟨0, hn⟩).mpr rfl) (fun h => absurd ((isLast_iff ⟨0, hn⟩).mp h) (show ¬((0 : ℕ) % 4 = 3) from by decide)) (iblk V c 0 ⟨0, hn⟩) (iblk V c 1 ⟨0, hn⟩) (iblk V c 2 ⟨0, hn⟩) (iblk V c 3 ⟨0, hn⟩),
     accFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) accM (Memref.isWhole_whole _) ((isFirst_iff ⟨0, hn⟩).mpr rfl) (fun h => absurd ((isLast_iff ⟨0, hn⟩).mp h) (show ¬((0 : ℕ) % 4 = 3) from by decide)) (iblk V c 0 ⟨0, hn⟩) (iblk V c 1 ⟨0, hn⟩) (iblk V c 2 ⟨0, hn⟩) (iblk V c 3 ⟨0, hn⟩))
  | n + 1, hn =>
    if hF : isFirst (grid0.coords ⟨n + 1, hn⟩) then
      (outFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accM (Memref.isWhole_whole _) hF (fun hL => not_first_last ⟨n + 1, hn⟩ hF hL) (iblk V c 0 ⟨n + 1, hn⟩) (iblk V c 1 ⟨n + 1, hn⟩) (iblk V c 2 ⟨n + 1, hn⟩) (iblk V c 3 ⟨n + 1, hn⟩),
       accFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accM (Memref.isWhole_whole _) hF (fun hL => not_first_last ⟨n + 1, hn⟩ hF hL) (iblk V c 0 ⟨n + 1, hn⟩) (iblk V c 1 ⟨n + 1, hn⟩) (iblk V c 2 ⟨n + 1, hn⟩) (iblk V c 3 ⟨n + 1, hn⟩))
    else
      if hL : isLast (grid0.coords ⟨n + 1, hn⟩) then
        (outLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accM (Memref.isWhole_whole _) hF hL (iblk V c 0 ⟨n + 1, hn⟩) (iblk V c 1 ⟨n + 1, hn⟩) (iblk V c 2 ⟨n + 1, hn⟩) (iblk V c 3 ⟨n + 1, hn⟩) (stateAt c n (Nat.lt_of_succ_lt hn)).2,
         accLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accM (Memref.isWhole_whole _) hF hL (iblk V c 0 ⟨n + 1, hn⟩) (iblk V c 1 ⟨n + 1, hn⟩) (iblk V c 2 ⟨n + 1, hn⟩) (iblk V c 3 ⟨n + 1, hn⟩) (stateAt c n (Nat.lt_of_succ_lt hn)).2)
      else
        (outMiddle c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accM (Memref.isWhole_whole _) hF hL (iblk V c 0 ⟨n + 1, hn⟩) (iblk V c 1 ⟨n + 1, hn⟩) (iblk V c 2 ⟨n + 1, hn⟩) (iblk V c 3 ⟨n + 1, hn⟩) (stateAt c n (Nat.lt_of_succ_lt hn)).2,
         accMiddle c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accM (Memref.isWhole_whole _) hF hL (iblk V c 0 ⟨n + 1, hn⟩) (iblk V c 1 ⟨n + 1, hn⟩) (iblk V c 2 ⟨n + 1, hn⟩) (iblk V c 3 ⟨n + 1, hn⟩) (stateAt c n (Nat.lt_of_succ_lt hn)).2)

theorem stateAt_first (c : Dev nD) (t : Fin cfg0.N) (hF : isFirst (grid0.coords t)) (hL : ¬isLast (grid0.coords t)) :
    stateAt V c t.val t.isLt = (outFirst c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t), accFirst c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t)) := by
  obtain ⟨n, hn⟩ := t
  cases n with
  | zero => rfl
  | succ n => exact (dif_pos hF).trans rfl

theorem stateAt_middle (c : Dev nD) (t : Fin cfg0.N) (hF : ¬isFirst (grid0.coords t)) (hL : ¬isLast (grid0.coords t)) :
    stateAt V c t.val t.isLt = (outMiddle c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) (stateAt V c (t.val - 1) (Nat.lt_of_le_of_lt (Nat.sub_le _ _) t.isLt)).2,
      accMiddle c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) (stateAt V c (t.val - 1) (Nat.lt_of_le_of_lt (Nat.sub_le _ _) t.isLt)).2) := by
  obtain ⟨n, hn⟩ := t
  cases n with
  | zero => exact absurd ((isFirst_iff ⟨0, hn⟩).mpr rfl) hF
  | succ n => exact (dif_neg hF).trans ((dif_neg hL).trans rfl)

theorem stateAt_last (c : Dev nD) (t : Fin cfg0.N) (hF : ¬isFirst (grid0.coords t)) (hL : isLast (grid0.coords t)) :
    stateAt V c t.val t.isLt = (outLast c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) (stateAt V c (t.val - 1) (Nat.lt_of_le_of_lt (Nat.sub_le _ _) t.isLt)).2,
      accLast c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) (stateAt V c (t.val - 1) (Nat.lt_of_le_of_lt (Nat.sub_le _ _) t.isLt)).2) := by
  obtain ⟨n, hn⟩ := t
  cases n with
  | zero => exact absurd ((isFirst_iff ⟨0, hn⟩).mpr rfl) hF
  | succ n => exact (dif_neg hF).trans ((dif_pos hL).trans rfl)

/-! ## The invariant between points -/

/-- Before the first point the class invariant (every scoped buffer at anything); afterwards the accumulator at what
    the point before left, the other pallas_call's scoped buffers at anything and the generator register. -/
def inv (c : Dev nD) : (n : ℕ) → n ≤ cfg0.N → sProp 𝕄
  | 0, _ => Pipeline.ΦA spec0 c
  | n + 1, hn => iprop(owns (c : Thread nD τ) accM fullShare ((stateAt V c n hn).2) ∗ others c)

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(owns (c : Thread nD τ) accM fullShare ((stateAt V c n hn).2) ∗ others c) := rfl
theorem inv_pos (c : Dev nD) (n : ℕ) (h : n ≤ cfg0.N) (hz : n ≠ 0) :
    inv V c n h = iprop(owns (c : Thread nD τ) accM fullShare ((stateAt V c (n - 1) (by omega)).2) ∗ others c) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (stateAt V c t.val t.isLt).1
  Φ t := inv V c t.val (Nat.le_of_lt_succ t.isLt)
  q _ := fullShare
  owed _ := 0

theorem A_eq (c : Dev nD) (w : Fin cfg0.W) : (dat V c).A w = V c (Pipeline.arrRef spec0 w) := by dsimp only [dat]
theorem inv_castSucc (c : Dev nD) (t : Fin cfg0.N) : (dat V c).Φ t.castSucc = inv V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_out (c : Dev nD) (t : Fin cfg0.N) : (dat V c).after 4 t = (stateAt V c t.val t.isLt).1 := by dsimp only [dat]
theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

theorem leaves_in (c : Dev nD) (t : Fin cfg0.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t)
    ∧ (dat V c).leavesExact 3 t = owns (c : Thread nD τ) (ms_3 t) fullShare (iblk V c 3 t) := by
  refine ⟨?_, ?_, ?_, ?_⟩
  · unfold Dat.leavesExact; rw [live_0 t, after_0]
  · unfold Dat.leavesExact; rw [live_1 t, after_1]
  · unfold Dat.leavesExact; rw [live_2 t, after_2]
  · unfold Dat.leavesExact; rw [live_3 t, after_3]

set_option maxHeartbeats 4800000 in
/-- The body at any point: the inputs' memrefs hold their blocks; the point is a first block, an inner one or a last one
    (`by_cases` on the two conditions), and the run of that case applies; the invariant hands the body the accumulator
    (at anything before the very first point, at what the point before left afterwards — which a first block then
    overwrites) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = inv V c (t.val + 1) t.isLt from rfl, inv_succ]
  rw [(leaves_in V c t).1, (leaves_in V c t).2.1, (leaves_in V c t).2.2.1, (leaves_in V c t).2.2.2]
  by_cases hF : isFirst (grid0.coords t)
  · have hL : ¬isLast (grid0.coords t) := fun h => not_first_last t hF h
    by_cases hz : t.val = 0
    · rw [Dat.leavesExact_idle (dat V c) 4 t (idle_out t hL) (noFlush_out t hL)]
      rw [stateAt_first V c t hF hL]
      unfold accFirst; (try dsimp only)
      rw [inv_castSucc V c t, inv_zero V c _ _ hz]
      iintro ⟨HΦ, Ho, ⟨%d0, H0⟩, ⟨%d1, H1⟩, ⟨%d2, H2⟩, ⟨%d3, H3⟩, ⟨%dO, HO⟩⟩
      ihave HΦ' := (inv_split (F := F) c) $$ HΦ
      icases HΦ' with ⟨HS, Hoth⟩
      iapply ((runFirst c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [HO]; · iexact HO
      isplitl [HS]; · iexact HS
      iintro ⟨H0, H1, H2, H3, HO, ⟨%es, HS⟩⟩
      isplitl [HS Hoth]
      · isplitl [HS]
        · unfold owns; iexists _; isplitr
          swap; · iexact HS
          ipureintro; exact View.read_writes_of_cover _ _ _ _ _ (accFirst_cover c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t))
        iexact Hoth
      isplitl [Ho]; · iexact Ho
      isplitl [H0]; · iexact H0
      isplitl [H1]; · iexact H1
      isplitl [H2]; · iexact H2
      isplitl [H3]; · iexact H3
      iexists _; iexact HO
    · rw [Dat.leavesExact_idle (dat V c) 4 t (idle_out t hL) (noFlush_out t hL)]
      rw [stateAt_first V c t hF hL]
      unfold accFirst; (try dsimp only)
      rw [inv_castSucc V c t, inv_pos V c _ _ hz]
      iintro ⟨⟨HS, Hoth⟩, Ho, ⟨%d0, H0⟩, ⟨%d1, H1⟩, ⟨%d2, H2⟩, ⟨%d3, H3⟩, ⟨%dO, HO⟩⟩
      iapply ((runFirst c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [HO]; · iexact HO
      isplitl [HS]; · iexists _; iexact HS
      iintro ⟨H0, H1, H2, H3, HO, ⟨%es, HS⟩⟩
      isplitl [HS Hoth]
      · isplitl [HS]
        · unfold owns; iexists _; isplitr
          swap; · iexact HS
          ipureintro; exact View.read_writes_of_cover _ _ _ _ _ (accFirst_cover c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t))
        iexact Hoth
      isplitl [Ho]; · iexact Ho
      isplitl [H0]; · iexact H0
      isplitl [H1]; · iexact H1
      isplitl [H2]; · iexact H2
      isplitl [H3]; · iexact H3
      iexists _; iexact HO
  · have hz : t.val ≠ 0 := fun h => hF ((isFirst_iff t).mpr (by rw [h]))
    by_cases hL : isLast (grid0.coords t)
    · rw [show (dat V c).leavesExact 4 t = owns (c : Thread nD τ) (ms_4 t) fullShare ((dat V c).after 4 t) from by
            unfold Dat.leavesExact; rw [live_out t hL], after_out]
      rw [stateAt_last V c t hF hL]
      unfold outLast accLast; (try dsimp only)
      rw [inv_castSucc V c t, inv_pos V c _ _ hz]
      iintro ⟨⟨HS, Hoth⟩, Ho, ⟨%d0, H0⟩, ⟨%d1, H1⟩, ⟨%d2, H2⟩, ⟨%d3, H3⟩, ⟨%dO, HO⟩⟩
      iapply ((runLast c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [HO]; · iexists _; iexact HO
      isplitl [HS]; · iexact HS
      iintro ⟨H0, H1, H2, H3, ⟨%eO, HO⟩, ⟨%es, HS⟩⟩
      isplitl [HS Hoth]
      · isplitl [HS]
        · unfold owns; iexists _; isplitr
          swap; · iexact HS
          ipureintro; exact View.read_writes_of_cover _ _ _ _ _ (accLast_cover c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) _)
        iexact Hoth
      isplitl [Ho]; · iexact Ho
      isplitl [H0]; · iexact H0
      isplitl [H1]; · iexact H1
      isplitl [H2]; · iexact H2
      isplitl [H3]; · iexact H3
      unfold owns; iexists _; isplitr
      swap; · iexact HO
      ipureintro; exact View.read_writes_of_cover _ _ _ _ _ (outLast_cover c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) _)
    · rw [Dat.leavesExact_idle (dat V c) 4 t (idle_out t hL) (noFlush_out t hL)]
      rw [stateAt_middle V c t hF hL]
      unfold accMiddle; (try dsimp only)
      rw [inv_castSucc V c t, inv_pos V c _ _ hz]
      iintro ⟨⟨HS, Hoth⟩, Ho, ⟨%d0, H0⟩, ⟨%d1, H1⟩, ⟨%d2, H2⟩, ⟨%d3, H3⟩, ⟨%dO, HO⟩⟩
      iapply ((runMiddle c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [HO]; · iexact HO
      isplitl [HS]; · iexact HS
      iintro ⟨H0, H1, H2, H3, HO, ⟨%es, HS⟩⟩
      isplitl [HS Hoth]
      · isplitl [HS]
        · unfold owns; iexists _; isplitr
          swap; · iexact HS
          ipureintro; exact View.read_writes_of_cover _ _ _ _ _ (accMiddle_cover c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) _)
        iexact Hoth
      isplitl [Ho]; · iexact Ho
      isplitl [H0]; · iexact H0
      isplitl [H1]; · iexact H1
      isplitl [H2]; · iexact H2
      isplitl [H3]; · iexact H3
      iexists _; iexact HO

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives the class invariant back: the accumulator's contents are forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 16 := N_0; omega)]
  iintro ⟨HS, Hoth⟩
  iapply (inv_join (F := F) c)
  isplitl [HS]
  · iexists _; iexact HS
  iexact Hoth

end Cert.Kernel.Fused

end
-- ==== Proof.KB.Whole.lean ====
/- Written by the script scratch/gen_modules.js (bun scratch/gen_modules.js <dir>; one template, instantiated at the program's namespace:
   genWhole("Kernel")); the argument is written once, in that template.
   The whole program as a run. @main is: three stretches of host operations (the edge list with its self loops, the degrees and their
   inverse square roots, the edge weights, the dense weighted adjacency matrix by one scatter-add, the two bias rows), the first
   pallas_call (which fills main_v47), one more stretch (the queried rows gathered out of the adjacency matrix), the second
   pallas_call (which fills the result main_v55). Between two items every unscoped buffer is held at a valuation: the launch
   memory, then `StableHlo.after` each stretch, then updated at what a pallas_call's pipeline leaves in its output array
   (`Dat.arrAt` of the region's proof data at its last point). The run theorem: every weakly fair execution terminates and every
   unscoped buffer ends at the last valuation — the arguments as launched, the result at the second pipeline's write-back. -/
import proofs.«157338_j2456721293623_2_alg».proof.Proof.KB.AggData
import proofs.«157338_j2456721293623_2_alg».proof.Proof.KB.FusedData
import proofs.«157338_j2456721293623_2_alg».proof.Proof.Gen.Kernel.Regions
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two pipelines leave, and the valuations between the items -/

/-- The buffers at the first pallas_call's entry, read at the TensorCore's references. -/
abbrev E3 : (c : Dev nD) → (b : Ref sig .tc) → Buf (Elt F) ((c : Thread nD τ).loc b) := fun c b => V3 m c b

/-- What the first pipeline leaves in its output array main_v47. -/
def out47 (c : Dev nD) : Buf (Elt F) ((c : Thread nD τ).loc main_v47) := (Fused.dat (E3 m) c).arrAt 4 cfg0.N

/-- The regions' leavings so far: main_v47 known, the rest not yet. -/
def outsA : Outs (F := F) := fun _ r c => if h : r = main_v47 then h ▸ out47 m c else Classical.arbitrary _

abbrev E5 : (c : Dev nD) → (b : Ref sig .tc) → Buf (Elt F) ((c : Thread nD τ).loc b) := fun c b => V5 m (outsA m) c b

/-- What the second pipeline leaves in the result array main_v55. -/
def out55 (c : Dev nD) : Buf (Elt F) ((c : Thread nD τ).loc main_v55) := (Agg.dat (E5 m) c).arrAt 3 cfg1.N

/-- Both regions' leavings. -/
def outs : Outs (F := F) := fun _ r c =>
  if h : r = main_v47 then h ▸ out47 m c else if h' : r = main_v55 then h' ▸ out55 m c else Classical.arbitrary _

theorem outs_47 (J : ℕ) (c : Dev nD) : outs m J main_v47 c = out47 m c := by unfold outs; rw [dif_pos rfl]
theorem outsA_47 (J : ℕ) (c : Dev nD) : outsA m J main_v47 c = out47 m c := by unfold outsA; rw [dif_pos rfl]
theorem outs_55 (J : ℕ) (c : Dev nD) : outs m J main_v55 c = out55 m c := by
  unfold outs; rw [dif_neg (by decide), dif_pos rfl]

theorem V4_outs (c : Dev nD) : V4 m (outs m) c = V4 m (outsA m) c := by
  unfold V4; rw [outs_47, outsA_47]
theorem V5_outs (c : Dev nD) : V5 m (outs m) c = V5 m (outsA m) c := by
  unfold V5; rw [V4_outs]

abbrev E4 : (c : Dev nD) → (b : Ref sig .tc) → Buf (Elt F) ((c : Thread nD τ).loc b) := fun c b => V4 m (outs m) c b
abbrev E6 : (c : Dev nD) → (b : Ref sig .tc) → Buf (Elt F) ((c : Thread nD τ).loc b) := fun c b => V6 m (outs m) c b

/-! ## The proof data family and the thread state -/

def pdats : (p : Fin 2) → (c : Dev nD) → Dat τ (Elt F) Unit ℕ (UR sig nD τ) ℕ (Pipeline.pin (pcfgs (F := F)) Gen.adm p) c
  | ⟨0, _⟩ => fun c => Fused.dat (E3 m) c
  | ⟨1, _⟩ => fun c => Agg.dat (E5 m) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

/-! ## Each region's exit valuation -/

/-- At the first pallas_call's exit each of its arrays holds what the pipeline leaves: the inputs as entered, main_v47 the
    write-backs. -/
theorem exit0_in (c : Dev nD) (w : Fin cfg0.W) (hw : (cfg0.win w).isOut = false) (hne : Pipeline.arrRef spec0 w ∉ ([main_v47] : List (Ref sig .tc))) :
    (pdats m 0 c).arrAt w cfg0.N = E4 m c (Pipeline.arrRef spec0 w) :=
  ((Fused.dat (E3 m) c).arrAt_in w hw _).trans ((Fused.A_eq (E3 m) c w).trans (V4_of m (outs m) c (Pipeline.arrRef spec0 w) hne).symm)
theorem exit0_arr (c : Dev nD) (w : Fin cfg0.W) : (pdats m 0 c).arrAt w cfg0.N = E4 m c (Pipeline.arrRef spec0 w) := by
  by_cases h : w = 4
  · subst h
    show out47 m c = V4 m (outs m) c main_v47
    unfold V4; rw [Function.update_self, outs_47]
  · exact exit0_in m c w ((by decide : ∀ w : Fin 5, w ≠ 4 → (cfg0.win w).isOut = false) w h)
      ((by decide : ∀ w : Fin 5, w ≠ 4 → Pipeline.arrRef spec0 w ∉ ([main_v47] : List (Ref sig .tc))) w h)
theorem exit0_rest (c : Dev nD) : ∀ b, b ∉ Finset.univ.image (Pipeline.arrRef spec0) → E4 m c b = E3 m c b :=
  fun b hb => V4_of m (outs m) c b (fun h => hb (by
    rw [List.mem_singleton] at h; subst h; exact Finset.mem_image.mpr ⟨4, Finset.mem_univ _, rfl⟩))

theorem exit1_in (c : Dev nD) (w : Fin cfg1.W) (hw : (cfg1.win w).isOut = false) (hne : Pipeline.arrRef spec1 w ∉ ([main_v55] : List (Ref sig .tc))) :
    (pdats m 1 c).arrAt w cfg1.N = E6 m c (Pipeline.arrRef spec1 w) :=
  ((Agg.dat (E5 m) c).arrAt_in w hw _).trans ((Agg.A_eq (E5 m) c w).trans
    ((congrFun (V5_outs m c) _).symm.trans (V6_of m (outs m) c (Pipeline.arrRef spec1 w) hne).symm))
theorem exit1_arr (c : Dev nD) (w : Fin cfg1.W) : (pdats m 1 c).arrAt w cfg1.N = E6 m c (Pipeline.arrRef spec1 w) := by
  by_cases h : w = 3
  · subst h
    show out55 m c = V6 m (outs m) c main_v55
    unfold V6; rw [Function.update_self, outs_55]
  · exact exit1_in m c w ((by decide : ∀ w : Fin 4, w ≠ 3 → (cfg1.win w).isOut = false) w h)
      ((by decide : ∀ w : Fin 4, w ≠ 3 → Pipeline.arrRef spec1 w ∉ ([main_v55] : List (Ref sig .tc))) w h)
theorem exit1_rest (c : Dev nD) : ∀ b, b ∉ Finset.univ.image (Pipeline.arrRef spec1) → E6 m c b = E5 m c b :=
  fun b hb => (V6_of m (outs m) c b (fun h => hb (by
    rw [List.mem_singleton] at h; subst h; exact Finset.mem_image.mpr ⟨3, Finset.mem_univ _, rfl⟩))).trans (congrFun (V5_outs m c) _)

/-! ## The regions as segments -/

set_option backward.isDefEq.respectTransparency.types false in
/-- Pallas call 0 as a segment of @main over the thread state "every unscoped buffer at a valuation, the generator register at
    some state, nothing owed": its arrays are split out of the unscoped buffers on entry and put back, at what the pipeline
    leaves, on exit; the generator register goes into the class invariant and comes back; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Fused.body_obligation (E3 m) c).loose
  hwaits := Pipeline.hwaits_of_owed_zero _ _ _ _ L lv 0 fun _ _ => rfl
  pre c := iprop(StableHlo.held (c : Thread nD τ) (Pipeline.ucRefs τ sig) (V3 m c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (Gen.adm (F := F) 0).1
          ∗ Pipeline.scopedRest (Pipeline.pin (pcfgs (F := F)) Gen.adm 0).spec c) ⊢ (Pipeline.ΦA spec0 c : sProp 𝕄) := by
      unfold Pipeline.ΦA
      iintro ⟨Hp, -, Hr⟩
      isplitl [Hr]; · iexact Hr
      iexact Hp
    exact h.trans (Fused.inv_in (E3 m) c)
  hout c := by
    rw [Pipeline.ownSems0_none]
    have h : (Pipeline.ΦA spec0 c : sProp 𝕄) ⊢ iprop((∃ r, prngReg c r) ∗ BI.emp
          ∗ Pipeline.scopedRest (Pipeline.pin (pcfgs (F := F)) Gen.adm 0).spec c) := by
      unfold Pipeline.ΦA
      iintro ⟨Hr, Hp⟩
      isplitl [Hp]; · iexact Hp
      isplitr; · iempintro
      iexact Hr
    exact (Fused.inv_out (E3 m) c).trans h
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of @main over the thread state "every unscoped buffer at a valuation, the generator register at
    some state, nothing owed": its arrays are split out of the unscoped buffers on entry and put back, at what the pipeline
    leaves, on exit; the generator register goes into the class invariant and comes back; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Agg.body_obligation (E5 m) c).loose
  hwaits := Pipeline.hwaits_of_owed_zero _ _ _ _ L lv 1 fun _ _ => rfl
  pre c := iprop(StableHlo.held (c : Thread nD τ) (Pipeline.ucRefs τ sig) (V5 m (outsA m) c) ∗ Rr c)
  post c := iprop(StableHlo.held (c : Thread nD τ) (Pipeline.ucRefs τ sig) (V6 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (Gen.adm (F := F) 1).1
          ∗ Pipeline.scopedRest (Pipeline.pin (pcfgs (F := F)) Gen.adm 1).spec c) ⊢ (Pipeline.ΦA spec1 c : sProp 𝕄) := by
      unfold Pipeline.ΦA
      iintro ⟨Hp, -, Hr⟩
      isplitl [Hr]; · iexact Hr
      iexact Hp
    exact h.trans (Agg.inv_in (E5 m) c)
  hout c := by
    rw [Pipeline.ownSems0_none]
    have h : (Pipeline.ΦA spec1 c : sProp 𝕄) ⊢ iprop((∃ r, prngReg c r) ∗ BI.emp
          ∗ Pipeline.scopedRest (Pipeline.pin (pcfgs (F := F)) Gen.adm 1).spec c) := by
      unfold Pipeline.ΦA
      iintro ⟨Hr, Hp⟩
      isplitl [Hp]; · iexact Hp
      isplitr; · iempintro
      iexact Hr
    exact (Agg.inv_out (E5 m) c).trans h
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- Entering the second pallas_call: the valuation after the last host stretch does not depend on what is recorded for main_v55. -/
theorem into_reg1 (c : Dev nD) :
    iprop(StableHlo.held (c : Thread nD τ) (Pipeline.ucRefs τ sig) (V5 m (outs m) c) ∗ Rr c)
      ⊢ (iprop(StableHlo.held (c : Thread nD τ) (Pipeline.ucRefs τ sig) (V5 m (outsA m) c) ∗ Rr c) : sProp 𝕄) :=
  Entails.of_eq (by rw [V5_outs])

/-- The end of the chain: the buffers and the generator register on one side, the (empty) debt on the other. -/
theorem chain_end (c : Dev nD) :
    iprop(StableHlo.held (c : Thread nD τ) (Pipeline.ucRefs τ sig) (V6 m (outs m) c) ∗ Rr c)
      ⊢ (iprop((StableHlo.held (c : Thread nD τ) (Pipeline.ucRefs τ sig) (V6 m (outs m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- The rest state at every boundary. -/
abbrev EE : Fin 3 → Dev nD → sProp 𝕄 := fun _ c => Rr c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and every
    unscoped buffer ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) := by
  refine Pipeline.θ_run_regions_kit_dev (pcfgs (F := F)) Gen.adm (pdats m) () cellOf_inj emb₁ defs₀ 𝒱₀ L lv m ρ main
    (segs m (outs m) 𝒱₀ L lv (EE (F := F)) () (pdats m) (reg0 m) (reg1 m))
    (fun c Q => by
      rewrite [main_chain c, Pipeline.Seg.run_eq_chain,
        show (segs m (outs m) 𝒱₀ L lv (EE (F := F)) () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V6 m (outs m) c) ∗ ∃ r, prngReg c r))
    (hch := fun c => ⟨.rfl, .rfl, .rfl, .rfl, .rfl, into_reg1 m c, chain_end m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V6 m (outs m) c) s')
      isplitl [Hh] <;> iassumption)
    (hQ := fun s h c => h c)

/-! ## What it says about the arguments and the result -/

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c)⟩) (run_all m ρ)

/-- The result array ends at what the second pipeline leaves, the arguments as launched. -/
theorem run_value : θ_run defs (onTc (τ := τ) (main (F := F))) ⟨m, fun _ => 0, ρ⟩ (fun r => ∀ c : Dev nD,
      r.2.mem ((c.tc : Thread nD τ).loc main_v55) = out55 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v55 (by decide))).trans (by
        show V6 m (outs m) c main_v55 = out55 m c
        unfold V6; rw [Function.update_self, outs_55]),
     (h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c)⟩) (run_all m ρ)

end Cert.Kernel.Whole

end
-- ==== Proof.KI.AggCases.lean ====
/- Written by the script scratch/gen_modules.js (bun scratch/gen_modules.js <dir>; its function genRegion, called with the record printed at the end of this comment): the same text for each
   of the two pallas_calls and for both printings of the program; the argument is written once, in that script's template.
   The second pallas_call, out = A_sel · h2 + b2, walks the contraction axis in four blocks of 2048 columns (grid point k = 0..3).
   A VMEM accumulator of shape 2048×128 is zeroed at k = 0, takes one block product at every k, and at k = 3 is read out with the bias
   row added into the one output block. This module fixes, for that kernel: the two branch conditions as facts about the grid point, at
   which points the output window is idle, the memrefs the body is called with, and the region invariant with the accumulator singled out.
   genRegion({"prog":"KernelIdeal","ns":"Agg","K":1,"kernel":"cc1__agg_kernel","axis":0,"N":4}) -/
import proofs.«157338_j2456721293623_2_alg».proof.Proof.Gen.KernelIdeal.Launch
import proofs.«157338_j2456721293623_2_alg».proof.Proof.Gen.KernelIdeal.Skeleton
import proofs.«157338_j2456721293623_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "this is the first block of the contraction": the accumulator is zeroed. -/
abbrev isFirst (i : grid1.Coords) : Prop :=
  (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)

/-- "this is the last block of the contraction": the accumulator is read out. -/
abbrev isLast (i : grid1.Coords) : Prop := k1_cond2 i = 1#1
theorem isLast_iff : ∀ t : Fin cfg1.N, isLast (grid1.coords t) ↔ t.val = 3 :=
  (by decide +kernel : ∀ t : Fin grid1.N, isLast (grid1.coords t) ↔ t.val = 3)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Before the last block nothing is stored into the output block: the window is idle and is not written back. -/
theorem idle_out : ∀ t : Fin cfg1.N, ¬isLast (grid1.coords t) → cfg1.idle 3 (grid1.coords t) = true := by decide +kernel
theorem noFlush_out : ∀ t : Fin cfg1.N, ¬isLast (grid1.coords t) → (cfg1.win 3).flush t = false := by decide +kernel
theorem live_out : ∀ t : Fin cfg1.N, isLast (grid1.coords t) → cfg1.idle 3 (grid1.coords t) = false := by decide +kernel

/-! ## The memrefs the body is called with -/

abbrev ms_0 (t : Fin cfg1.N) : Memref sig .tc .vmem S2048x2048 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S2048x128 .f32 := win1_3.stage (cfg1.slots t 3)
abbrev hs_3 (t : Fin cfg1.N) : (ms_3 t).IsWhole := hstage1_3 ((cfg1.slots t 3).cast nbuf1_3)
/-- The accumulator: a whole scoped buffer of the kernel's own. -/
abbrev accM : Memref sig .tc .vmem S2048x128 .f32 := Memref.whole cc1_scratch0
/-- The views through which the output block's and the accumulator's contents are stated. -/
abbrev outV : View sig .tc .vmem S2048x128 .f32 := (Memref.whole cc1_stg3_0 : Memref sig .tc .vmem S2048x128 .f32).view
abbrev accV : View sig .tc .vmem S2048x128 .f32 := accM.view

/-! ## The region invariant, the accumulator singled out -/

/-- The other pallas_call's scoped buffers, each whole at some contents, and the generator register: what this kernel
    never touches. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f)
    ∗ (∃ r, prngReg c r))

/-- The class invariant hands out the accumulator at some contents beside the rest, -/
theorem inv_split (c : Dev nD) :
    (Pipeline.ΦA spec1 c : sProp 𝕄) ⊢ iprop((∃ d, owns (c : Thread nD τ) accM fullShare d) ∗ others c) := by
  unfold Pipeline.ΦA others; rw [scopedRest1_eq]; simp only [accM, owns_whole]
  iintro ⟨⟨H0, H1, H2, H3, H4, H5, H6, H7, H8, HA⟩, Hp⟩
  isplitl [HA]; · iexact HA
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact Hp

/-- and takes it back. -/
theorem inv_join (c : Dev nD) :
    iprop((∃ d, owns (c : Thread nD τ) accM fullShare d) ∗ others c) ⊢ (Pipeline.ΦA spec1 c : sProp 𝕄) := by
  unfold Pipeline.ΦA others; rw [scopedRest1_eq]; simp only [accM, owns_whole]
  iintro ⟨HA, H0, H1, H2, H3, H4, H5, H6, H7, H8, Hp⟩
  isplitr [Hp]; swap; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HA

end Cert.KernelIdeal.Agg

end
-- ==== Proof.KI.AggFirst.lean ====
/- Written by the script scratch/gen_modules.js (see AggCases.lean's header for the invocation).
   The aggregation kernel's body at the first block of the contraction (k = 0): the accumulator, whatever it held, is zeroed and takes the
   first block product; nothing is stored into the output block. -/
import proofs.«157338_j2456721293623_2_alg».proof.Proof.KI.AggCases

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes in this case, as pieces (last first), with the proof that the body runs from whole buffers to
    its return, the input blocks kept. -/
noncomputable def runFirst (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : isFirst i) (hc1 : ¬isLast i)
    (x0 : Vec F S2048x2048 .f32) (x1 : Vec F S2048x128 .f32) (x2 : Vec F S1x128 .f32) :
    Σ' (LO : List (View.Piece (Elt F) S2048x128 .f32)), { LS : List (View.Piece (Elt F) S2048x128 .f32) //
      ∀ (xo : Vec F S2048x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg1 harg1 arg2 harg2 arg3 harg3 arg4 harg4 arg5 harg5) K } := by
  refine ⟨[], ?_, fun xo E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fO, %hfO, HO⟩, ⟨%ds, %fs, -, HS⟩, Hk⟩
    obtain rfl := harg1.eq_unread hf0; obtain rfl := harg2.eq_unread hf1; obtain rfl := harg3.eq_unread hf2; obtain rfl := harg4.eq_unread hfO
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HO]
    · iexists _; isplitr; · ipureintro; exact harg4.read_unread _
      iexact HO
    iexists _; iexact HS

end Cert.KernelIdeal.Agg

end
-- ==== Proof.KI.AggMiddle.lean ====
/- Written by the script scratch/gen_modules.js (see AggCases.lean's header for the invocation).
   The aggregation kernel's body at an inner block of the contraction (k = 1, 2): the accumulator takes one more block product on top of
   what the block before left; nothing is stored into the output block. -/
import proofs.«157338_j2456721293623_2_alg».proof.Proof.KI.AggCases

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes in this case, as pieces (last first), with the proof that the body runs from whole buffers to
    its return, the input blocks kept. -/
noncomputable def runMiddle (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : ¬isLast i)
    (x0 : Vec F S2048x2048 .f32) (x1 : Vec F S2048x128 .f32) (x2 : Vec F S1x128 .f32) (xs : Vec F S2048x128 .f32) :
    Σ' (LO : List (View.Piece (Elt F) S2048x128 .f32)), { LS : List (View.Piece (Elt F) S2048x128 .f32) //
      ∀ (xo : Vec F S2048x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo ∗ owns (c : Thread nD τ) arg5 fullShare xs
            ∗ (iprop(owns (c : Thread nD τ) arg1 fullShare x0 ∗ owns (c : Thread nD τ) arg2 fullShare x1 ∗ owns (c : Thread nD τ) arg3 fullShare x2 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg1 harg1 arg2 harg2 arg3 harg3 arg4 harg4 arg5 harg5) K } := by
  refine ⟨[], ?_, fun xo E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%fO, %hfO, HO⟩, ⟨%fs, %hfs, HS⟩, Hk⟩
    obtain rfl := harg1.eq_unread hf0; obtain rfl := harg2.eq_unread hf1; obtain rfl := harg3.eq_unread hf2; obtain rfl := harg4.eq_unread hfO
    obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HO]
    · iexists _; isplitr; · ipureintro; exact harg4.read_unread _
      iexact HO
    iexists _; iexact HS

end Cert.KernelIdeal.Agg

end
-- ==== Proof.KI.AggLast.lean ====
/- Written by the script scratch/gen_modules.js (see AggCases.lean's header for the invocation).
   The aggregation kernel's body at the last block of the contraction (k = 3): the accumulator takes the last block product, and the
   output block is stored whole: the accumulator plus the bias row. -/
import proofs.«157338_j2456721293623_2_alg».proof.Proof.KI.AggCases

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes in this case, as pieces (last first), with the proof that the body runs from whole buffers to
    its return, the input blocks kept. -/
noncomputable def runLast (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : isLast i)
    (x0 : Vec F S2048x2048 .f32) (x1 : Vec F S2048x128 .f32) (x2 : Vec F S1x128 .f32) (xs : Vec F S2048x128 .f32) :
    Σ' (LO : List (View.Piece (Elt F) S2048x128 .f32)), { LS : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__agg_kernel i arg1 harg1 arg2 harg2 arg3 harg3 arg4 harg4 arg5 harg5) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%dO, %fO, -, HO⟩, ⟨%fs, %hfs, HS⟩, Hk⟩
    obtain rfl := harg1.eq_unread hf0; obtain rfl := harg2.eq_unread hf1; obtain rfl := harg3.eq_unread hf2
    obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HO]; · iexists _; iexact HO
    iexists _; iexact HS

end Cert.KernelIdeal.Agg

end
-- ==== Proof.KI.AggData.lean ====
/- Written by the script scratch/gen_modules.js (see AggCases.lean's header for the invocation).
   The aggregation kernel, point by point. After the body at grid point k the accumulator holds the k-th partial sum (zero plus the block
   products so far) and, at k = 3 only, the output block holds the last partial sum plus the bias row. This module names those contents as
   the read-back of the stores each run makes (stateAt), states the region invariant that carries the accumulator from one point to the
   next, gives the pipeline's proof data, and proves the body obligation at every point by running the body in the case the point is in. -/
import proofs.«157338_j2456721293623_2_alg».proof.Proof.KI.AggFirst
import proofs.«157338_j2456721293623_2_alg».proof.Proof.KI.AggMiddle
import proofs.«157338_j2456721293623_2_alg».proof.Proof.KI.AggLast

set_option maxRecDepth 16384

noncomputable section

namespace Cert.KernelIdeal.Agg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each run leaves, read back -/

def accFirst (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : isFirst i) (hc1 : ¬isLast i) (x0 : Vec F S2048x2048 .f32) (x1 : Vec F S2048x128 .f32) (x2 : Vec F S1x128 .f32) : Vec F S2048x128 .f32 :=
  accV.read (Elt F) (accV.writes (Elt F) accV.junk (runFirst c i arg1 harg1 arg2 harg2 arg3 harg3 arg4 harg4 arg5 harg5 hc0 hc1 x0 x1 x2).2.1)
theorem accFirst_cover (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : isFirst i) (hc1 : ¬isLast i) (x0 : Vec F S2048x2048 .f32) (x1 : Vec F S2048x128 .f32) (x2 : Vec F S1x128 .f32) (y : S2048x128.Idx) :
    ∃ pc ∈ (runFirst c i arg1 harg1 arg2 harg2 arg3 harg3 arg4 harg4 arg5 harg5 hc0 hc1 x0 x1 x2).2.1, y ∈ pc.1.set :=
  View.cover_of_tiledL (runFirst c i arg1 harg1 arg2 harg2 arg3 harg3 arg4 harg4 arg5 harg5 hc0 hc1 x0 x1 x2).2.1 S2048x128.size (by sl_kernel_rfl) y
def outFirst (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : isFirst i) (hc1 : ¬isLast i) (x0 : Vec F S2048x2048 .f32) (x1 : Vec F S2048x128 .f32) (x2 : Vec F S1x128 .f32) : Vec F S2048x128 .f32 :=
  outV.read (Elt F) (outV.writes (Elt F) outV.junk (runFirst c i arg1 harg1 arg2 harg2 arg3 harg3 arg4 harg4 arg5 harg5 hc0 hc1 x0 x1 x2).1)

def accMiddle (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : ¬isLast i) (x0 : Vec F S2048x2048 .f32) (x1 : Vec F S2048x128 .f32) (x2 : Vec F S1x128 .f32) (xs : Vec F S2048x128 .f32) : Vec F S2048x128 .f32 :=
  accV.read (Elt F) (accV.writes (Elt F) accV.junk (runMiddle c i arg1 harg1 arg2 harg2 arg3 harg3 arg4 harg4 arg5 harg5 hc0 hc1 x0 x1 x2 xs).2.1)
theorem accMiddle_cover (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : ¬isLast i) (x0 : Vec F S2048x2048 .f32) (x1 : Vec F S2048x128 .f32) (x2 : Vec F S1x128 .f32) (xs : Vec F S2048x128 .f32) (y : S2048x128.Idx) :
    ∃ pc ∈ (runMiddle c i arg1 harg1 arg2 harg2 arg3 harg3 arg4 harg4 arg5 harg5 hc0 hc1 x0 x1 x2 xs).2.1, y ∈ pc.1.set :=
  View.cover_of_tiledL (runMiddle c i arg1 harg1 arg2 harg2 arg3 harg3 arg4 harg4 arg5 harg5 hc0 hc1 x0 x1 x2 xs).2.1 S2048x128.size (by sl_kernel_rfl) y
def outMiddle (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : ¬isLast i) (x0 : Vec F S2048x2048 .f32) (x1 : Vec F S2048x128 .f32) (x2 : Vec F S1x128 .f32) (xs : Vec F S2048x128 .f32) : Vec F S2048x128 .f32 :=
  outV.read (Elt F) (outV.writes (Elt F) outV.junk (runMiddle c i arg1 harg1 arg2 harg2 arg3 harg3 arg4 harg4 arg5 harg5 hc0 hc1 x0 x1 x2 xs).1)

def accLast (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : isLast i) (x0 : Vec F S2048x2048 .f32) (x1 : Vec F S2048x128 .f32) (x2 : Vec F S1x128 .f32) (xs : Vec F S2048x128 .f32) : Vec F S2048x128 .f32 :=
  accV.read (Elt F) (accV.writes (Elt F) accV.junk (runLast c i arg1 harg1 arg2 harg2 arg3 harg3 arg4 harg4 arg5 harg5 hc0 hc1 x0 x1 x2 xs).2.1)
theorem accLast_cover (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : isLast i) (x0 : Vec F S2048x2048 .f32) (x1 : Vec F S2048x128 .f32) (x2 : Vec F S1x128 .f32) (xs : Vec F S2048x128 .f32) (y : S2048x128.Idx) :
    ∃ pc ∈ (runLast c i arg1 harg1 arg2 harg2 arg3 harg3 arg4 harg4 arg5 harg5 hc0 hc1 x0 x1 x2 xs).2.1, y ∈ pc.1.set :=
  View.cover_of_tiledL (runLast c i arg1 harg1 arg2 harg2 arg3 harg3 arg4 harg4 arg5 harg5 hc0 hc1 x0 x1 x2 xs).2.1 S2048x128.size (by sl_kernel_rfl) y
def outLast (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : isLast i) (x0 : Vec F S2048x2048 .f32) (x1 : Vec F S2048x128 .f32) (x2 : Vec F S1x128 .f32) (xs : Vec F S2048x128 .f32) : Vec F S2048x128 .f32 :=
  outV.read (Elt F) (outV.writes (Elt F) outV.junk (runLast c i arg1 harg1 arg2 harg2 arg3 harg3 arg4 harg4 arg5 harg5 hc0 hc1 x0 x1 x2 xs).1)
theorem outLast_cover (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : isLast i) (x0 : Vec F S2048x2048 .f32) (x1 : Vec F S2048x128 .f32) (x2 : Vec F S1x128 .f32) (xs : Vec F S2048x128 .f32) (y : S2048x128.Idx) :
    ∃ pc ∈ (runLast c i arg1 harg1 arg2 harg2 arg3 harg3 arg4 harg4 arg5 harg5 hc0 hc1 x0 x1 x2 xs).1, y ∈ pc.1.set :=
  View.cover_of_tiledL (runLast c i arg1 harg1 arg2 harg2 arg3 harg3 arg4 harg4 arg5 harg5 hc0 hc1 x0 x1 x2 xs).1 S2048x128.size (by sl_kernel_rfl) y

/-! ## The windows' blocks as the region finds them -/

-- the TensorCore's buffer contents when the region is entered
variable (V : (c : Dev nD) → (b : Ref sig .tc) → Buf (Elt F) ((c : Thread nD τ).loc b))

/-- Window `w`'s block at point `t`, read off its array at the region's entry. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulation -/

/-- No point is both a first and a last block. -/
theorem not_first_last (t : Fin cfg1.N) (hF : isFirst (grid1.coords t)) (hL : isLast (grid1.coords t)) : False := by
  have h0 := (isFirst_iff t).mp hF; have h3 := (isLast_iff t).mp hL; omega

/-- What the output block's staging buffer (first component) and the accumulator (second) hold after the body at
    position `n`: the run of the case `n` is in, at the point's memrefs and input blocks, over what the accumulator held
    after position `n - 1` (nothing of it at a first block, where the accumulator is zeroed). -/
def stateAt (c : Dev nD) : (n : ℕ) → n < cfg1.N → Vec F S2048x128 .f32 × Vec F S2048x128 .f32
  | 0, hn =>
    (outFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) accM (Memref.isWhole_whole _) ((isFirst_iff ⟨0, hn⟩).mpr rfl) (fun h => absurd ((isLast_iff ⟨0, hn⟩).mp h) (show ¬((0 : ℕ) = 3) from by decide)) (iblk V c 0 ⟨0, hn⟩) (iblk V c 1 ⟨0, hn⟩) (iblk V c 2 ⟨0, hn⟩),
     accFirst c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) accM (Memref.isWhole_whole _) ((isFirst_iff ⟨0, hn⟩).mpr rfl) (fun h => absurd ((isLast_iff ⟨0, hn⟩).mp h) (show ¬((0 : ℕ) = 3) from by decide)) (iblk V c 0 ⟨0, hn⟩) (iblk V c 1 ⟨0, hn⟩) (iblk V c 2 ⟨0, hn⟩))
  | n + 1, hn =>
    if hF : isFirst (grid1.coords ⟨n + 1, hn⟩) then
      (outFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) hF (fun hL => not_first_last ⟨n + 1, hn⟩ hF hL) (iblk V c 0 ⟨n + 1, hn⟩) (iblk V c 1 ⟨n + 1, hn⟩) (iblk V c 2 ⟨n + 1, hn⟩),
       accFirst c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) hF (fun hL => not_first_last ⟨n + 1, hn⟩ hF hL) (iblk V c 0 ⟨n + 1, hn⟩) (iblk V c 1 ⟨n + 1, hn⟩) (iblk V c 2 ⟨n + 1, hn⟩))
    else
      if hL : isLast (grid1.coords ⟨n + 1, hn⟩) then
        (outLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) hF hL (iblk V c 0 ⟨n + 1, hn⟩) (iblk V c 1 ⟨n + 1, hn⟩) (iblk V c 2 ⟨n + 1, hn⟩) (stateAt c n (Nat.lt_of_succ_lt hn)).2,
         accLast c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) hF hL (iblk V c 0 ⟨n + 1, hn⟩) (iblk V c 1 ⟨n + 1, hn⟩) (iblk V c 2 ⟨n + 1, hn⟩) (stateAt c n (Nat.lt_of_succ_lt hn)).2)
      else
        (outMiddle c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) hF hL (iblk V c 0 ⟨n + 1, hn⟩) (iblk V c 1 ⟨n + 1, hn⟩) (iblk V c 2 ⟨n + 1, hn⟩) (stateAt c n (Nat.lt_of_succ_lt hn)).2,
         accMiddle c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) hF hL (iblk V c 0 ⟨n + 1, hn⟩) (iblk V c 1 ⟨n + 1, hn⟩) (iblk V c 2 ⟨n + 1, hn⟩) (stateAt c n (Nat.lt_of_succ_lt hn)).2)

theorem stateAt_first (c : Dev nD) (t : Fin cfg1.N) (hF : isFirst (grid1.coords t)) (hL : ¬isLast (grid1.coords t)) :
    stateAt V c t.val t.isLt = (outFirst c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t), accFirst c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t)) := by
  obtain ⟨n, hn⟩ := t
  cases n with
  | zero => rfl
  | succ n => exact (dif_pos hF).trans rfl

theorem stateAt_middle (c : Dev nD) (t : Fin cfg1.N) (hF : ¬isFirst (grid1.coords t)) (hL : ¬isLast (grid1.coords t)) :
    stateAt V c t.val t.isLt = (outMiddle c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) (stateAt V c (t.val - 1) (Nat.lt_of_le_of_lt (Nat.sub_le _ _) t.isLt)).2,
      accMiddle c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) (stateAt V c (t.val - 1) (Nat.lt_of_le_of_lt (Nat.sub_le _ _) t.isLt)).2) := by
  obtain ⟨n, hn⟩ := t
  cases n with
  | zero => exact absurd ((isFirst_iff ⟨0, hn⟩).mpr rfl) hF
  | succ n => exact (dif_neg hF).trans ((dif_neg hL).trans rfl)

theorem stateAt_last (c : Dev nD) (t : Fin cfg1.N) (hF : ¬isFirst (grid1.coords t)) (hL : isLast (grid1.coords t)) :
    stateAt V c t.val t.isLt = (outLast c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) (stateAt V c (t.val - 1) (Nat.lt_of_le_of_lt (Nat.sub_le _ _) t.isLt)).2,
      accLast c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) (stateAt V c (t.val - 1) (Nat.lt_of_le_of_lt (Nat.sub_le _ _) t.isLt)).2) := by
  obtain ⟨n, hn⟩ := t
  cases n with
  | zero => exact absurd ((isFirst_iff ⟨0, hn⟩).mpr rfl) hF
  | succ n => exact (dif_neg hF).trans ((dif_pos hL).trans rfl)

/-! ## The invariant between points -/

/-- Before the first point the class invariant (every scoped buffer at anything); afterwards the accumulator at what
    the point before left, the other pallas_call's scoped buffers at anything and the generator register. -/
def inv (c : Dev nD) : (n : ℕ) → n ≤ cfg1.N → sProp 𝕄
  | 0, _ => Pipeline.ΦA spec1 c
  | n + 1, hn => iprop(owns (c : Thread nD τ) accM fullShare ((stateAt V c n hn).2) ∗ others c)

theorem inv_zero (c : Dev nD) (n : ℕ) (h : n ≤ cfg1.N) (hz : n = 0) : inv V c n h = Pipeline.ΦA spec1 c := by
  subst hz; rfl
theorem inv_succ (c : Dev nD) (n : ℕ) (hn : n < cfg1.N) :
    inv V c (n + 1) hn = iprop(owns (c : Thread nD τ) accM fullShare ((stateAt V c n hn).2) ∗ others c) := rfl
theorem inv_pos (c : Dev nD) (n : ℕ) (h : n ≤ cfg1.N) (hz : n ≠ 0) :
    inv V c n h = iprop(owns (c : Thread nD τ) accM fullShare ((stateAt V c (n - 1) (by omega)).2) ∗ others c) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (stateAt V c t.val t.isLt).1
  Φ t := inv V c t.val (Nat.le_of_lt_succ t.isLt)
  q _ := fullShare
  owed _ := 0

theorem A_eq (c : Dev nD) (w : Fin cfg1.W) : (dat V c).A w = V c (Pipeline.arrRef spec1 w) := by dsimp only [dat]
theorem inv_castSucc (c : Dev nD) (t : Fin cfg1.N) : (dat V c).Φ t.castSucc = inv V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_out (c : Dev nD) (t : Fin cfg1.N) : (dat V c).after 3 t = (stateAt V c t.val t.isLt).1 := by dsimp only [dat]
theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

theorem leaves_in (c : Dev nD) (t : Fin cfg1.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t) := by
  refine ⟨?_, ?_, ?_⟩
  · unfold Dat.leavesExact; rw [live_0 t, after_0]
  · unfold Dat.leavesExact; rw [live_1 t, after_1]
  · unfold Dat.leavesExact; rw [live_2 t, after_2]

set_option maxHeartbeats 4800000 in
/-- The body at any point: the inputs' memrefs hold their blocks; the point is a first block, an inner one or a last one
    (`by_cases` on the two conditions), and the run of that case applies; the invariant hands the body the accumulator
    (at anything before the very first point, at what the point before left afterwards — which a first block then
    overwrites) and takes it back at this point's contents; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = inv V c (t.val + 1) t.isLt from rfl, inv_succ]
  rw [(leaves_in V c t).1, (leaves_in V c t).2.1, (leaves_in V c t).2.2]
  by_cases hF : isFirst (grid1.coords t)
  · have hL : ¬isLast (grid1.coords t) := fun h => not_first_last t hF h
    by_cases hz : t.val = 0
    · rw [Dat.leavesExact_idle (dat V c) 3 t (idle_out t hL) (noFlush_out t hL)]
      rw [stateAt_first V c t hF hL]
      unfold accFirst; (try dsimp only)
      rw [inv_castSucc V c t, inv_zero V c _ _ hz]
      iintro ⟨HΦ, Ho, ⟨%d0, H0⟩, ⟨%d1, H1⟩, ⟨%d2, H2⟩, ⟨%dO, HO⟩⟩
      ihave HΦ' := (inv_split (F := F) c) $$ HΦ
      icases HΦ' with ⟨HS, Hoth⟩
      iapply ((runFirst c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t)).2.2 _ Set.univ _)
      isplitl [H0]; · iexact H0
      isplitl [H1]; · iexact H1
      isplitl [H2]; · iexact H2
      isplitl [HO]; · iexact HO
      isplitl [HS]; · iexact HS
      iintro ⟨H0, H1, H2, HO, ⟨%es, HS⟩⟩
      isplitl [HS Hoth]
      · isplitl [HS]
        · unfold owns; iexists _; isplitr
          swap; · iexact HS
          ipureintro; exact View.read_writes_of_cover _ _ _ _ _ (accFirst_cover c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t))
        iexact Hoth
      isplitl [Ho]; · iexact Ho
      isplitl [H0]; · iexact H0
      isplitl [H1]; · iexact H1
      isplitl [H2]; · iexact H2
      iexists _; iexact HO
    · rw [Dat.leavesExact_idle (dat V c) 3 t (idle_out t hL) (noFlush_out t hL)]
      rw [stateAt_first V c t hF hL]
      unfold accFirst; (try dsimp only)
      rw [inv_castSucc V c t, inv_pos V c _ _ hz]
      iintro ⟨⟨HS, Hoth⟩, Ho, ⟨%d0, H0⟩, ⟨%d1, H1⟩, ⟨%d2, H2⟩, ⟨%dO, HO⟩⟩
      iapply ((runFirst c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t)).2.2 _ Set.univ _)
      isplitl [H0]; · iexact H0
      isplitl [H1]; · iexact H1
      isplitl [H2]; · iexact H2
      isplitl [HO]; · iexact HO
      isplitl [HS]; · iexists _; iexact HS
      iintro ⟨H0, H1, H2, HO, ⟨%es, HS⟩⟩
      isplitl [HS Hoth]
      · isplitl [HS]
        · unfold owns; iexists _; isplitr
          swap; · iexact HS
          ipureintro; exact View.read_writes_of_cover _ _ _ _ _ (accFirst_cover c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t))
        iexact Hoth
      isplitl [Ho]; · iexact Ho
      isplitl [H0]; · iexact H0
      isplitl [H1]; · iexact H1
      isplitl [H2]; · iexact H2
      iexists _; iexact HO
  · have hz : t.val ≠ 0 := fun h => hF ((isFirst_iff t).mpr (by rw [h]))
    by_cases hL : isLast (grid1.coords t)
    · rw [show (dat V c).leavesExact 3 t = owns (c : Thread nD τ) (ms_3 t) fullShare ((dat V c).after 3 t) from by
            unfold Dat.leavesExact; rw [live_out t hL], after_out]
      rw [stateAt_last V c t hF hL]
      unfold outLast accLast; (try dsimp only)
      rw [inv_castSucc V c t, inv_pos V c _ _ hz]
      iintro ⟨⟨HS, Hoth⟩, Ho, ⟨%d0, H0⟩, ⟨%d1, H1⟩, ⟨%d2, H2⟩, ⟨%dO, HO⟩⟩
      iapply ((runLast c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) _).2.2 Set.univ _)
      isplitl [H0]; · iexact H0
      isplitl [H1]; · iexact H1
      isplitl [H2]; · iexact H2
      isplitl [HO]; · iexists _; iexact HO
      isplitl [HS]; · iexact HS
      iintro ⟨H0, H1, H2, ⟨%eO, HO⟩, ⟨%es, HS⟩⟩
      isplitl [HS Hoth]
      · isplitl [HS]
        · unfold owns; iexists _; isplitr
          swap; · iexact HS
          ipureintro; exact View.read_writes_of_cover _ _ _ _ _ (accLast_cover c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) _)
        iexact Hoth
      isplitl [Ho]; · iexact Ho
      isplitl [H0]; · iexact H0
      isplitl [H1]; · iexact H1
      isplitl [H2]; · iexact H2
      unfold owns; iexists _; isplitr
      swap; · iexact HO
      ipureintro; exact View.read_writes_of_cover _ _ _ _ _ (outLast_cover c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) _)
    · rw [Dat.leavesExact_idle (dat V c) 3 t (idle_out t hL) (noFlush_out t hL)]
      rw [stateAt_middle V c t hF hL]
      unfold accMiddle; (try dsimp only)
      rw [inv_castSucc V c t, inv_pos V c _ _ hz]
      iintro ⟨⟨HS, Hoth⟩, Ho, ⟨%d0, H0⟩, ⟨%d1, H1⟩, ⟨%d2, H2⟩, ⟨%dO, HO⟩⟩
      iapply ((runMiddle c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) _).2.2 _ Set.univ _)
      isplitl [H0]; · iexact H0
      isplitl [H1]; · iexact H1
      isplitl [H2]; · iexact H2
      isplitl [HO]; · iexact HO
      isplitl [HS]; · iexact HS
      iintro ⟨H0, H1, H2, HO, ⟨%es, HS⟩⟩
      isplitl [HS Hoth]
      · isplitl [HS]
        · unfold owns; iexists _; isplitr
          swap; · iexact HS
          ipureintro; exact View.read_writes_of_cover _ _ _ _ _ (accMiddle_cover c (grid1.coords t) (ms_0 t) (hs_0 t) (ms_1 t) (hs_1 t) (ms_2 t) (hs_2 t) (ms_3 t) (hs_3 t) accM (Memref.isWhole_whole _) hF hL (iblk V c 0 t) (iblk V c 1 t) (iblk V c 2 t) _)
        iexact Hoth
      isplitl [Ho]; · iexact Ho
      isplitl [H0]; · iexact H0
      isplitl [H1]; · iexact H1
      isplitl [H2]; · iexact H2
      iexists _; iexact HO

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After the last point the invariant gives the class invariant back: the accumulator's contents are forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 4 := N_1; omega)]
  iintro ⟨HS, Hoth⟩
  iapply (inv_join (F := F) c)
  isplitl [HS]
  · iexists _; iexact HS
  iexact Hoth

end Cert.KernelIdeal.Agg

end
-- ==== Proof.KI.FusedCases.lean ====
/- Written by the script scratch/gen_modules.js (bun scratch/gen_modules.js <dir>; its function genRegion, called with the record printed at the end of this comment): the same text for each
   of the two pallas_calls and for both printings of the program; the argument is written once, in that script's template.
   The first pallas_call, h2 = relu(A · W1 + b1) · W2, runs on a 4 × 4 grid: row block i of 2048 rows of A (the outer axis) and block k of
   2048 columns of the contraction (the inner axis), point t = 4·i + k. A VMEM accumulator of shape 2048×512 is zeroed at k = 0, takes one
   block product at every k, and at k = 3 is read out: bias row added, clamped below at zero, multiplied by W2 into the row block's output.
   This module fixes, for that kernel: the two branch conditions as facts about the grid point, at which points the output window is idle,
   the memrefs the body is called with, and the region invariant with the accumulator singled out.
   genRegion({"prog":"KernelIdeal","ns":"Fused","K":0,"kernel":"cc0__fused_layer1_kernel","axis":1,"N":16}) -/
import proofs.«157338_j2456721293623_2_alg».proof.Proof.Gen.KernelIdeal.Launch
import proofs.«157338_j2456721293623_2_alg».proof.Proof.Gen.KernelIdeal.Skeleton
import proofs.«157338_j2456721293623_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "this is the first block of the contraction": the accumulator is zeroed. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- "this is the last block of the contraction": the accumulator is read out. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
/-- Before the last block nothing is stored into the output block: the window is idle and is not written back. -/
theorem idle_out : ∀ t : Fin cfg0.N, ¬isLast (grid0.coords t) → cfg0.idle 4 (grid0.coords t) = true := by decide +kernel
theorem noFlush_out : ∀ t : Fin cfg0.N, ¬isLast (grid0.coords t) → (cfg0.win 4).flush t = false := by decide +kernel
theorem live_out : ∀ t : Fin cfg0.N, isLast (grid0.coords t) → cfg0.idle 4 (grid0.coords t) = false := by decide +kernel

/-! ## The memrefs the body is called with -/

abbrev ms_0 (t : Fin cfg0.N) : Memref sig .tc .vmem S2048x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x512 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x512 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2048x128 .f32 := win0_4.stage (cfg0.slots t 4)
abbrev hs_4 (t : Fin cfg0.N) : (ms_4 t).IsWhole := hstage0_4 ((cfg0.slots t 4).cast nbuf0_4)
/-- The accumulator: a whole scoped buffer of the kernel's own. -/
abbrev accM : Memref sig .tc .vmem S2048x512 .f32 := Memref.whole cc0_scratch0
/-- The views through which the output block's and the accumulator's contents are stated. -/
abbrev outV : View sig .tc .vmem S2048x128 .f32 := (Memref.whole cc0_stg4_0 : Memref sig .tc .vmem S2048x128 .f32).view
abbrev accV : View sig .tc .vmem S2048x512 .f32 := accM.view

/-! ## The region invariant, the accumulator singled out -/

/-- The other pallas_call's scoped buffers, each whole at some contents, and the generator register: what this kernel
    never touches. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_scratch0), ((c : Thread nD τ).loc cc1_scratch0) ↦{fullShare} f)
    ∗ (∃ r, prngReg c r))

/-- The class invariant hands out the accumulator at some contents beside the rest, -/
theorem inv_split (c : Dev nD) :
    (Pipeline.ΦA spec0 c : sProp 𝕄) ⊢ iprop((∃ d, owns (c : Thread nD τ) accM fullShare d) ∗ others c) := by
  unfold Pipeline.ΦA others; rw [scopedRest0_eq]; simp only [accM, owns_whole]
  iintro ⟨⟨HA, H0, H1, H2, H3, H4, H5, H6⟩, Hp⟩
  isplitl [HA]; · iexact HA
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hp

/-- and takes it back. -/
theorem inv_join (c : Dev nD) :
    iprop((∃ d, owns (c : Thread nD τ) accM fullShare d) ∗ others c) ⊢ (Pipeline.ΦA spec0 c : sProp 𝕄) := by
  unfold Pipeline.ΦA others; rw [scopedRest0_eq]; simp only [accM, owns_whole]
  iintro ⟨HA, H0, H1, H2, H3, H4, H5, H6, Hp⟩
  isplitr [Hp]; swap; · iexact Hp
  isplitl [HA]; · iexact HA
  isplitl [H0]; · iexact H0
  isplitl [H1]; · iexact H1
  isplitl [H2]; · iexact H2
  isplitl [H3]; · iexact H3
  isplitl [H4]; · iexact H4
  isplitl [H5]; · iexact H5
  iexact H6

end Cert.KernelIdeal.Fused

end
-- ==== Proof.KI.FusedFirst.lean ====
/- Written by the script scratch/gen_modules.js (see FusedCases.lean's header for the invocation).
   The fused layer kernel's body at the first block of a row block's contraction (k = 0): the accumulator, whatever it held, is zeroed and
   takes the first block product; nothing is stored into the output block. -/
import proofs.«157338_j2456721293623_2_alg».proof.Proof.KI.FusedCases

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes in this case, as pieces (last first), with the proof that the body runs from whole buffers to
    its return, the input blocks kept. -/
noncomputable def runFirst (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : isFirst i) (hc1 : ¬isLast i)
    (x0 : Vec F S2048x2048 .f32) (x1 : Vec F S2048x512 .f32) (x2 : Vec F S1x512 .f32) (x3 : Vec F S512x128 .f32) :
    Σ' (LO : List (View.Piece (Elt F) S2048x128 .f32)), { LS : List (View.Piece (Elt F) S2048x512 .f32) //
      ∀ (xo : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__fused_layer1_kernel i arg2 harg2 arg3 harg3 arg4 harg4 arg5 harg5 arg6 harg6 arg7 harg7) K } := by
  refine ⟨[], ?_, fun xo E K => ?run⟩
  case run =>
    simp only [cc0__fused_layer1_kernel_eq_skeleton]; unfold cc0__fused_layer1_kernel_skel
    unfold owns
    iintro ⟨⟨%f0, %hf0, H0⟩, ⟨%f1, %hf1, H1⟩, ⟨%f2, %hf2, H2⟩, ⟨%f3, %hf3, H3⟩, ⟨%fO, %hfO, HO⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.KernelIdeal.Fused

end
-- ==== Proof.KI.FusedMiddle.lean ====
/- Written by the script scratch/gen_modules.js (see FusedCases.lean's header for the invocation).
   The fused layer kernel's body at an inner block of the contraction (k = 1, 2): the accumulator takes one more block product; nothing is
   stored into the output block. -/
import proofs.«157338_j2456721293623_2_alg».proof.Proof.KI.FusedCases

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes in this case, as pieces (last first), with the proof that the body runs from whole buffers to
    its return, the input blocks kept. -/
noncomputable def runMiddle (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : ¬isLast i)
    (x0 : Vec F S2048x2048 .f32) (x1 : Vec F S2048x512 .f32) (x2 : Vec F S1x512 .f32) (x3 : Vec F S512x128 .f32) (xs : Vec F S2048x512 .f32) :
    Σ' (LO : List (View.Piece (Elt F) S2048x128 .f32)), { LS : List (View.Piece (Elt F) S2048x512 .f32) //
      ∀ (xo : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__fused_layer1_kernel i arg2 harg2 arg3 harg3 arg4 harg4 arg5 harg5 arg6 harg6 arg7 harg7) K } := by
  refine ⟨[], ?_, fun xo E K => ?run⟩
  case run =>
    simp only [cc0__fused_layer1_kernel_eq_skeleton]; unfold cc0__fused_layer1_kernel_skel
    unfold owns
    iintro ⟨⟨%f0, %hf0, H0⟩, ⟨%f1, %hf1, H1⟩, ⟨%f2, %hf2, H2⟩, ⟨%f3, %hf3, H3⟩, ⟨%fO, %hfO, HO⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfO
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]
    · iexists _; isplitr; · ipureintro; exact harg6.read_unread _
      iexact HO
    iexists _; iexact HS

end Cert.KernelIdeal.Fused

end
-- ==== Proof.KI.FusedLast.lean ====
/- Written by the script scratch/gen_modules.js (see FusedCases.lean's header for the invocation).
   The fused layer kernel's body at the last block of the contraction (k = 3): the accumulator takes the last block product, and the
   output block is stored whole: relu(accumulator + bias row) · W2. -/
import proofs.«157338_j2456721293623_2_alg».proof.Proof.KI.FusedCases

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body makes in this case, as pieces (last first), with the proof that the body runs from whole buffers to
    its return, the input blocks kept. -/
noncomputable def runLast (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : isLast i)
    (x0 : Vec F S2048x2048 .f32) (x1 : Vec F S2048x512 .f32) (x2 : Vec F S1x512 .f32) (x3 : Vec F S512x128 .f32) (xs : Vec F S2048x512 .f32) :
    Σ' (LO : List (View.Piece (Elt F) S2048x128 .f32)), { LS : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__fused_layer1_kernel i arg2 harg2 arg3 harg3 arg4 harg4 arg5 harg5 arg6 harg6 arg7 harg7) K } := by
  refine ⟨?_, ?_, fun E K => ?run⟩
  case run =>
    simp only [cc0__fused_layer1_kernel_eq_skeleton]; unfold cc0__fused_layer1_kernel_skel
    unfold owns
    iintro ⟨⟨%f0, %hf0, H0⟩, ⟨%f1, %hf1, H1⟩, ⟨%f2, %hf2, H2⟩, ⟨%f3, %hf3, H3⟩, ⟨%dO, %fO, -, HO⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HO]; · iexists _; iexact HO
    iexists _; iexact HS

end Cert.KernelIdeal.Fused

end
-- ==== Proof.KI.FusedData.lean ====
/- Written by the script scratch/gen_modules.js (see FusedCases.lean's header for the invocation).
   The fused layer kernel, point by point: after the body at point t = 4·i + k the accumulator holds row block i's k-th partial sum, and
   at k = 3 the output block holds relu(sum + b1) · W2 for that row block. This module names those contents as the read-back of the stores
   each run makes (stateAt), states the region invariant that carries the accumulator from one point to the next (a first block overwrites
   what the previous row block left), gives the pipeline's proof data, and proves the body obligation at every point. -/
import proofs.«157338_j2456721293623_2_alg».proof.Proof.KI.FusedFirst
import proofs.«157338_j2456721293623_2_alg».proof.Proof.KI.FusedMiddle
import proofs.«157338_j2456721293623_2_alg».proof.Proof.KI.FusedLast

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each run leaves, read back -/

def accFirst (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : isFirst i) (hc1 : ¬isLast i) (x0 : Vec F S2048x2048 .f32) (x1 : Vec F S2048x512 .f32) (x2 : Vec F S1x512 .f32) (x3 : Vec F S512x128 .f32) : Vec F S2048x512 .f32 :=
  accV.read (Elt F) (accV.writes (Elt F) accV.junk (runFirst c i arg2 harg2 arg3 harg3 arg4 harg4 arg5 harg5 arg6 harg6 arg7 harg7 hc0 hc1 x0 x1 x2 x3).2.1)
theorem accFirst_cover (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : isFirst i) (hc1 : ¬isLast i) (x0 : Vec F S2048x2048 .f32) (x1 : Vec F S2048x512 .f32) (x2 : Vec F S1x512 .f32) (x3 : Vec F S512x128 .f32) (y : S2048x512.Idx) :
    ∃ pc ∈ (runFirst c i arg2 harg2 arg3 harg3 arg4 harg4 arg5 harg5 arg6 harg6 arg7 harg7 hc0 hc1 x0 x1 x2 x3).2.1, y ∈ pc.1.set :=
  View.cover_of_tiledL (runFirst c i arg2 harg2 arg3 harg3 arg4 harg4 arg5 harg5 arg6 harg6 arg7 harg7 hc0 hc1 x0 x1 x2 x3).2.1 S2048x512.size (by sl_kernel_rfl) y
def outFirst (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : isFirst i) (hc1 : ¬isLast i) (x0 : Vec F S2048x2048 .f32) (x1 : Vec F S2048x512 .f32) (x2 : Vec F S1x512 .f32) (x3 : Vec F S512x128 .f32) : Vec F S2048x128 .f32 :=
  outV.read (Elt F) (outV.writes (Elt F) outV.junk (runFirst c i arg2 harg2 arg3 harg3 arg4 harg4 arg5 harg5 arg6 harg6 arg7 harg7 hc0 hc1 x0 x1 x2 x3).1)

def accMiddle (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : ¬isLast i) (x0 : Vec F S2048x2048 .f32) (x1 : Vec F S2048x512 .f32) (x2 : Vec F S1x512 .f32) (x3 : Vec F S512x128 .f32) (xs : Vec F S2048x512 .f32) : Vec F S2048x512 .f32 :=
  accV.read (Elt F) (accV.writes (Elt F) accV.junk (runMiddle c i arg2 harg2 arg3 harg3 arg4 harg4 arg5 harg5 arg6 harg6 arg7 harg7 hc0 hc1 x0 x1 x2 x3 xs).2.1)
theorem accMiddle_cover (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : ¬isLast i) (x0 : Vec F S2048x2048 .f32) (x1 : Vec F S2048x512 .f32) (x2 : Vec F S1x512 .f32) (x3 : Vec F S512x128 .f32) (xs : Vec F S2048x512 .f32) (y : S2048x512.Idx) :
    ∃ pc ∈ (runMiddle c i arg2 harg2 arg3 harg3 arg4 harg4 arg5 harg5 arg6 harg6 arg7 harg7 hc0 hc1 x0 x1 x2 x3 xs).2.1, y ∈ pc.1.set :=
  View.cover_of_tiledL (runMiddle c i arg2 harg2 arg3 harg3 arg4 harg4 arg5 harg5 arg6 harg6 arg7 harg7 hc0 hc1 x0 x1 x2 x3 xs).2.1 S2048x512.size (by sl_kernel_rfl) y
def outMiddle (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : ¬isLast i) (x0 : Vec F S2048x2048 .f32) (x1 : Vec F S2048x512 .f32) (x2 : Vec F S1x512 .f32) (x3 : Vec F S512x128 .f32) (xs : Vec F S2048x512 .f32) : Vec F S2048x128 .f32 :=
  outV.read (Elt F) (outV.writes (Elt F) outV.junk (runMiddle c i arg2 harg2 arg3 harg3 arg4 harg4 arg5 harg5 arg6 harg6 arg7 harg7 hc0 hc1 x0 x1 x2 x3 xs).1)

def accLast (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : isLast i) (x0 : Vec F S2048x2048 .f32) (x1 : Vec F S2048x512 .f32) (x2 : Vec F S1x512 .f32) (x3 : Vec F S512x128 .f32) (xs : Vec F S2048x512 .f32) : Vec F S2048x512 .f32 :=
  accV.read (Elt F) (accV.writes (Elt F) accV.junk (runLast c i arg2 harg2 arg3 harg3 arg4 harg4 arg5 harg5 arg6 harg6 arg7 harg7 hc0 hc1 x0 x1 x2 x3 xs).2.1)
theorem accLast_cover (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : isLast i) (x0 : Vec F S2048x2048 .f32) (x1 : Vec F S2048x512 .f32) (x2 : Vec F S1x512 .f32) (x3 : Vec F S512x128 .f32) (xs : Vec F S2048x512 .f32) (y : S2048x512.Idx) :
    ∃ pc ∈ (runLast c i arg2 harg2 arg3 harg3 arg4 harg4 arg5 harg5 arg6 harg6 arg7 harg7 hc0 hc1 x0 x1 x2 x3 xs).2.1, y ∈ pc.1.set :=
  View.cover_of_tiledL (runLast c i arg2 harg2 arg3 harg3 arg4 harg4 arg5 harg5 arg6 harg6 arg7 harg7 hc0 hc1 x0 x1 x2 x3 xs).2.1 S2048x512.size (by sl_kernel_rfl) y
def outLast (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : isLast i) (x0 : Vec F S2048x2048 .f32) (x1 : Vec F S2048x512 .f32) (x2 : Vec F S1x512 .f32) (x3 : Vec F S512x128 .f32) (xs : Vec F S2048x512 .f32) : Vec F S2048x128 .f32 :=
  outV.read (Elt F) (outV.writes (Elt F) outV.junk (runLast c i arg2 harg2 arg3 harg3 arg4 harg4 arg5 harg5 arg6 harg6 arg7 harg7 hc0 hc1 x0 x1 x2 x3 xs).1)
theorem outLast_cover (c : Dev nD) (i : grid0.Coords) (arg2 : Memref sig .tc .vmem S2048x2048 .f32) (harg2 : arg2.IsWhole) (arg3 : Memref sig .tc .vmem S2048x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S2048x128 .f32) (harg6 : arg6.IsWhole) (arg7 : Memref sig .tc .vmem S2048x512 .f32) (harg7 : arg7.IsWhole) (hc0 : ¬isFirst i) (hc1 : isLast i) (x0 : Vec F S2048x2048 .f32) (x1 : Vec F S2048x512 .f32) (x2 : Vec F S1x512 .f32) (x3 : Vec F S512x128 .f32) (xs : Vec F S2048x512 .f32) (y : S2048x128.Idx) :
    ∃ pc ∈ (runLast c i arg2 harg2 arg3 harg3 arg4 harg4 arg5 harg5 arg6 harg6 arg7 harg7 hc0 hc1 x0 x1 x2 x3 xs).1, y ∈ pc.1.set :=
  View.cover_of_tiledL (runLast c i arg2 harg2 arg3 harg3 arg4 harg4 arg5 harg5 arg6 harg6 arg7 harg7 hc0 hc1 x0 x1 x2 x3 xs).1 S2048x128.size (by sl_kernel_rfl) y

/-! ## The windows' blocks as the region finds them -/

-- the TensorCore's buffer contents when the region is entered
variable (V : (c : Dev nD) → (b : Ref sig .tc) → Buf (Elt F) ((c : Thread nD τ).loc b))

/-- Window `w`'s block at point `t`, read off its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The accumulation -/

/-- No point is both a first and a last block. -/
theorem not_first_last (t : Fin cfg0.N) (hF : isFirst (grid0.coords t)) (hL : isLast (grid0.coords t)) : False := by
  have h0 := (isFirst_iff t).mp hF; have h3 := (isLast_iff t).mp hL; omega

/-- What the output block's staging buffer (first component) and the accumulator (second) hold after the body at
    position `n`: the run of the case `n` is in, at the point's memrefs and input blocks, over what the accumulator held
    after position `n - 1` (nothing of it at a first block, where the accumulator is zeroed). -/
def stateAt (c : Dev nD) : (n : ℕ) → n < cfg0.N → Vec F S2048x128 .f32 × Vec F S2048x512 .f32
  | 0, hn =>
    (outFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) accM (Memref.isWhole_whole _) ((isFirst_iff ⟨0, hn⟩).mpr rfl) (fun h => absurd ((isLast_iff ⟨0, hn⟩).mp h) (show ¬((0 : ℕ) % 4 = 3) from by decide)) (iblk V c 0 ⟨0, hn⟩) (iblk V c 1 ⟨0, hn⟩) (iblk V c 2 ⟨0, hn⟩) (iblk V c 3 ⟨0, hn⟩),
     accFirst c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) accM (Memref.isWhole_whole _) ((isFirst_iff ⟨0, hn⟩).mpr rfl) (fun h => absurd ((isLast_iff ⟨0, hn⟩).mp h) (show ¬((0 : ℕ) % 4 = 3) from by decide)) (iblk V c 0 ⟨0, hn⟩) (iblk V c 1 ⟨0, hn⟩) (iblk V c 2 ⟨0, hn⟩) (iblk V c 3 ⟨0, hn⟩))
  | n + 1, hn =>
    if hF : isFirst (grid0.coords ⟨n + 1, hn⟩) then
      (outFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accM (Memref.isWhole_whole _) hF (fun hL => not_first_last ⟨n + 1, hn⟩ hF hL) (iblk V c 0 ⟨n + 1, hn⟩) (iblk V c 1 ⟨n + 1, hn⟩) (iblk V c 2 ⟨n + 1, hn⟩) (iblk V c 3 ⟨n + 1, hn⟩),
       accFirst c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accM (Memref.isWhole_whole _) hF (fun hL => not_first_last ⟨n + 1, hn⟩ hF hL) (iblk V c 0 ⟨n + 1, hn⟩) (iblk V c 1 ⟨n + 1, hn⟩) (iblk V c 2 ⟨n + 1, hn⟩) (iblk V c 3 ⟨n + 1, hn⟩))
    else
      if hL : isLast (grid0.coords ⟨n + 1, hn⟩) then
        (outLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accM (Memref.isWhole_whole _) hF hL (iblk V c 0 ⟨n + 1, hn⟩) (iblk V c 1 ⟨n + 1, hn⟩) (iblk V c 2 ⟨n + 1, hn⟩) (iblk V c 3 ⟨n + 1, hn⟩) (stateAt c n (Nat.lt_of_succ_lt hn)).2,
         accLast c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accM (Memref.isWhole_whole _) hF hL (iblk V c 0 ⟨n + 1, hn⟩) (iblk V c 1 ⟨n + 1, hn⟩) (iblk V c 2 ⟨n + 1, hn⟩) (iblk V c 3 ⟨n + 1, hn⟩) (stateAt c n (Nat.lt_of_succ_lt hn)).2)
      else
        (outMiddle c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accM (Memref.isWhole_whole _) hF hL (iblk V c 0 ⟨n + 1, hn⟩) (iblk V c 1 ⟨n + 1, hn⟩) (iblk V c 2 ⟨n + 1, hn⟩) (iblk V c 3 ⟨n + 1, hn⟩) (stateAt c n (Nat.lt_of_succ_lt hn)).2,
         accMiddle c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) accM (Memref.isWhole_whole _) hF hL (iblk V c 0 ⟨n + 1, hn⟩) (iblk V c 1 ⟨n + 1, hn⟩) (iblk V c 2 ⟨n + 1, hn⟩) (iblk V c 3 ⟨n + 1, hn⟩) (stateAt c n (Nat.lt_of_succ_lt hn)).2)

theorem stateAt_first (c : Dev nD) (t : Fin cfg0.N) (hF : isFirst (grid0.coords t)) (hL : ¬isLast (grid0.coords t)) :
    stateAt V c t.val t.isLt = (outFirst c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t), accFirst c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t)) := by
  obtain ⟨n, hn⟩ := t
  cases n with
  | zero => rfl
  | succ n => exact (dif_pos hF).trans rfl

theorem stateAt_middle (c : Dev nD) (t : Fin cfg0.N) (hF : ¬isFirst (grid0.coords t)) (hL : ¬isLast (grid0.coords t)) :
    stateAt V c t.val t.isLt = (outMiddle c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) (stateAt V c (t.val - 1) (Nat.lt_of_le_of_lt (Nat.sub_le _ _) t.isLt)).2,
      accMiddle c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) (stateAt V c (t.val - 1) (Nat.lt_of_le_of_lt (Nat.sub_le _ _) t.isLt)).2) := by
  obtain ⟨n, hn⟩ := t
  cases n with
  | zero => exact absurd ((isFirst_iff ⟨0, hn⟩).mpr rfl) hF
  | succ n => exact (dif_neg hF).trans ((dif_neg hL).trans rfl)

theorem stateAt_last (c : Dev nD) (t : Fin cfg0.N) (hF : ¬isFirst (grid0.coords t)) (hL : isLast (grid0.coords t)) :
    stateAt V c t.val t.isLt = (outLast c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) (stateAt V c (t.val - 1) (Nat.lt_of_le_of_lt (Nat.sub_le _ _) t.isLt)).2,
      accLast c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) (stateAt V c (t.val - 1) (Nat.lt_of_le_of_lt (Nat.sub_le _ _) t.isLt)).2) := by
  obtain ⟨n, hn⟩ := t
  cases n with
  | zero => exact absurd ((isFirst_iff ⟨0, hn⟩).mpr rfl) hF
  | succ n => exact (dif_neg hF).trans ((dif_pos hL).trans rfl)

/-! ## The invariant between points -/

/-- Before the first point the class invariant (every scoped buffer at anything); afterwards the accumulator at what
    the point before left, the other pallas_call's scoped buffers at anything and the generator register. -/
def inv (c : Dev nD) : (n : ℕ) → n ≤ cfg0.N → sProp 𝕄
  | 0, _ => Pipeline.ΦA spec0 c
  | n + 1, hn => iprop(owns (c : Thread nD τ) accM fullShare ((stateAt V c n hn).2) ∗ others c)

theorem inv_zero (c : Dev nD) (n : ℕ) (h : n ≤ cfg0.N) (hz : n = 0) : inv V c n h = Pipeline.ΦA spec0 c := by
  subst hz; rfl
theorem inv_succ (c : Dev nD) (n : ℕ) (hn : n < cfg0.N) :
    inv V c (n + 1) hn = iprop(owns (c : Thread nD τ) accM fullShare ((stateAt V c n hn).2) ∗ others c) := rfl
theorem inv_pos (c : Dev nD) (n : ℕ) (h : n ≤ cfg0.N) (hz : n ≠ 0) :
    inv V c n h = iprop(owns (c : Thread nD τ) accM fullShare ((stateAt V c (n - 1) (by omega)).2) ∗ others c) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (stateAt V c t.val t.isLt).1
  Φ t := inv V c t.val (Nat.le_of_lt_succ t.isLt)
  q _ := fullShare
  owed _ := 0

theorem A_eq (c : Dev nD) (w : Fin cfg0.W) : (dat V c).A w = V c (Pipeline.arrRef spec0 w) := by dsimp only [dat]
theorem inv_castSucc (c : Dev nD) (t : Fin cfg0.N) : (dat V c).Φ t.castSucc = inv V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_out (c : Dev nD) (t : Fin cfg0.N) : (dat V c).after 4 t = (stateAt V c t.val t.isLt).1 := by dsimp only [dat]
theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

theorem leaves_in (c : Dev nD) (t : Fin cfg0.N) :
    (dat V c).leavesExact 0 t = owns (c : Thread nD τ) (ms_0 t) fullShare (iblk V c 0 t)
    ∧ (dat V c).leavesExact 1 t = owns (c : Thread nD τ) (ms_1 t) fullShare (iblk V c 1 t)
    ∧ (dat V c).leavesExact 2 t = owns (c : Thread nD τ) (ms_2 t) fullShare (iblk V c 2 t)
    ∧ (dat V c).leavesExact 3 t = owns (c : Thread nD τ) (ms_3 t) fullShare (iblk V c 3 t) := by
  refine ⟨?_, ?_, ?_, ?_⟩
  · unfold Dat.leavesExact; rw [live_0 t, after_0]
  · unfold Dat.leavesExact; rw [live_1 t, after_1]
  · unfold Dat.leavesExact; rw [live_2 t, after_2]
  · unfold Dat.leavesExact; rw [live_3 t, after_3]

set_option maxHeartbeats 4800000 in
/-- The body at any point: the inputs' memrefs hold their blocks; the point is a first block, an inner one or a last one
    (`by_cases` on the two conditions), and the run of that case applies; the invariant hands the body the accumulator
    (at anything before the very first point, at what the point before left afterwards — which a first block then
    overwrites) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = inv V c (t.val + 1) t.isLt from rfl, inv_succ]
  rw [(leaves_in V c t).1, (leaves_in V c t).2.1, (leaves_in V c t).2.2.1, (leaves_in V c t).2.2.2]
  by_cases hF : isFirst (grid0.coords t)
  · have hL : ¬isLast (grid0.coords t) := fun h => not_first_last t hF h
    by_cases hz : t.val = 0
    · rw [Dat.leavesExact_idle (dat V c) 4 t (idle_out t hL) (noFlush_out t hL)]
      rw [stateAt_first V c t hF hL]
      unfold accFirst; (try dsimp only)
      rw [inv_castSucc V c t, inv_zero V c _ _ hz]
      iintro ⟨HΦ, Ho, ⟨%d0, H0⟩, ⟨%d1, H1⟩, ⟨%d2, H2⟩, ⟨%d3, H3⟩, ⟨%dO, HO⟩⟩
      ihave HΦ' := (inv_split (F := F) c) $$ HΦ
      icases HΦ' with ⟨HS, Hoth⟩
      iapply ((runFirst c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [HO]; · iexact HO
      isplitl [HS]; · iexact HS
      iintro ⟨H0, H1, H2, H3, HO, ⟨%es, HS⟩⟩
      isplitl [HS Hoth]
      · isplitl [HS]
        · unfold owns; iexists _; isplitr
          swap; · iexact HS
          ipureintro; exact View.read_writes_of_cover _ _ _ _ _ (accFirst_cover c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t))
        iexact Hoth
      isplitl [Ho]; · iexact Ho
      isplitl [H0]; · iexact H0
      isplitl [H1]; · iexact H1
      isplitl [H2]; · iexact H2
      isplitl [H3]; · iexact H3
      iexists _; iexact HO
    · rw [Dat.leavesExact_idle (dat V c) 4 t (idle_out t hL) (noFlush_out t hL)]
      rw [stateAt_first V c t hF hL]
      unfold accFirst; (try dsimp only)
      rw [inv_castSucc V c t, inv_pos V c _ _ hz]
      iintro ⟨⟨HS, Hoth⟩, Ho, ⟨%d0, H0⟩, ⟨%d1, H1⟩, ⟨%d2, H2⟩, ⟨%d3, H3⟩, ⟨%dO, HO⟩⟩
      iapply ((runFirst c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [HO]; · iexact HO
      isplitl [HS]; · iexists _; iexact HS
      iintro ⟨H0, H1, H2, H3, HO, ⟨%es, HS⟩⟩
      isplitl [HS Hoth]
      · isplitl [HS]
        · unfold owns; iexists _; isplitr
          swap; · iexact HS
          ipureintro; exact View.read_writes_of_cover _ _ _ _ _ (accFirst_cover c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t))
        iexact Hoth
      isplitl [Ho]; · iexact Ho
      isplitl [H0]; · iexact H0
      isplitl [H1]; · iexact H1
      isplitl [H2]; · iexact H2
      isplitl [H3]; · iexact H3
      iexists _; iexact HO
  · have hz : t.val ≠ 0 := fun h => hF ((isFirst_iff t).mpr (by rw [h]))
    by_cases hL : isLast (grid0.coords t)
    · rw [show (dat V c).leavesExact 4 t = owns (c : Thread nD τ) (ms_4 t) fullShare ((dat V c).after 4 t) from by
            unfold Dat.leavesExact; rw [live_out t hL], after_out]
      rw [stateAt_last V c t hF hL]
      unfold outLast accLast; (try dsimp only)
      rw [inv_castSucc V c t, inv_pos V c _ _ hz]
      iintro ⟨⟨HS, Hoth⟩, Ho, ⟨%d0, H0⟩, ⟨%d1, H1⟩, ⟨%d2, H2⟩, ⟨%d3, H3⟩, ⟨%dO, HO⟩⟩
      iapply ((runLast c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [HO]; · iexists _; iexact HO
      isplitl [HS]; · iexact HS
      iintro ⟨H0, H1, H2, H3, ⟨%eO, HO⟩, ⟨%es, HS⟩⟩
      isplitl [HS Hoth]
      · isplitl [HS]
        · unfold owns; iexists _; isplitr
          swap; · iexact HS
          ipureintro; exact View.read_writes_of_cover _ _ _ _ _ (accLast_cover c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) _)
        iexact Hoth
      isplitl [Ho]; · iexact Ho
      isplitl [H0]; · iexact H0
      isplitl [H1]; · iexact H1
      isplitl [H2]; · iexact H2
      isplitl [H3]; · iexact H3
      unfold owns; iexists _; isplitr
      swap; · iexact HO
      ipureintro; exact View.read_writes_of_cover _ _ _ _ _ (outLast_cover c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) _)
    · rw [Dat.leavesExact_idle (dat V c) 4 t (idle_out t hL) (noFlush_out t hL)]
      rw [stateAt_middle V c t hF hL]
      unfold accMiddle; (try dsimp only)
      rw [inv_castSucc V c t, inv_pos V c _ _ hz]
      iintro ⟨⟨HS, Hoth⟩, Ho, ⟨%d0, H0⟩, ⟨%d1, H1⟩, ⟨%d2, H2⟩, ⟨%d3, H3⟩, ⟨%dO, HO⟩⟩
      iapply ((runMiddle c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [HO]; · iexact HO
      isplitl [HS]; · iexact HS
      iintro ⟨H0, H1, H2, H3, HO, ⟨%es, HS⟩⟩
      isplitl [HS Hoth]
      · isplitl [HS]
        · unfold owns; iexists _; isplitr
          swap; · iexact HS
          ipureintro; exact View.read_writes_of_cover _ _ _ _ _ (accMiddle_cover c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) _)
        iexact Hoth
      isplitl [Ho]; · iexact Ho
      isplitl [H0]; · iexact H0
      isplitl [H1]; · iexact H1
      isplitl [H2]; · iexact H2
      isplitl [H3]; · iexact H3
      iexists _; iexact HO

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  rw [show (dat V c).Φ 0 = inv V c 0 (Nat.zero_le _) from rfl, inv_zero V c 0 _ rfl]
  try exact Idealize.SL.BI.Entails.refl _

/-- After the last point the invariant gives the class invariant back: the accumulator's contents are forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 16 := N_0; omega)]
  iintro ⟨HS, Hoth⟩
  iapply (inv_join (F := F) c)
  isplitl [HS]
  · iexists _; iexact HS
  iexact Hoth

end Cert.KernelIdeal.Fused

end
-- ==== Proof.KI.Whole.lean ====
/- Written by the script scratch/gen_modules.js (bun scratch/gen_modules.js <dir>; one template, instantiated at the program's namespace:
   genWhole("KernelIdeal")); the argument is written once, in that template.
   The whole program as a run. @main is: three stretches of host operations (the edge list with its self loops, the degrees and their
   inverse square roots, the edge weights, the dense weighted adjacency matrix by one scatter-add, the two bias rows), the first
   pallas_call (which fills main_v47), one more stretch (the queried rows gathered out of the adjacency matrix), the second
   pallas_call (which fills the result main_v55). Between two items every unscoped buffer is held at a valuation: the launch
   memory, then `StableHlo.after` each stretch, then updated at what a pallas_call's pipeline leaves in its output array
   (`Dat.arrAt` of the region's proof data at its last point). The run theorem: every weakly fair execution terminates and every
   unscoped buffer ends at the last valuation — the arguments as launched, the result at the second pipeline's write-back. -/
import proofs.«157338_j2456721293623_2_alg».proof.Proof.KI.AggData
import proofs.«157338_j2456721293623_2_alg».proof.Proof.KI.FusedData
import proofs.«157338_j2456721293623_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two pipelines leave, and the valuations between the items -/

/-- The buffers at the first pallas_call's entry, read at the TensorCore's references. -/
abbrev E3 : (c : Dev nD) → (b : Ref sig .tc) → Buf (Elt F) ((c : Thread nD τ).loc b) := fun c b => V3 m c b

/-- What the first pipeline leaves in its output array main_v47. -/
def out47 (c : Dev nD) : Buf (Elt F) ((c : Thread nD τ).loc main_v47) := (Fused.dat (E3 m) c).arrAt 4 cfg0.N

/-- The regions' leavings so far: main_v47 known, the rest not yet. -/
def outsA : Outs (F := F) := fun _ r c => if h : r = main_v47 then h ▸ out47 m c else Classical.arbitrary _

abbrev E5 : (c : Dev nD) → (b : Ref sig .tc) → Buf (Elt F) ((c : Thread nD τ).loc b) := fun c b => V5 m (outsA m) c b

/-- What the second pipeline leaves in the result array main_v55. -/
def out55 (c : Dev nD) : Buf (Elt F) ((c : Thread nD τ).loc main_v55) := (Agg.dat (E5 m) c).arrAt 3 cfg1.N

/-- Both regions' leavings. -/
def outs : Outs (F := F) := fun _ r c =>
  if h : r = main_v47 then h ▸ out47 m c else if h' : r = main_v55 then h' ▸ out55 m c else Classical.arbitrary _

theorem outs_47 (J : ℕ) (c : Dev nD) : outs m J main_v47 c = out47 m c := by unfold outs; rw [dif_pos rfl]
theorem outsA_47 (J : ℕ) (c : Dev nD) : outsA m J main_v47 c = out47 m c := by unfold outsA; rw [dif_pos rfl]
theorem outs_55 (J : ℕ) (c : Dev nD) : outs m J main_v55 c = out55 m c := by
  unfold outs; rw [dif_neg (by decide), dif_pos rfl]

theorem V4_outs (c : Dev nD) : V4 m (outs m) c = V4 m (outsA m) c := by
  unfold V4; rw [outs_47, outsA_47]
theorem V5_outs (c : Dev nD) : V5 m (outs m) c = V5 m (outsA m) c := by
  unfold V5; rw [V4_outs]

abbrev E4 : (c : Dev nD) → (b : Ref sig .tc) → Buf (Elt F) ((c : Thread nD τ).loc b) := fun c b => V4 m (outs m) c b
abbrev E6 : (c : Dev nD) → (b : Ref sig .tc) → Buf (Elt F) ((c : Thread nD τ).loc b) := fun c b => V6 m (outs m) c b

/-! ## The proof data family and the thread state -/

def pdats : (p : Fin 2) → (c : Dev nD) → Dat τ (Elt F) Unit ℕ (UR sig nD τ) ℕ (Pipeline.pin (pcfgs (F := F)) Gen.adm p) c
  | ⟨0, _⟩ => fun c => Fused.dat (E3 m) c
  | ⟨1, _⟩ => fun c => Agg.dat (E5 m) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

/-! ## Each region's exit valuation -/

/-- At the first pallas_call's exit each of its arrays holds what the pipeline leaves: the inputs as entered, main_v47 the
    write-backs. -/
theorem exit0_in (c : Dev nD) (w : Fin cfg0.W) (hw : (cfg0.win w).isOut = false) (hne : Pipeline.arrRef spec0 w ∉ ([main_v47] : List (Ref sig .tc))) :
    (pdats m 0 c).arrAt w cfg0.N = E4 m c (Pipeline.arrRef spec0 w) :=
  ((Fused.dat (E3 m) c).arrAt_in w hw _).trans ((Fused.A_eq (E3 m) c w).trans (V4_of m (outs m) c (Pipeline.arrRef spec0 w) hne).symm)
theorem exit0_arr (c : Dev nD) (w : Fin cfg0.W) : (pdats m 0 c).arrAt w cfg0.N = E4 m c (Pipeline.arrRef spec0 w) := by
  by_cases h : w = 4
  · subst h
    show out47 m c = V4 m (outs m) c main_v47
    unfold V4; rw [Function.update_self, outs_47]
  · exact exit0_in m c w ((by decide : ∀ w : Fin 5, w ≠ 4 → (cfg0.win w).isOut = false) w h)
      ((by decide : ∀ w : Fin 5, w ≠ 4 → Pipeline.arrRef spec0 w ∉ ([main_v47] : List (Ref sig .tc))) w h)
theorem exit0_rest (c : Dev nD) : ∀ b, b ∉ Finset.univ.image (Pipeline.arrRef spec0) → E4 m c b = E3 m c b :=
  fun b hb => V4_of m (outs m) c b (fun h => hb (by
    rw [List.mem_singleton] at h; subst h; exact Finset.mem_image.mpr ⟨4, Finset.mem_univ _, rfl⟩))

theorem exit1_in (c : Dev nD) (w : Fin cfg1.W) (hw : (cfg1.win w).isOut = false) (hne : Pipeline.arrRef spec1 w ∉ ([main_v55] : List (Ref sig .tc))) :
    (pdats m 1 c).arrAt w cfg1.N = E6 m c (Pipeline.arrRef spec1 w) :=
  ((Agg.dat (E5 m) c).arrAt_in w hw _).trans ((Agg.A_eq (E5 m) c w).trans
    ((congrFun (V5_outs m c) _).symm.trans (V6_of m (outs m) c (Pipeline.arrRef spec1 w) hne).symm))
theorem exit1_arr (c : Dev nD) (w : Fin cfg1.W) : (pdats m 1 c).arrAt w cfg1.N = E6 m c (Pipeline.arrRef spec1 w) := by
  by_cases h : w = 3
  · subst h
    show out55 m c = V6 m (outs m) c main_v55
    unfold V6; rw [Function.update_self, outs_55]
  · exact exit1_in m c w ((by decide : ∀ w : Fin 4, w ≠ 3 → (cfg1.win w).isOut = false) w h)
      ((by decide : ∀ w : Fin 4, w ≠ 3 → Pipeline.arrRef spec1 w ∉ ([main_v55] : List (Ref sig .tc))) w h)
theorem exit1_rest (c : Dev nD) : ∀ b, b ∉ Finset.univ.image (Pipeline.arrRef spec1) → E6 m c b = E5 m c b :=
  fun b hb => (V6_of m (outs m) c b (fun h => hb (by
    rw [List.mem_singleton] at h; subst h; exact Finset.mem_image.mpr ⟨3, Finset.mem_univ _, rfl⟩))).trans (congrFun (V5_outs m c) _)

/-! ## The regions as segments -/

set_option backward.isDefEq.respectTransparency.types false in
/-- Pallas call 0 as a segment of @main over the thread state "every unscoped buffer at a valuation, the generator register at
    some state, nothing owed": its arrays are split out of the unscoped buffers on entry and put back, at what the pipeline
    leaves, on exit; the generator register goes into the class invariant and comes back; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Fused.body_obligation (E3 m) c).loose
  hwaits := Pipeline.hwaits_of_owed_zero _ _ _ _ L lv 0 fun _ _ => rfl
  pre c := iprop(StableHlo.held (c : Thread nD τ) (Pipeline.ucRefs τ sig) (V3 m c) ∗ Rr c)
  post c := iprop(StableHlo.held (c : Thread nD τ) (Pipeline.ucRefs τ sig) (V4 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (Gen.adm (F := F) 0).1
          ∗ Pipeline.scopedRest (Pipeline.pin (pcfgs (F := F)) Gen.adm 0).spec c) ⊢ (Pipeline.ΦA spec0 c : sProp 𝕄) := by
      unfold Pipeline.ΦA
      iintro ⟨Hp, -, Hr⟩
      isplitl [Hr]; · iexact Hr
      iexact Hp
    exact h.trans (Fused.inv_in (E3 m) c)
  hout c := by
    rw [Pipeline.ownSems0_none]
    have h : (Pipeline.ΦA spec0 c : sProp 𝕄) ⊢ iprop((∃ r, prngReg c r) ∗ BI.emp
          ∗ Pipeline.scopedRest (Pipeline.pin (pcfgs (F := F)) Gen.adm 0).spec c) := by
      unfold Pipeline.ΦA
      iintro ⟨Hr, Hp⟩
      isplitl [Hp]; · iexact Hp
      isplitr; · iempintro
      iexact Hr
    exact (Fused.inv_out (E3 m) c).trans h
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of @main over the thread state "every unscoped buffer at a valuation, the generator register at
    some state, nothing owed": its arrays are split out of the unscoped buffers on entry and put back, at what the pipeline
    leaves, on exit; the generator register goes into the class invariant and comes back; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Agg.body_obligation (E5 m) c).loose
  hwaits := Pipeline.hwaits_of_owed_zero _ _ _ _ L lv 1 fun _ _ => rfl
  pre c := iprop(StableHlo.held (c : Thread nD τ) (Pipeline.ucRefs τ sig) (V5 m (outsA m) c) ∗ Rr c)
  post c := iprop(StableHlo.held (c : Thread nD τ) (Pipeline.ucRefs τ sig) (V6 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (Gen.adm (F := F) 1).1
          ∗ Pipeline.scopedRest (Pipeline.pin (pcfgs (F := F)) Gen.adm 1).spec c) ⊢ (Pipeline.ΦA spec1 c : sProp 𝕄) := by
      unfold Pipeline.ΦA
      iintro ⟨Hp, -, Hr⟩
      isplitl [Hr]; · iexact Hr
      iexact Hp
    exact h.trans (Agg.inv_in (E5 m) c)
  hout c := by
    rw [Pipeline.ownSems0_none]
    have h : (Pipeline.ΦA spec1 c : sProp 𝕄) ⊢ iprop((∃ r, prngReg c r) ∗ BI.emp
          ∗ Pipeline.scopedRest (Pipeline.pin (pcfgs (F := F)) Gen.adm 1).spec c) := by
      unfold Pipeline.ΦA
      iintro ⟨Hr, Hp⟩
      isplitl [Hp]; · iexact Hp
      isplitr; · iempintro
      iexact Hr
    exact (Agg.inv_out (E5 m) c).trans h
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- Entering the second pallas_call: the valuation after the last host stretch does not depend on what is recorded for main_v55. -/
theorem into_reg1 (c : Dev nD) :
    iprop(StableHlo.held (c : Thread nD τ) (Pipeline.ucRefs τ sig) (V5 m (outs m) c) ∗ Rr c)
      ⊢ (iprop(StableHlo.held (c : Thread nD τ) (Pipeline.ucRefs τ sig) (V5 m (outsA m) c) ∗ Rr c) : sProp 𝕄) :=
  Entails.of_eq (by rw [V5_outs])

/-- The end of the chain: the buffers and the generator register on one side, the (empty) debt on the other. -/
theorem chain_end (c : Dev nD) :
    iprop(StableHlo.held (c : Thread nD τ) (Pipeline.ucRefs τ sig) (V6 m (outs m) c) ∗ Rr c)
      ⊢ (iprop((StableHlo.held (c : Thread nD τ) (Pipeline.ucRefs τ sig) (V6 m (outs m) c) ∗ ∃ r, prngReg c r)
          ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- The rest state at every boundary. -/
abbrev EE : Fin 3 → Dev nD → sProp 𝕄 := fun _ c => Rr c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting, and every
    unscoped buffer ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V6 m (outs m) c b) := by
  refine Pipeline.θ_run_regions_kit_dev (pcfgs (F := F)) Gen.adm (pdats m) () cellOf_inj emb₁ defs₀ 𝒱₀ L lv m ρ main
    (segs m (outs m) 𝒱₀ L lv (EE (F := F)) () (pdats m) (reg0 m) (reg1 m))
    (fun c Q => by
      rewrite [main_chain c, Pipeline.Seg.run_eq_chain,
        show (segs m (outs m) 𝒱₀ L lv (EE (F := F)) () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V6 m (outs m) c) ∗ ∃ r, prngReg c r))
    (hch := fun c => ⟨.rfl, .rfl, .rfl, .rfl, .rfl, into_reg1 m c, chain_end m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V6 m (outs m) c) s')
      isplitl [Hh] <;> iassumption)
    (hQ := fun s h c => h c)

/-! ## What it says about the arguments and the result -/

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c)⟩) (run_all m ρ)

/-- The result array ends at what the second pipeline leaves, the arguments as launched. -/
theorem run_value : θ_run defs (onTc (τ := τ) (main (F := F))) ⟨m, fun _ => 0, ρ⟩ (fun r => ∀ c : Dev nD,
      r.2.mem ((c.tc : Thread nD τ).loc main_v55) = out55 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v55 (by decide))).trans (by
        show V6 m (outs m) c main_v55 = out55 m c
        unfold V6; rw [Function.update_self, outs_55]),
     (h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c)⟩) (run_all m ρ)

end Cert.KernelIdeal.Whole

end
-- ==== Proof.GcnSpec.lean ====
/-
  The mathematics of the two programs, over an abstract edge list.

  A graph on 8192 nodes with 270336 directed edges (262144 given ones followed by one self loop per node); edge e goes from
  node sN e to node dN e. Every node d has degree deg d = the number of edges into it, and each edge the weight
  nrm e = deg(sN e)^(-1/2) · deg(dN e)^(-1/2) (a node of degree 0 counts as weight 0).

  * The message-passing form (the reference): one layer sends X ↦ (d ↦ Σ_{e into d} X(sN e) · nrm e); the network is
    out = layer(relu(layer(I·W1) + b1) · W2) + b2, read at the queried rows q.
  * The dense form (the kernel): the weighted adjacency matrix adj d s = Σ_{e : s → d} nrm e is built once, and each
    layer is a matrix product with it, summed over the 8192 sources in four blocks of 2048 into an accumulator that
    starts at zero.
  Both are functions of the same data; that they agree when the weights are real numbers is `dense_eq_passing`
  (module Algebra). Every sum is written exactly as the programs' operations produce it at the exact instance
  (a scatter-add and a zero-accumulator product each contribute a leading `0 +`).
-/
import Idealize.ShloMosaic.PureOps.Ideal
import Idealize.ShloMosaic.PureOps.Ideal.Laws

noncomputable section

namespace Cert.GcnSpec

open Idealize.ShloMosaic

/-- Source index `2048·b + s` of block `b`. -/
def blk (b : Fin 4) (s : Fin 2048) : Fin 8192 := ⟨2048 * b.val + s.val, by have := b.isLt; have := s.isLt; omega⟩

/-- A sum over the 8192 sources taken as the kernels take it: an accumulator starting at zero receives, block after
    block, a zero-accumulator product over the block's 2048 sources. -/
def blocked4 (f : Fin 8192 → EReal) : EReal :=
  ((((0 + (0 + ∑ s : Fin 2048, f (blk 0 s))) + (0 + ∑ s : Fin 2048, f (blk 1 s))) + (0 + ∑ s : Fin 2048, f (blk 2 s)))
    + (0 + ∑ s : Fin 2048, f (blk 3 s)))

section

variable (sN dN : Fin 270336 → Fin 8192) (q : Fin 2048 → Fin 8192)
  (W1 : Fin 8192 → Fin 512 → EReal) (b1 : Fin 512 → EReal) (W2 : Fin 512 → Fin 128 → EReal) (b2 : Fin 128 → EReal)

/-- The degree of node `d`: a scatter-add of ones into zeros. -/
def deg (d : Fin 8192) : EReal := 0 + ∑ e ∈ Finset.univ.filter (fun e => dN e = d), (1 : EReal)

/-- deg^(-1/2), and 0 at a node of degree 0 (`where(deg > 0, rsqrt(deg), 0)`). -/
def dis (d : Fin 8192) : EReal := if Ideal.cmp .ogt (deg dN d) 0 = 1#1 then Ideal.rsqrt (deg dN d) else 0

/-- The weight of edge `e`. -/
def nrm (e : Fin 270336) : EReal := dis dN (sN e) * dis dN (dN e)

/-! ### Message passing -/

/-- One layer: every edge carries its source's row, scaled, to its destination. -/
def pass (X : Fin 8192 → EReal) (d : Fin 8192) : EReal :=
  0 + ∑ e ∈ Finset.univ.filter (fun e => dN e = d), X (sN e) * nrm sN dN e

/-- The identity feature matrix times W1. -/
def eyeW (d : Fin 8192) (k : Fin 512) : EReal := ∑ s : Fin 8192, (if d = s then (1 : EReal) else 0) * W1 s k

def hid (d : Fin 8192) (k : Fin 512) : EReal := max (pass sN dN (fun s => eyeW W1 s k) d + b1 k) 0
def lin (d : Fin 8192) (j : Fin 128) : EReal := ∑ k : Fin 512, hid sN dN W1 b1 d k * W2 k j
/-- The reference's result at queried row `r`, column `j`. -/
def passing (r : Fin 2048) (j : Fin 128) : EReal := pass sN dN (fun s => lin sN dN W1 b1 W2 s j) (q r) + b2 j

/-! ### Dense adjacency -/

/-- The weighted adjacency matrix: a scatter-add of the edge weights at (destination, source) into zeros. -/
def adj (d s : Fin 8192) : EReal := 0 + ∑ e ∈ Finset.univ.filter (fun e => dN e = d ∧ sN e = s), nrm sN dN e

def dHid (d : Fin 8192) (k : Fin 512) : EReal := max (blocked4 (fun s => adj sN dN d s * W1 s k) + b1 k) 0
def dLin (d : Fin 8192) (j : Fin 128) : EReal := 0 + ∑ k : Fin 512, dHid sN dN W1 b1 d k * W2 k j
/-- The kernel's result at queried row `r`, column `j`. -/
def dense (r : Fin 2048) (j : Fin 128) : EReal := blocked4 (fun s => adj sN dN (q r) s * dLin sN dN W1 b1 W2 s j) + b2 j

end

/-- An extended real that is a real number. -/
def IsReal (x : EReal) : Prop := ∃ r : ℝ, x = (r : EReal)

end Cert.GcnSpec

end
-- ==== Proof.KI.Payloads.lean ====
/-
  The two kernels' arithmetic, read at an index.

  Each kernel's body stores three values. The aggregation kernel: a zero block (the accumulator's start); the accumulator
  plus the product of a 2048 × 2048 block of the adjacency matrix with a 2048 × 128 block of features, taken into a zero
  accumulator; and the accumulator plus the bias row. The fused kernel: the same zero block and the same accumulation at
  width 512, and at the end the product of max(accumulator + bias row, 0) with the second weight matrix, again into a
  zero accumulator. At the exact instance each is a formula in the extended reals at row r and column j (or k); a product
  into a zero accumulator keeps its leading 0 +.
-/
import proofs.«157338_j2456721293623_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx

/-! ### The three products -/

theorem agg_product_lhs0 (i : S2048x128.Idx) (q : dot_S2048x2048_S2048x128_S2048x128_1_0_0_1_n_n.contr.Idx) : (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide),
    dif_pos (show (0 : Fin S2048x2048.rank) ∈ dot_S2048x2048_S2048x128_S2048x128_1_0_0_1_n_n.lhsNonContracting by decide)]
  rfl
theorem agg_product_lhs1 (i : S2048x128.Idx) (q : dot_S2048x2048_S2048x128_S2048x128_1_0_0_1_n_n.contr.Idx) : (dot_S2048x2048_S2048x128_S2048x128_1_0_0_1_n_n.lhsIdx i q 1).val = (q ⟨0, by decide⟩).val :=
  dot_S2048x2048_S2048x128_S2048x128_1_0_0_1_n_n.lhsIdx_val_of_single rfl i q
theorem agg_product_rhs0 (i : S2048x128.Idx) (q : dot_S2048x2048_S2048x128_S2048x128_1_0_0_1_n_n.contr.Idx) : (dot_S2048x2048_S2048x128_S2048x128_1_0_0_1_n_n.rhsIdx i q 0).val = (q ⟨0, by decide⟩).val :=
  dot_S2048x2048_S2048x128_S2048x128_1_0_0_1_n_n.rhsIdx_val_of_single rfl i q
theorem agg_product_rhs1 (i : S2048x128.Idx) (q : dot_S2048x2048_S2048x128_S2048x128_1_0_0_1_n_n.contr.Idx) : (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide),
    dif_pos (show (1 : Fin S2048x128.rank) ∈ dot_S2048x2048_S2048x128_S2048x128_1_0_0_1_n_n.rhsNonContracting by decide)]
  rfl

/-- The zero-accumulator product with contraction over 2048 at row r, column j: the literal 0 of the accumulator
    plus the sum over the contracted coordinate s of left (r, s) times right (s, j). -/
theorem agg_product (a : FVec Ideal S2048x2048 .f32) (b : FVec Ideal S2048x128 .f32) (r : Fin 2048) (j : Fin 128) :
    matmul dot_S2048x2048_S2048x128_S2048x128_1_0_0_1_n_n (some .fp32) a b (constant (F := Ideal) S2048x128 .f32 0x00000000#32) (ix2 r j)
      = 0 + ∑ s : Fin 2048, a (ix2 r s) * b (ix2 s j) := by
  refine (Ideal.matmul_apply _ _ _ _ _ _).trans ?_
  rw [constant_apply, Ideal.ofBits_zero_f32, ← Equiv.sum_comp (contrEquiv1 dot_S2048x2048_S2048x128_S2048x128_1_0_0_1_n_n 2048 rfl rfl).symm]
  refine congrArg (0 + ·) (Finset.sum_congr rfl fun s _ => ?_)
  have hk := contrEquiv1_symm_val dot_S2048x2048_S2048x128_S2048x128_1_0_0_1_n_n 2048 rfl rfl s
  have el : dot_S2048x2048_S2048x128_S2048x128_1_0_0_1_n_n.lhsIdx (ix2 r j) ((contrEquiv1 dot_S2048x2048_S2048x128_S2048x128_1_0_0_1_n_n 2048 rfl rfl).symm s) = ix2 r s :=
    funext fun x => Fin.ext (by
      match x with
      | ⟨0, _⟩ => exact agg_product_lhs0 _ _
      | ⟨1, _⟩ => exact (agg_product_lhs1 _ _).trans hk)
  have er : dot_S2048x2048_S2048x128_S2048x128_1_0_0_1_n_n.rhsIdx (ix2 r j) ((contrEquiv1 dot_S2048x2048_S2048x128_S2048x128_1_0_0_1_n_n 2048 rfl rfl).symm s) = ix2 s j :=
    funext fun x => Fin.ext (by
      match x with
      | ⟨0, _⟩ => exact (agg_product_rhs0 _ _).trans hk
      | ⟨1, _⟩ => exact agg_product_rhs1 _ _)
  rw [el, er]

theorem fused_product_lhs0 (i : S2048x512.Idx) (q : dot_S2048x2048_S2048x512_S2048x512_1_0_0_1_n_n.contr.Idx) : (dot_S2048x2048_S2048x512_S2048x512_1_0_0_1_n_n.lhsIdx i q 0).val = (i 0).val := by
  unfold DotDims.lhsIdx
  rw [dif_neg (show ¬(0 : Fin S2048x2048.rank) ∈ dot_S2048x2048_S2048x512_S2048x512_1_0_0_1_n_n.lhsBatch by decide),
    dif_pos (show (0 : Fin S2048x2048.rank) ∈ dot_S2048x2048_S2048x512_S2048x512_1_0_0_1_n_n.lhsNonContracting by decide)]
  rfl
theorem fused_product_lhs1 (i : S2048x512.Idx) (q : dot_S2048x2048_S2048x512_S2048x512_1_0_0_1_n_n.contr.Idx) : (dot_S2048x2048_S2048x512_S2048x512_1_0_0_1_n_n.lhsIdx i q 1).val = (q ⟨0, by decide⟩).val :=
  dot_S2048x2048_S2048x512_S2048x512_1_0_0_1_n_n.lhsIdx_val_of_single rfl i q
theorem fused_product_rhs0 (i : S2048x512.Idx) (q : dot_S2048x2048_S2048x512_S2048x512_1_0_0_1_n_n.contr.Idx) : (dot_S2048x2048_S2048x512_S2048x512_1_0_0_1_n_n.rhsIdx i q 0).val = (q ⟨0, by decide⟩).val :=
  dot_S2048x2048_S2048x512_S2048x512_1_0_0_1_n_n.rhsIdx_val_of_single rfl i q
theorem fused_product_rhs1 (i : S2048x512.Idx) (q : dot_S2048x2048_S2048x512_S2048x512_1_0_0_1_n_n.contr.Idx) : (dot_S2048x2048_S2048x512_S2048x512_1_0_0_1_n_n.rhsIdx i q 1).val = (i 1).val := by
  unfold DotDims.rhsIdx
  rw [dif_neg (show ¬(1 : Fin S2048x512.rank) ∈ dot_S2048x2048_S2048x512_S2048x512_1_0_0_1_n_n.rhsBatch by decide),
    dif_pos (show (1 : Fin S2048x512.rank) ∈ dot_S2048x2048_S2048x512_S2048x512_1_0_0_1_n_n.rhsNonContracting by decide)]
  rfl

/-- The zero-accumulator product with contraction over 2048 at row r, column k: the literal 0 of the accumulator
    plus the sum over the contracted coordinate s of left (r, s) times right (s, k). -/
theorem fused_product (a : FVec Ideal S2048x2048 .f32) (b : FVec Ideal S2048x512 .f32) (r : Fin 2048) (k : Fin 512) :
    matmul dot_S2048x2048_S2048x512_S2048x512_1_0_0_1_n_n (some .fp32) a b (constant (F := Ideal) S2048x512 .f32 0x00000000#32) (ix2 r k)
      = 0 + ∑ s : Fin 2048, a (ix2 r s) * b (ix2 s k) := by
  refine (Ideal.matmul_apply _ _ _ _ _ _).trans ?_
  rw [constant_apply, Ideal.ofBits_zero_f32, ← Equiv.sum_comp (contrEquiv1 dot_S2048x2048_S2048x512_S2048x512_1_0_0_1_n_n 2048 rfl rfl).symm]
  refine congrArg (0 + ·) (Finset.sum_congr rfl fun s _ => ?_)
  have hk := contrEquiv1_symm_val dot_S2048x2048_S2048x512_S2048x512_1_0_0_1_n_n 2048 rfl rfl s
  have el : dot_S2048x2048_S2048x512_S2048x512_1_0_0_1_n_n.lhsIdx (ix2 r k) ((contrEquiv1 dot_S2048x2048_S2048x512_S2048x512_1_0_0_1_n_n 2048 rfl rfl).symm s) = ix2 r s :=
    funext fun x => Fin.ext (by
      match x with
      | ⟨0, _⟩ => exact fused_product_lhs0 _ _
      | ⟨1, _⟩ => exact (fused_product_lhs1 _ _).trans hk)
  have er : dot_S2048x2048_S2048x512_S2048x512_1_0_0_1_n_n.rhsIdx (ix2 r k) ((contrEquiv1 dot_S2048x2048_S2048x512_S2048x512_1_0_0_1_n_n 2048 rfl rfl).symm s) = ix2 s k :=
    funext fun x => Fin.ext (by
      match x with
      | ⟨0, _⟩ => exact (fused_product_rhs0 _ _).trans hk
      | ⟨1, _⟩ => exact fused_product_rhs1 _ _)
  rw [el, er]

theorem hidden_product_lhs0 (i : S2048x128.Idx) (q : dot_S2048x512_S512x128_S2048x128_1_0_0_1_n_n.contr.Idx) : (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide),
    dif_pos (show (0 : Fin S2048x512.rank) ∈ dot_S2048x512_S512x128_S2048x128_1_0_0_1_n_n.lhsNonContracting by decide)]
  rfl
theorem hidden_product_lhs1 (i : S2048x128.Idx) (q : dot_S2048x512_S512x128_S2048x128_1_0_0_1_n_n.contr.Idx) : (dot_S2048x512_S512x128_S2048x128_1_0_0_1_n_n.lhsIdx i q 1).val = (q ⟨0, by decide⟩).val :=
  dot_S2048x512_S512x128_S2048x128_1_0_0_1_n_n.lhsIdx_val_of_single rfl i q
theorem hidden_product_rhs0 (i : S2048x128.Idx) (q : dot_S2048x512_S512x128_S2048x128_1_0_0_1_n_n.contr.Idx) : (dot_S2048x512_S512x128_S2048x128_1_0_0_1_n_n.rhsIdx i q 0).val = (q ⟨0, by decide⟩).val :=
  dot_S2048x512_S512x128_S2048x128_1_0_0_1_n_n.rhsIdx_val_of_single rfl i q
theorem hidden_product_rhs1 (i : S2048x128.Idx) (q : dot_S2048x512_S512x128_S2048x128_1_0_0_1_n_n.contr.Idx) : (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide),
    dif_pos (show (1 : Fin S512x128.rank) ∈ dot_S2048x512_S512x128_S2048x128_1_0_0_1_n_n.rhsNonContracting by decide)]
  rfl

/-- The zero-accumulator product with contraction over 512 at row r, column j: the literal 0 of the accumulator
    plus the sum over the contracted coordinate s of left (r, s) times right (s, j). -/
theorem hidden_product (a : FVec Ideal S2048x512 .f32) (b : FVec Ideal S512x128 .f32) (r : Fin 2048) (j : Fin 128) :
    matmul dot_S2048x512_S512x128_S2048x128_1_0_0_1_n_n (some .fp32) a b (constant (F := Ideal) S2048x128 .f32 0x00000000#32) (ix2 r j)
      = 0 + ∑ s : Fin 512, a (ix2 r s) * b (ix2 s j) := by
  refine (Ideal.matmul_apply _ _ _ _ _ _).trans ?_
  rw [constant_apply, Ideal.ofBits_zero_f32, ← Equiv.sum_comp (contrEquiv1 dot_S2048x512_S512x128_S2048x128_1_0_0_1_n_n 512 rfl rfl).symm]
  refine congrArg (0 + ·) (Finset.sum_congr rfl fun s _ => ?_)
  have hk := contrEquiv1_symm_val dot_S2048x512_S512x128_S2048x128_1_0_0_1_n_n 512 rfl rfl s
  have el : dot_S2048x512_S512x128_S2048x128_1_0_0_1_n_n.lhsIdx (ix2 r j) ((contrEquiv1 dot_S2048x512_S512x128_S2048x128_1_0_0_1_n_n 512 rfl rfl).symm s) = ix2 r s :=
    funext fun x => Fin.ext (by
      match x with
      | ⟨0, _⟩ => exact hidden_product_lhs0 _ _
      | ⟨1, _⟩ => exact (hidden_product_lhs1 _ _).trans hk)
  have er : dot_S2048x512_S512x128_S2048x128_1_0_0_1_n_n.rhsIdx (ix2 r j) ((contrEquiv1 dot_S2048x512_S512x128_S2048x128_1_0_0_1_n_n 512 rfl rfl).symm s) = ix2 s j :=
    funext fun x => Fin.ext (by
      match x with
      | ⟨0, _⟩ => exact (hidden_product_rhs0 _ _).trans hk
      | ⟨1, _⟩ => exact hidden_product_rhs1 _ _)
  rw [el, er]

/-! ### The aggregation kernel -/

/-- The accumulator's start: the zero block. -/
theorem agg_zero (r : Fin 2048) (j : Fin 128) : k1_pay1 (F := Ideal) (ix2 r j) = 0 := by
  unfold k1_pay1
  rw [shapeCast_self, broadcast_apply]
  exact Ideal.ofBits_zero_f32

/-- One accumulation: the accumulator plus the block product taken into a zero accumulator. -/
theorem agg_step (v3 : Vec Ideal S2048x128 .f32) (v4 : Vec Ideal S2048x2048 .f32) (v6 : Vec Ideal S2048x128 .f32)
    (r : Fin 2048) (j : Fin 128) :
    k1_pay2 (F := Ideal) v3 v4 v6 (ix2 r j) = v3 (ix2 r j) + (0 + ∑ s : Fin 2048, v4 (ix2 r s) * v6 (ix2 s j)) := by
  unfold k1_pay2
  rw [shapeCast_self, shapeCast_self, shapeCast_self, addf_apply]
  exact congrArg (v3 (ix2 r j) + ·) (agg_product _ _ r j)

/-- The result: the accumulator plus the bias row, the same row for every r. -/
theorem agg_out (v16 : Vec Ideal S2048x128 .f32) (v17 : Vec Ideal S1x128 .f32) (r : Fin 2048) (j : Fin 128) :
    k1_pay3 (F := Ideal) v16 v17 (ix2 r j) = v16 (ix2 r j) + v17 (ix2 0 j) := by
  unfold k1_pay3
  rw [addf_apply, shapeCast_self]
  exact congrArg (v16 (ix2 r j) + ·) (broadcastTo_apply v17 _ (ix2 r j) (ix2 0 j) (fun a => by
    match a with
    | ⟨0, _⟩ => rfl
    | ⟨1, _⟩ => rfl))

/-! ### The fused kernel -/

/-- The accumulator's start: the zero block. -/
theorem fused_zero (r : Fin 2048) (k : Fin 512) : k0_pay1 (F := Ideal) (ix2 r k) = 0 := by
  unfold k0_pay1
  rw [shapeCast_self, broadcast_apply]
  exact Ideal.ofBits_zero_f32

/-- One accumulation: the accumulator plus the block product taken into a zero accumulator. -/
theorem fused_step (v3 : Vec Ideal S2048x512 .f32) (v4 : Vec Ideal S2048x2048 .f32) (v6 : Vec Ideal S2048x512 .f32)
    (r : Fin 2048) (k : Fin 512) :
    k0_pay2 (F := Ideal) v3 v4 v6 (ix2 r k) = v3 (ix2 r k) + (0 + ∑ s : Fin 2048, v4 (ix2 r s) * v6 (ix2 s k)) := by
  unfold k0_pay2
  rw [shapeCast_self, shapeCast_self, addf_apply]
  exact congrArg (v3 (ix2 r k) + ·) (fused_product _ _ r k)

/-- The result: max(accumulator + bias row, 0) times the second weight matrix, into a zero accumulator. -/
theorem fused_out (v15 : Vec Ideal S2048x512 .f32) (v16 : Vec Ideal S1x512 .f32) (v22 : Vec Ideal S512x128 .f32)
    (r : Fin 2048) (j : Fin 128) :
    k0_pay3 (F := Ideal) v15 v16 v22 (ix2 r j)
      = 0 + ∑ k : Fin 512, max (v15 (ix2 r k) + v16 (ix2 0 k)) 0 * v22 (ix2 k j) := by
  unfold k0_pay3
  refine (hidden_product _ _ r j).trans ?_
  refine congrArg (0 + ·) (Finset.sum_congr rfl fun k _ => ?_)
  rw [maximumf_apply, addf_apply, broadcast_apply, shapeCast_self,
    broadcastTo_apply v16 _ (ix2 r k) (ix2 0 k) (fun a => by
    match a with
    | ⟨0, _⟩ => rfl
    | ⟨1, _⟩ => rfl)]
  exact congrArg (fun z => max (v15 (ix2 r k) + v16 (ix2 0 k)) z * v22 (ix2 k j)) Ideal.ofBits_zero_f32

end Cert.KernelIdeal.Payloads

end
-- ==== Proof.ReadAt.lean ====
/-
  Reading a rank-2 array of extended reals at a row and a column. The programs' buffers have types that only unfold to
  "index ↦ extended real"; reading them through `at2` leaves the result's type visibly an extended real, so that
  sums and products of entries elaborate.
-/
import Idealize.ShloMosaic.PureOps.Ideal
import Idealize.ShloMosaic.Lib.ValueIdx

noncomputable section

namespace Cert.GcnSpec

open Idealize.ShloMosaic Idealize.ShloMosaic.ValueIdx

/-- Entry (p, q) of a rank-2 array of extended reals. -/
abbrev at2 {a b : Nat} (f : (⟨2, ![a, b]⟩ : Shape).Idx → EReal) (p : Fin a) (q : Fin b) : EReal := f (ix2 p q)

end Cert.GcnSpec

end
-- ==== Proof.KI.AggValue.lean ====
/-
  The aggregation kernel's result, read at an index.

  The kernel walks the 8192 sources in four blocks of 2048. An accumulator kept between the blocks is zeroed at the first block, takes at
  every block the product of the adjacency block (rows: the queried nodes, columns: the block's sources) with the block's
  rows of the feature matrix, and at the last block is stored, with the bias row added, into the one output block, which is
  written back to the result array there and only there. This module names what the accumulator holds after every block
  (by recursion on the block, never by listing the grid), shows the result array ends at the last block's output, and reads
  it at a row and a column: the sum over the four blocks, taken as the kernel takes it, plus the bias.
-/
import proofs.«157338_j2456721293623_2_alg».proof.Proof.KI.AggData
import proofs.«157338_j2456721293623_2_alg».proof.Proof.GcnSpec
import proofs.«157338_j2456721293623_2_alg».proof.Proof.KI.Payloads
import proofs.«157338_j2456721293623_2_alg».proof.Proof.ReadAt
import Idealize.ShloMosaic.Lib.Pipeline.Value
import Idealize.ShloMosaic.Lib.ValueIdx
import Idealize.ShloMosaic.Lib.Tactic

set_option maxRecDepth 16384

noncomputable section

namespace Cert.KernelIdeal.AggValue

open Cert.KernelIdeal Cert.KernelIdeal.Gen Cert.KernelIdeal.Agg
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

/-- The kernel's loads and stores are of whole buffers: the offsets are zero. -/
theorem hz : (![0, 0] : Fin 2 → Nat) = fun _ => 0 := funext fun a => by fin_cases a <;> rfl

/-! ### What each case of the body leaves, as a value -/

/-- An inner block: the accumulator takes one more block product. -/
theorem accMiddle_eq (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : ¬isLast i) (x0 : Vec F S2048x2048 .f32) (x1 : Vec F S2048x128 .f32) (x2 : Vec F S1x128 .f32) (xs : Vec F S2048x128 .f32) :
    accMiddle c i arg1 harg1 arg2 harg2 arg3 harg3 arg4 harg4 arg5 harg5 hc0 hc1 x0 x1 x2 xs = k1_pay2 xs x0 x1 := by
  unfold accMiddle
  rw [View.read_writes_eq_canon _ _ _ (accMiddle_cover c i arg1 harg1 arg2 harg2 arg3 harg3 arg4 harg4 arg5 harg5 hc0 hc1 x0 x1 x2 xs)]
  unfold runMiddle
  dsimp only
  rw [View.canon_unit_zero hz]
  simp only [View.readAt_eq_ld, harg1.read_unread, harg2.read_unread, harg5.read_unread, View.ld_unit_zero (S := S2048x128) hz,
    View.ld_unit_zero (S := S2048x2048) hz]

/-- The first block: the accumulator is zeroed, read back, and takes the first block product. -/
theorem accFirst_eq (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : isFirst i) (hc1 : ¬isLast i) (x0 : Vec F S2048x2048 .f32) (x1 : Vec F S2048x128 .f32) (x2 : Vec F S1x128 .f32) :
    accFirst c i arg1 harg1 arg2 harg2 arg3 harg3 arg4 harg4 arg5 harg5 hc0 hc1 x0 x1 x2 = k1_pay2 k1_pay1 x0 x1 := by
  unfold accFirst
  rw [View.read_writes_eq_canon _ _ _ (accFirst_cover c i arg1 harg1 arg2 harg2 arg3 harg3 arg4 harg4 arg5 harg5 hc0 hc1 x0 x1 x2)]
  unfold runFirst
  dsimp only
  sl_unfold_words
  rw [View.canon_cons_unit_zero (S := S2048x128) hz, View.readCov_unit_zero (S := S2048x128) _ hz]
  simp only [View.readAt_eq_ld, harg1.read_unread, harg2.read_unread, View.ld_unit_zero (S := S2048x128) hz,
    View.ld_unit_zero (S := S2048x2048) hz]

/-- The last block, the accumulator: one more block product, as at an inner block. -/
theorem accLast_eq (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : isLast i) (x0 : Vec F S2048x2048 .f32) (x1 : Vec F S2048x128 .f32) (x2 : Vec F S1x128 .f32) (xs : Vec F S2048x128 .f32) :
    accLast c i arg1 harg1 arg2 harg2 arg3 harg3 arg4 harg4 arg5 harg5 hc0 hc1 x0 x1 x2 xs = k1_pay2 xs x0 x1 := by
  unfold accLast
  rw [View.read_writes_eq_canon _ _ _ (accLast_cover c i arg1 harg1 arg2 harg2 arg3 harg3 arg4 harg4 arg5 harg5 hc0 hc1 x0 x1 x2 xs)]
  unfold runLast
  dsimp only
  sl_unfold_words
  rw [View.canon_unit_zero hz]
  simp only [View.readAt_eq_ld, harg1.read_unread, harg2.read_unread, harg5.read_unread, View.ld_unit_zero (S := S2048x128) hz,
    View.ld_unit_zero (S := S2048x2048) hz]

/-- The last block, the output: the accumulator, read back after its last step, plus the bias row. -/
theorem outLast_eq (c : Dev nD) (i : grid1.Coords) (arg1 : Memref sig .tc .vmem S2048x2048 .f32) (harg1 : arg1.IsWhole) (arg2 : Memref sig .tc .vmem S2048x128 .f32) (harg2 : arg2.IsWhole) (arg3 : Memref sig .tc .vmem S1x128 .f32) (harg3 : arg3.IsWhole) (arg4 : Memref sig .tc .vmem S2048x128 .f32) (harg4 : arg4.IsWhole) (arg5 : Memref sig .tc .vmem S2048x128 .f32) (harg5 : arg5.IsWhole) (hc0 : ¬isFirst i) (hc1 : isLast i) (x0 : Vec F S2048x2048 .f32) (x1 : Vec F S2048x128 .f32) (x2 : Vec F S1x128 .f32) (xs : Vec F S2048x128 .f32) :
    outLast c i arg1 harg1 arg2 harg2 arg3 harg3 arg4 harg4 arg5 harg5 hc0 hc1 x0 x1 x2 xs = k1_pay3 (k1_pay2 xs x0 x1) x2 := by
  unfold outLast
  rw [View.read_writes_eq_canon _ _ _ (outLast_cover c i arg1 harg1 arg2 harg2 arg3 harg3 arg4 harg4 arg5 harg5 hc0 hc1 x0 x1 x2 xs)]
  unfold runLast
  dsimp only
  sl_unfold_words
  rw [View.canon_unit_zero hz, View.readCov_unit_zero (S := S2048x128) _ hz]
  simp only [View.readAt_eq_ld, harg1.read_unread, harg2.read_unread, harg3.read_unread, harg5.read_unread,
    View.ld_unit_zero (S := S2048x128) hz, View.ld_unit_zero (S := S2048x2048) hz, View.ld_unit_zero (S := S1x128) hz]

/-! ### The accumulator after every block -/

section

-- the TensorCore's buffer contents when the region is entered
variable (V : (c : Dev nD) → (b : Ref sig .tc) → Buf (Elt F) ((c : Thread nD τ).loc b))

/-- What the accumulator holds after block `n`: the zero block stepped by block 0's product, then by each later block's
    product in turn. -/
def accAt (c : Dev nD) : (n : ℕ) → n < cfg1.N → Vec F S2048x128 .f32
  | 0, h => k1_pay2 k1_pay1 (iblk V c 0 ⟨0, h⟩) (iblk V c 1 ⟨0, h⟩)
  | n + 1, h => k1_pay2 (accAt c n (Nat.lt_of_succ_lt h)) (iblk V c 0 ⟨n + 1, h⟩) (iblk V c 1 ⟨n + 1, h⟩)

/-- The accumulator the runs leave is that, at every block: by induction on the block, the case read off the block's number. -/
theorem stateAt_acc (c : Dev nD) (n : ℕ) : ∀ h : n < cfg1.N, (stateAt V c n h).2 = accAt V c n h := by
  induction n with
  | zero =>
    intro h
    have hF : isFirst (grid1.coords ⟨0, h⟩) := (isFirst_iff ⟨0, h⟩).mpr rfl
    have hL : ¬isLast (grid1.coords ⟨0, h⟩) := fun hl => absurd ((isLast_iff ⟨0, h⟩).mp hl) (show ¬((0 : ℕ) = 3) from by decide)
    rw [accAt.eq_1]
    refine (congrArg Prod.snd (stateAt_first V c ⟨0, h⟩ hF hL)).trans ?_
    dsimp only
    exact accFirst_eq c (grid1.coords ⟨0, h⟩) (ms_0 ⟨0, h⟩) (hs_0 ⟨0, h⟩) (ms_1 ⟨0, h⟩) (hs_1 ⟨0, h⟩) (ms_2 ⟨0, h⟩) (hs_2 ⟨0, h⟩) (ms_3 ⟨0, h⟩) (hs_3 ⟨0, h⟩) accM (Memref.isWhole_whole _) hF hL (iblk V c 0 ⟨0, h⟩) (iblk V c 1 ⟨0, h⟩) (iblk V c 2 ⟨0, h⟩)
  | succ n ih0 =>
    intro h
    have hF : ¬isFirst (grid1.coords ⟨n + 1, h⟩) := fun hf => absurd ((isFirst_iff ⟨n + 1, h⟩).mp hf) (Nat.succ_ne_zero n)
    have ih := ih0 (Nat.lt_of_succ_lt h)
    rw [accAt.eq_2]
    by_cases hL : isLast (grid1.coords ⟨n + 1, h⟩)
    · refine (congrArg Prod.snd (stateAt_last V c ⟨n + 1, h⟩ hF hL)).trans ?_
      dsimp only
      refine (accLast_eq c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) accM (Memref.isWhole_whole _) hF hL (iblk V c 0 ⟨n + 1, h⟩) (iblk V c 1 ⟨n + 1, h⟩) (iblk V c 2 ⟨n + 1, h⟩)
        (stateAt V c ((⟨n + 1, h⟩ : Fin cfg1.N).val - 1) (Nat.lt_of_le_of_lt (Nat.sub_le _ _) h)).2).trans ?_
      exact congrArg (fun a => k1_pay2 a (iblk V c 0 ⟨n + 1, h⟩) (iblk V c 1 ⟨n + 1, h⟩)) ih
    · refine (congrArg Prod.snd (stateAt_middle V c ⟨n + 1, h⟩ hF hL)).trans ?_
      dsimp only
      refine (accMiddle_eq c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) (ms_3 ⟨n + 1, h⟩) (hs_3 ⟨n + 1, h⟩) accM (Memref.isWhole_whole _) hF hL (iblk V c 0 ⟨n + 1, h⟩) (iblk V c 1 ⟨n + 1, h⟩) (iblk V c 2 ⟨n + 1, h⟩)
        (stateAt V c ((⟨n + 1, h⟩ : Fin cfg1.N).val - 1) (Nat.lt_of_le_of_lt (Nat.sub_le _ _) h)).2).trans ?_
      exact congrArg (fun a => k1_pay2 a (iblk V c 0 ⟨n + 1, h⟩) (iblk V c 1 ⟨n + 1, h⟩)) ih

/-- The grid has a block number 3. -/
theorem h3N : 3 < cfg1.N := by rw [show cfg1.N = 4 from N_1]; decide

/-- The output block after the last block: the accumulator there plus the bias row. -/
theorem stateAt_out (c : Dev nD) :
    (stateAt V c 3 h3N).1 = k1_pay3 (accAt V c 3 h3N) (iblk V c 2 ⟨3, h3N⟩) := by
  have hF : ¬isFirst (grid1.coords ⟨3, h3N⟩) := fun hf => absurd ((isFirst_iff ⟨3, h3N⟩).mp hf) (show ¬((3 : ℕ) = 0) from by decide)
  have hL : isLast (grid1.coords ⟨3, h3N⟩) := (isLast_iff ⟨3, h3N⟩).mpr rfl
  have e : accAt V c 3 h3N = k1_pay2 (accAt V c 2 (Nat.lt_of_succ_lt h3N)) (iblk V c 0 ⟨3, h3N⟩) (iblk V c 1 ⟨3, h3N⟩) :=
    accAt.eq_2 V c 2 h3N
  rw [e]
  refine (congrArg Prod.fst (stateAt_last V c ⟨3, h3N⟩ hF hL)).trans ?_
  dsimp only
  refine (outLast_eq c (grid1.coords ⟨3, h3N⟩) (ms_0 ⟨3, h3N⟩) (hs_0 ⟨3, h3N⟩) (ms_1 ⟨3, h3N⟩) (hs_1 ⟨3, h3N⟩) (ms_2 ⟨3, h3N⟩) (hs_2 ⟨3, h3N⟩) (ms_3 ⟨3, h3N⟩) (hs_3 ⟨3, h3N⟩) accM (Memref.isWhole_whole _) hF hL (iblk V c 0 ⟨3, h3N⟩) (iblk V c 1 ⟨3, h3N⟩) (iblk V c 2 ⟨3, h3N⟩)
    (stateAt V c ((⟨3, h3N⟩ : Fin cfg1.N).val - 1) (Nat.lt_of_le_of_lt (Nat.sub_le _ _) h3N)).2).trans ?_
  exact congrArg (fun a => k1_pay3 (k1_pay2 a (iblk V c 0 ⟨3, h3N⟩) (iblk V c 1 ⟨3, h3N⟩)) (iblk V c 2 ⟨3, h3N⟩))
    (stateAt_acc V c 2 (Nat.lt_of_succ_lt h3N))

/-! ### The result array -/

/-- What the one write-back writes: the last block's output. -/
abbrev result (c : Dev nD) : Buf (Elt F) ((c : Thread nD τ).loc main_v55) :=
  k1_pay3 (accAt V c 3 h3N) (iblk V c 2 ⟨3, h3N⟩)

/-- The write-back, at the last block, writes it: the output's one block, read through zero offsets, is the array. -/
theorem flushed_eq (c : Dev nD) (t : Fin cfg1.N) (hf : (cfg1.win 3).flush t = true) :
    (dat V c).flushed 3 t = ((cfg1.win 3).blk t).view.read (Elt F) (result V c) := by
  have hN : cfg1.N = 4 := N_1
  have h3 : t.val = 3 := by have := (flush1_3 t).mp hf; have := t.isLt; omega
  obtain rfl : t = ⟨3, h3N⟩ := Fin.ext h3
  show (cfg1.win 3).cut (grid1.coords ⟨3, h3N⟩) ((dat V c).after 3 ⟨3, h3N⟩) = _
  rw [after_out]
  show (cfg1.win 3).cut (grid1.coords ⟨3, h3N⟩) (stateAt V c 3 h3N).1 = _
  rw [stateAt_out V c]
  have hz' : (fun a => win1_3.index ⟨3, h3N⟩ a * main_v55.ty.shape.size a) = fun _ => 0 := funext fun a => by fin_cases a <;> decide +kernel
  exact (Memref.read_access_unit_zero (Elt F) main_v55 hz' (fun a => by rw [congrFun hz' a]; simp) (result V c)).symm

/-- So the result array ends holding the last block's output: that block covers it. -/
theorem final_out (c : Dev nD) : (dat V c).arrAt 3 cfg1.N = result V c :=
  (dat V c).arrAt_eq_of_cover 3 (result V c) (flushed_eq V c) fun i =>
    ⟨⟨3, h3N⟩, (flush1_3 ⟨3, h3N⟩).mpr rfl, by
      show i ∈ ((View.whole main_v55).slice (win1_3.rect ⟨3, h3N⟩)).set
      rw [View.set_slice_whole, Rect.mem_set_unit]
      intro a
      have h0 : (i 0 : Nat) < 2048 := (i 0).isLt
      have h1 : (i 1 : Nat) < 128 := (i 1).isLt
      match a with
      | ⟨0, _⟩ =>
        show win1_3.index ⟨3, h3N⟩ 0 * win1_3.size 0 ≤ (i 0 : Nat) ∧ (i 0 : Nat) < win1_3.index ⟨3, h3N⟩ 0 * win1_3.size 0 + win1_3.xsize (grid1.coords ⟨3, h3N⟩) 0
        rw [show win1_3.index ⟨3, h3N⟩ 0 * win1_3.size 0 = 0 from by decide +kernel, show win1_3.xsize (grid1.coords ⟨3, h3N⟩) 0 = 2048 from by decide +kernel]; omega
      | ⟨1, _⟩ =>
        show win1_3.index ⟨3, h3N⟩ 1 * win1_3.size 1 ≤ (i 1 : Nat) ∧ (i 1 : Nat) < win1_3.index ⟨3, h3N⟩ 1 * win1_3.size 1 + win1_3.xsize (grid1.coords ⟨3, h3N⟩) 1
        rw [show win1_3.index ⟨3, h3N⟩ 1 * win1_3.size 1 = 0 from by decide +kernel, show win1_3.xsize (grid1.coords ⟨3, h3N⟩) 1 = 128 from by decide +kernel]; omega⟩

end

/-! ### The blocks the windows read, and the result at an index -/

section

variable (V : (c : Dev nD) → (b : Ref sig .tc) → Buf (Elt Ideal) ((c : Thread nD τ).loc b))

/-- Block `t` of the adjacency window is block column `t`; of the feature window, block row `t`; the bias window has one block. -/
theorem idx_A : ∀ t : Fin cfg1.N, win1_0.index t 0 = 0 ∧ win1_0.index t 1 = t.val :=
  (by decide +kernel : ∀ t : Fin grid1.N, win1_0.index t 0 = 0 ∧ win1_0.index t 1 = t.val)
theorem idx_H : ∀ t : Fin cfg1.N, win1_1.index t 0 = t.val ∧ win1_1.index t 1 = 0 :=
  (by decide +kernel : ∀ t : Fin grid1.N, win1_1.index t 0 = t.val ∧ win1_1.index t 1 = 0)
theorem idx_B : ∀ t : Fin cfg1.N, win1_2.index t 0 = 0 ∧ win1_2.index t 1 = 0 :=
  (by decide +kernel : ∀ t : Fin grid1.N, win1_2.index t 0 = 0 ∧ win1_2.index t 1 = 0)

/-- The adjacency block at block `k`: the queried rows, the block's 2048 source columns. -/
theorem blkA (c : Dev nD) (t : Fin cfg1.N) (k : Fin 4) (hk : t.val = k.val) (r s : Fin 2048) :
    (iblk V c 0 t : Vec Ideal S2048x2048 .f32) (ix2 r s) = (V c main_v54 : S2048x8192.Idx → EReal) (ix2 r (Cert.GcnSpec.blk k s)) := by
  unfold iblk
  rw [View.read_apply]
  show (V c main_v54 : S2048x8192.Idx → EReal) _ = _
  refine congrArg (V c main_v54 : S2048x8192.Idx → EReal) (funext fun a => Fin.ext ?_)
  match a with
  | ⟨0, _⟩ => show win1_0.index t 0 * 2048 + 1 * r.val = r.val; rw [(idx_A t).1]; omega
  | ⟨1, _⟩ => show win1_0.index t 1 * 2048 + 1 * s.val = 2048 * k.val + s.val; rw [(idx_A t).2, hk]; omega

/-- The feature block at block `k`: the block's 2048 source rows. -/
theorem blkH (c : Dev nD) (t : Fin cfg1.N) (k : Fin 4) (hk : t.val = k.val) (s : Fin 2048) (j : Fin 128) :
    (iblk V c 1 t : Vec Ideal S2048x128 .f32) (ix2 s j) = (V c main_v47 : S8192x128.Idx → EReal) (ix2 (Cert.GcnSpec.blk k s) j) := by
  unfold iblk
  rw [View.read_apply]
  show (V c main_v47 : S8192x128.Idx → EReal) _ = _
  refine congrArg (V c main_v47 : S8192x128.Idx → EReal) (funext fun a => Fin.ext ?_)
  match a with
  | ⟨0, _⟩ => show win1_1.index t 0 * 2048 + 1 * s.val = 2048 * k.val + s.val; rw [(idx_H t).1, hk]; omega
  | ⟨1, _⟩ => show win1_1.index t 1 * 128 + 1 * j.val = j.val; rw [(idx_H t).2]; omega

/-- The bias row, at every block. -/
theorem blkB (c : Dev nD) (t : Fin cfg1.N) (j : Fin 128) :
    (iblk V c 2 t : Vec Ideal S1x128 .f32) (ix2 0 j) = (V c main_v46 : S1x128.Idx → EReal) (ix2 0 j) := by
  unfold iblk
  rw [View.read_apply]
  show (V c main_v46 : S1x128.Idx → EReal) _ = _
  refine congrArg (V c main_v46 : S1x128.Idx → EReal) (funext fun a => Fin.ext ?_)
  match a with
  | ⟨0, _⟩ => show win1_2.index t 0 * 1 + 1 * 0 = 0; rw [(idx_B t).1]
  | ⟨1, _⟩ => show win1_2.index t 1 * 128 + 1 * j.val = j.val; rw [(idx_B t).2]; omega

end

/-- Four steps from the zero block, read at a row and a column: the four block sums, added in the kernel's order. -/
theorem chain4_apply (A0 A1 A2 A3 : Vec Ideal S2048x2048 .f32) (H0 H1 H2 H3 : Vec Ideal S2048x128 .f32) (r : Fin 2048) (j : Fin 128) :
    k1_pay2 (F := Ideal) (k1_pay2 (k1_pay2 (k1_pay2 k1_pay1 A0 H0) A1 H1) A2 H2) A3 H3 (ix2 r j)
      = ((((0 + (0 + ∑ s : Fin 2048, A0 (ix2 r s) * H0 (ix2 s j))) + (0 + ∑ s : Fin 2048, A1 (ix2 r s) * H1 (ix2 s j)))
          + (0 + ∑ s : Fin 2048, A2 (ix2 r s) * H2 (ix2 s j))) + (0 + ∑ s : Fin 2048, A3 (ix2 r s) * H3 (ix2 s j))) := by
  rw [Payloads.agg_step, Payloads.agg_step, Payloads.agg_step, Payloads.agg_step, Payloads.agg_zero]

section

variable (V : (c : Dev nD) → (b : Ref sig .tc) → Buf (Elt Ideal) ((c : Thread nD τ).loc b))

/-- The accumulator after the last block, as the four steps. -/
theorem accAt_three (c : Dev nD) (h0 : 0 < cfg1.N) (h1 : 1 < cfg1.N) (h2 : 2 < cfg1.N) :
    accAt V c 3 h3N = k1_pay2 (k1_pay2 (k1_pay2 (k1_pay2 k1_pay1 (iblk V c 0 ⟨0, h0⟩) (iblk V c 1 ⟨0, h0⟩))
      (iblk V c 0 ⟨1, h1⟩) (iblk V c 1 ⟨1, h1⟩)) (iblk V c 0 ⟨2, h2⟩) (iblk V c 1 ⟨2, h2⟩)) (iblk V c 0 ⟨3, h3N⟩) (iblk V c 1 ⟨3, h3N⟩) := by
  rw [show accAt V c 3 h3N = _ from accAt.eq_2 V c 2 h3N, show accAt V c 2 (Nat.lt_of_succ_lt h3N) = _ from accAt.eq_2 V c 1 _,
    show accAt V c 1 (Nat.lt_of_succ_lt (Nat.lt_of_succ_lt h3N)) = _ from accAt.eq_2 V c 0 _, accAt.eq_1]

/-- THE RESULT AT (r, j): the sum over the four source blocks, taken as the kernel takes it, of adjacency times features,
    plus the bias. The three arrays the windows read are named `A`, `H`, `B` so that their elements are extended reals
    on the nose. -/
theorem agg_value (c : Dev nD) (A : S2048x8192.Idx → EReal) (H : S8192x128.Idx → EReal) (B : S1x128.Idx → EReal)
    (hA : A = V c main_v54) (hH : H = V c main_v47) (hB : B = V c main_v46) (r : Fin 2048) (j : Fin 128) :
    ((Cert.KernelIdeal.Agg.dat (F := Ideal) V c).arrAt 3 cfg1.N : S2048x128.Idx → EReal) (ix2 r j)
      = Cert.GcnSpec.blocked4 (fun s => A (ix2 r s) * H (ix2 s j)) + B (ix2 0 j) := by
  have hN : cfg1.N = 4 := N_1
  have h0 : 0 < cfg1.N := by omega
  have h1 : 1 < cfg1.N := by omega
  have h2 : 2 < cfg1.N := by omega
  refine (congrArg (fun f : S2048x128.Idx → EReal => f (ix2 r j)) (final_out V c)).trans ?_
  refine (Payloads.agg_out (accAt V c 3 h3N) (iblk V c 2 ⟨3, h3N⟩) r j).trans ?_
  have eB : (iblk V c 2 ⟨3, h3N⟩ : Vec Ideal S1x128 .f32) (ix2 0 j) = B (ix2 0 j) := by rw [blkB V c ⟨3, h3N⟩ j, hB]
  rw [eB, accAt_three V c h0 h1 h2]
  refine congrArg (· + B (ix2 0 j)) ?_
  refine (chain4_apply (iblk V c 0 ⟨0, h0⟩) (iblk V c 0 ⟨1, h1⟩) (iblk V c 0 ⟨2, h2⟩) (iblk V c 0 ⟨3, h3N⟩)
    (iblk V c 1 ⟨0, h0⟩) (iblk V c 1 ⟨1, h1⟩) (iblk V c 1 ⟨2, h2⟩) (iblk V c 1 ⟨3, h3N⟩) r j).trans ?_
  have e : ∀ (k : Fin 4) (t : Fin cfg1.N) (hk : t.val = k.val) (X : Vec Ideal S2048x2048 .f32) (Y : Vec Ideal S2048x128 .f32),
      X = iblk V c 0 t → Y = iblk V c 1 t →
      (∑ s : Fin 2048, X (ix2 r s) * Y (ix2 s j))
        = ∑ s : Fin 2048, A (ix2 r (Cert.GcnSpec.blk k s)) * H (ix2 (Cert.GcnSpec.blk k s) j) := by
    intro k t hk X Y hX hY
    subst hX hY
    exact Finset.sum_congr rfl fun s _ => by rw [blkA V c t k hk r s, blkH V c t k hk s j, ← hA, ← hH]
  rw [e 0 ⟨0, h0⟩ rfl _ _ rfl rfl, e 1 ⟨1, h1⟩ rfl _ _ rfl rfl, e 2 ⟨2, h2⟩ rfl _ _ rfl rfl, e 3 ⟨3, h3N⟩ rfl _ _ rfl rfl]
  rfl

end

section

variable (V : (c : Dev nD) → (b : Ref sig .tc) → Buf (Elt Ideal) ((c : Thread nD τ).loc b))

/-- The same statement with every array read through the coordinate reader. -/
theorem agg_value_at2 (c : Dev nD) (r : Fin 2048) (j : Fin 128) :
    Cert.GcnSpec.at2 ((Cert.KernelIdeal.Agg.dat (F := Ideal) V c).arrAt 3 cfg1.N) r j
      = Cert.GcnSpec.blocked4 (fun s => Cert.GcnSpec.at2 (V c main_v54) r s * Cert.GcnSpec.at2 (V c main_v47) s j)
        + Cert.GcnSpec.at2 (V c main_v46) 0 j :=
  agg_value V c (V c main_v54) (V c main_v47) (V c main_v46) rfl rfl rfl r j

end

end Cert.KernelIdeal.AggValue

end
-- ==== Proof.KI.FusedValue.lean ====
/-
  The first layer's kernel, read as a value.

  The kernel runs on 16 points, t = 4·i + k: i the row block of 2048 rows, k the block of 2048 sources of the
  contraction. At k = 0 the accumulator is zeroed and takes the first block product; at k = 1, 2, 3 it takes one more;
  at k = 3 it is read out (bias row added, clamped below at zero, multiplied by the second weight matrix into a zero
  accumulator) into row block i of the result, which is then written back. So after the run entry (d, j) of the result is

      0 + Σ_k max (blocked sum over the 8192 sources of A(d, s) · W1(s, k) + b1(k)) 0 · W2(k, j),

  the blocked sum taken exactly as the specification's blocked4 takes it. A row block is four points, so the
  accumulation is unrolled along the row block, with i symbolic; the grid is never enumerated.
-/
import proofs.«157338_j2456721293623_2_alg».proof.Proof.KI.FusedData
import proofs.«157338_j2456721293623_2_alg».proof.Proof.GcnSpec
import proofs.«157338_j2456721293623_2_alg».proof.Proof.KI.Payloads
import proofs.«157338_j2456721293623_2_alg».proof.Proof.ReadAt
import Idealize.ShloMosaic.Lib.Pipeline.Value
import Idealize.ShloMosaic.Lib.ValueIdx
import Idealize.ShloMosaic.Lib.Tactic

set_option maxRecDepth 16384

noncomputable section

namespace Cert.KernelIdeal.FusedValue

open Cert.KernelIdeal Cert.KernelIdeal.Gen Cert.KernelIdeal.Fused
open Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-! ### What each case's stores leave -/

/-- An inner block: the accumulator takes the step on top of what it held. -/
theorem accMiddle_eq (c : Dev nD) (i : grid0.Coords) (a2 : Memref sig .tc .vmem S2048x2048 .f32) (h2 : a2.IsWhole) (a3 : Memref sig .tc .vmem S2048x512 .f32) (h3 : a3.IsWhole) (a4 : Memref sig .tc .vmem S1x512 .f32) (h4 : a4.IsWhole) (a5 : Memref sig .tc .vmem S512x128 .f32) (h5 : a5.IsWhole) (a6 : Memref sig .tc .vmem S2048x128 .f32) (h6 : a6.IsWhole) (a7 : Memref sig .tc .vmem S2048x512 .f32) (h7 : a7.IsWhole) (hc0 : ¬isFirst i) (hc1 : ¬isLast i) (x0 : Vec F S2048x2048 .f32) (x1 : Vec F S2048x512 .f32) (x2 : Vec F S1x512 .f32) (x3 : Vec F S512x128 .f32) (xs : Vec F S2048x512 .f32) :
    accMiddle c i a2 h2 a3 h3 a4 h4 a5 h5 a6 h6 a7 h7 hc0 hc1 x0 x1 x2 x3 xs = k0_pay2 xs x0 x1 := by
  unfold accMiddle
  rw [View.read_writes_eq_canon _ _ _ (accMiddle_cover c i a2 h2 a3 h3 a4 h4 a5 h5 a6 h6 a7 h7 hc0 hc1 x0 x1 x2 x3 xs)]
  unfold runMiddle
  dsimp only
  rw [View.canon_unit_zero hz]
  simp only [View.readAt_eq_ld, h7.read_unread, h2.read_unread, h3.read_unread,
    View.ld_unit_zero (S := S2048x512) hz, View.ld_unit_zero (S := S2048x2048) hz]

/-- A first block: the accumulator is zeroed, read back, and takes the step on top of the zero block. -/
theorem accFirst_eq (c : Dev nD) (i : grid0.Coords) (a2 : Memref sig .tc .vmem S2048x2048 .f32) (h2 : a2.IsWhole) (a3 : Memref sig .tc .vmem S2048x512 .f32) (h3 : a3.IsWhole) (a4 : Memref sig .tc .vmem S1x512 .f32) (h4 : a4.IsWhole) (a5 : Memref sig .tc .vmem S512x128 .f32) (h5 : a5.IsWhole) (a6 : Memref sig .tc .vmem S2048x128 .f32) (h6 : a6.IsWhole) (a7 : Memref sig .tc .vmem S2048x512 .f32) (h7 : a7.IsWhole) (hc0 : isFirst i) (hc1 : ¬isLast i) (x0 : Vec F S2048x2048 .f32) (x1 : Vec F S2048x512 .f32) (x2 : Vec F S1x512 .f32) (x3 : Vec F S512x128 .f32) :
    accFirst c i a2 h2 a3 h3 a4 h4 a5 h5 a6 h6 a7 h7 hc0 hc1 x0 x1 x2 x3 = k0_pay2 k0_pay1 x0 x1 := by
  unfold accFirst
  rw [View.read_writes_eq_canon _ _ _ (accFirst_cover c i a2 h2 a3 h3 a4 h4 a5 h5 a6 h6 a7 h7 hc0 hc1 x0 x1 x2 x3)]
  unfold runFirst
  dsimp only
  sl_unfold_words
  rw [View.canon_cons_unit_zero (S := S2048x512) hz, View.readCov_unit_zero (S := S2048x512) _ hz]
  simp only [View.readAt_eq_ld, h2.read_unread, h3.read_unread,
    View.ld_unit_zero (S := S2048x512) hz, View.ld_unit_zero (S := S2048x2048) hz]

/-- A last block: the accumulator takes the step as at an inner block … -/
theorem accLast_eq (c : Dev nD) (i : grid0.Coords) (a2 : Memref sig .tc .vmem S2048x2048 .f32) (h2 : a2.IsWhole) (a3 : Memref sig .tc .vmem S2048x512 .f32) (h3 : a3.IsWhole) (a4 : Memref sig .tc .vmem S1x512 .f32) (h4 : a4.IsWhole) (a5 : Memref sig .tc .vmem S512x128 .f32) (h5 : a5.IsWhole) (a6 : Memref sig .tc .vmem S2048x128 .f32) (h6 : a6.IsWhole) (a7 : Memref sig .tc .vmem S2048x512 .f32) (h7 : a7.IsWhole) (hc0 : ¬isFirst i) (hc1 : isLast i) (x0 : Vec F S2048x2048 .f32) (x1 : Vec F S2048x512 .f32) (x2 : Vec F S1x512 .f32) (x3 : Vec F S512x128 .f32) (xs : Vec F S2048x512 .f32) :
    accLast c i a2 h2 a3 h3 a4 h4 a5 h5 a6 h6 a7 h7 hc0 hc1 x0 x1 x2 x3 xs = k0_pay2 xs x0 x1 := by
  unfold accLast
  rw [View.read_writes_eq_canon _ _ _ (accLast_cover c i a2 h2 a3 h3 a4 h4 a5 h5 a6 h6 a7 h7 hc0 hc1 x0 x1 x2 x3 xs)]
  unfold runLast
  dsimp only
  sl_unfold_words
  rw [View.canon_unit_zero (S := S2048x512) hz]
  simp only [View.readAt_eq_ld, h7.read_unread, h2.read_unread, h3.read_unread,
    View.ld_unit_zero (S := S2048x512) hz, View.ld_unit_zero (S := S2048x2048) hz]

/-- … and is read back into the output block: bias row, clamp at zero, second weight matrix. -/
theorem outLast_eq (c : Dev nD) (i : grid0.Coords) (a2 : Memref sig .tc .vmem S2048x2048 .f32) (h2 : a2.IsWhole) (a3 : Memref sig .tc .vmem S2048x512 .f32) (h3 : a3.IsWhole) (a4 : Memref sig .tc .vmem S1x512 .f32) (h4 : a4.IsWhole) (a5 : Memref sig .tc .vmem S512x128 .f32) (h5 : a5.IsWhole) (a6 : Memref sig .tc .vmem S2048x128 .f32) (h6 : a6.IsWhole) (a7 : Memref sig .tc .vmem S2048x512 .f32) (h7 : a7.IsWhole) (hc0 : ¬isFirst i) (hc1 : isLast i) (x0 : Vec F S2048x2048 .f32) (x1 : Vec F S2048x512 .f32) (x2 : Vec F S1x512 .f32) (x3 : Vec F S512x128 .f32) (xs : Vec F S2048x512 .f32) :
    outLast c i a2 h2 a3 h3 a4 h4 a5 h5 a6 h6 a7 h7 hc0 hc1 x0 x1 x2 x3 xs = k0_pay3 (k0_pay2 xs x0 x1) x2 x3 := by
  unfold outLast
  rw [View.read_writes_eq_canon _ _ _ (outLast_cover c i a2 h2 a3 h3 a4 h4 a5 h5 a6 h6 a7 h7 hc0 hc1 x0 x1 x2 x3 xs)]
  unfold runLast
  dsimp only
  sl_unfold_words
  rw [View.canon_unit_zero (S := S2048x128) hz, View.readCov_unit_zero (S := S2048x512) _ hz]
  simp only [View.readAt_eq_ld, h7.read_unread, h2.read_unread, h3.read_unread, h4.read_unread, h5.read_unread,
    View.ld_unit_zero (S := S2048x512) hz, View.ld_unit_zero (S := S2048x2048) hz,
    View.ld_unit_zero (S := S1x512) hz, View.ld_unit_zero (S := S512x128) hz]

/-! ### The accumulation along a row block -/

-- the TensorCore's buffer contents when the region is entered
variable (V : (c : Dev nD) → (b : Ref sig .tc) → Buf (Elt F) ((c : Thread nD τ).loc b))

theorem stateAt_congr (c : Dev nD) {n n' : ℕ} (e : n = n') (h : n < cfg0.N) (h' : n' < cfg0.N) :
    stateAt V c n h = stateAt V c n' h' := by subst e; rfl

/-- After a first block the accumulator holds the first step on top of the zero block, whatever it held before. -/
theorem acc_first (c : Dev nD) (t : Fin cfg0.N) (h : t.val % 4 = 0) :
    (stateAt V c t.val t.isLt).2 = k0_pay2 k0_pay1 (iblk V c 0 t) (iblk V c 1 t) := by
  have hF : isFirst (grid0.coords t) := (isFirst_iff t).mpr h
  have hL : ¬isLast (grid0.coords t) := fun hl => by have := (isLast_iff t).mp hl; omega
  rw [stateAt_first V c t hF hL]
  dsimp only
  exact accFirst_eq c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t)

/-- After any other block it holds the step on top of what the point before left. -/
theorem acc_next (c : Dev nD) (t t' : Fin cfg0.N) (hp : t'.val + 1 = t.val) (h : t.val % 4 ≠ 0) :
    (stateAt V c t.val t.isLt).2 = k0_pay2 (stateAt V c t'.val t'.isLt).2 (iblk V c 0 t) (iblk V c 1 t) := by
  have hF : ¬isFirst (grid0.coords t) := fun hf => h ((isFirst_iff t).mp hf)
  have hprev : stateAt V c (t.val - 1) (Nat.lt_of_le_of_lt (Nat.sub_le _ _) t.isLt) = stateAt V c t'.val t'.isLt :=
    stateAt_congr V c (by omega) _ _
  by_cases hL : isLast (grid0.coords t)
  · rw [stateAt_last V c t hF hL, hprev]
    dsimp only
    exact accLast_eq c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) (stateAt V c t'.val t'.isLt).2
  · rw [stateAt_middle V c t hF hL, hprev]
    dsimp only
    exact accMiddle_eq c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) (stateAt V c t'.val t'.isLt).2

/-- After a last block the output block holds the read-out of the accumulator. -/
theorem out_last (c : Dev nD) (t : Fin cfg0.N) (h : t.val % 4 = 3) :
    (stateAt V c t.val t.isLt).1 = k0_pay3 (stateAt V c t.val t.isLt).2 (iblk V c 2 t) (iblk V c 3 t) := by
  have hF : ¬isFirst (grid0.coords t) := fun hf => by have := (isFirst_iff t).mp hf; omega
  have hL : isLast (grid0.coords t) := (isLast_iff t).mpr h
  rw [stateAt_last V c t hF hL]
  dsimp only
  exact (outLast_eq c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) (stateAt V c (t.val - 1) (Nat.lt_of_le_of_lt (Nat.sub_le _ _) t.isLt)).2).trans
    (congrArg (fun z => k0_pay3 z (iblk V c 2 t) (iblk V c 3 t))
      (accLast_eq c (grid0.coords t) (ms_0 t) (hs_0 t) (ms_1 t) (hs_1 t) (ms_2 t) (hs_2 t) (ms_3 t) (hs_3 t) (ms_4 t) (hs_4 t) accM (Memref.isWhole_whole _) hF hL (iblk V c 0 t) (iblk V c 1 t) (iblk V c 2 t) (iblk V c 3 t) (stateAt V c (t.val - 1) (Nat.lt_of_le_of_lt (Nat.sub_le _ _) t.isLt)).2).symm)

/-! ### The blocks, read off the arrays -/

open Idealize.ShloMosaic.ValueIdx

/-- The printed index maps over the grid: point t = 4·i + k reads block (i, k) of the adjacency matrix, row block k of the
    first weight matrix, the whole bias row and second weight matrix, and writes row block i of the result. -/
theorem idx_facts : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N, _)

theorem iblk0_apply (c : Dev nD) (t : Fin cfg0.N) (i b : Fin 4) (ht : t.val = 4 * i.val + b.val) (r s : Fin 2048) :
    (iblk V c 0 t : Vec F S2048x2048 .f32) (ix2 r s) = V c main_v44 (ix2 (Cert.GcnSpec.blk i r) (Cert.GcnSpec.blk b s)) := by
  obtain ⟨e00, e01, e10, e11, e20, e21, e30, e31, e40, e41⟩ := idx_facts t
  unfold iblk
  rw [View.read_apply]
  show V c main_v44 _ = V c main_v44 _
  congr 1
  funext a
  apply Fin.ext
  match a with
  | ⟨0, _⟩ =>
    show win0_0.index t (0 : Fin 2) * 2048 + 1 * r.val = 2048 * i.val + r.val
    rw [e00]; have := b.isLt; omega
  | ⟨1, _⟩ =>
    show win0_0.index t (1 : Fin 2) * 2048 + 1 * s.val = 2048 * b.val + s.val
    rw [e01]; have := b.isLt; omega

theorem iblk1_apply (c : Dev nD) (t : Fin cfg0.N) (i b : Fin 4) (ht : t.val = 4 * i.val + b.val) (s : Fin 2048) (k : Fin 512) :
    (iblk V c 1 t : Vec F S2048x512 .f32) (ix2 s k) = V c main_arg2 (ix2 (Cert.GcnSpec.blk b s) k) := by
  obtain ⟨e00, e01, e10, e11, e20, e21, e30, e31, e40, e41⟩ := idx_facts t
  unfold iblk
  rw [View.read_apply]
  show V c main_arg2 _ = V c main_arg2 _
  congr 1
  funext a
  apply Fin.ext
  match a with
  | ⟨0, _⟩ =>
    show win0_1.index t (0 : Fin 2) * 2048 + 1 * s.val = 2048 * b.val + s.val
    rw [e10]; have := b.isLt; omega
  | ⟨1, _⟩ =>
    show win0_1.index t (1 : Fin 2) * 512 + 1 * k.val = k.val
    rw [e11]; omega

theorem iblk2_apply (c : Dev nD) (t : Fin cfg0.N) (x : Fin 1) (k : Fin 512) :
    (iblk V c 2 t : Vec F S1x512 .f32) (ix2 x k) = V c main_v45 (ix2 x k) := by
  obtain ⟨e00, e01, e10, e11, e20, e21, e30, e31, e40, e41⟩ := idx_facts t
  unfold iblk
  rw [View.read_apply]
  show V c main_v45 _ = V c main_v45 _
  congr 1
  funext a
  apply Fin.ext
  match a with
  | ⟨0, _⟩ =>
    show win0_2.index t (0 : Fin 2) * 1 + 1 * x.val = x.val
    rw [e20]; omega
  | ⟨1, _⟩ =>
    show win0_2.index t (1 : Fin 2) * 512 + 1 * k.val = k.val
    rw [e21]; omega

theorem iblk3_apply (c : Dev nD) (t : Fin cfg0.N) (k : Fin 512) (j : Fin 128) :
    (iblk V c 3 t : Vec F S512x128 .f32) (ix2 k j) = V c main_arg4 (ix2 k j) := by
  obtain ⟨e00, e01, e10, e11, e20, e21, e30, e31, e40, e41⟩ := idx_facts t
  unfold iblk
  rw [View.read_apply]
  show V c main_arg4 _ = V c main_arg4 _
  congr 1
  funext a
  apply Fin.ext
  match a with
  | ⟨0, _⟩ =>
    show win0_3.index t (0 : Fin 2) * 512 + 1 * k.val = k.val
    rw [e30]; omega
  | ⟨1, _⟩ =>
    show win0_3.index t (1 : Fin 2) * 128 + 1 * j.val = j.val
    rw [e31]; omega

/-! ### A row block's four points, and the result array -/

open Cert.GcnSpec (at2 blk blocked4)

/-- Point k of row block i: t = 4·i + k. -/
def pt (i : Fin 4) (k : ℕ) (hk : k < 4) : Fin cfg0.N :=
  ⟨4 * i.val + k, by rw [show cfg0.N = 16 from N_0]; have := i.isLt; omega⟩

abbrev p0 (i : Fin 4) : Fin cfg0.N := pt i 0 (by decide)
abbrev p1 (i : Fin 4) : Fin cfg0.N := pt i 1 (by decide)
abbrev p2 (i : Fin 4) : Fin cfg0.N := pt i 2 (by decide)
abbrev p3 (i : Fin 4) : Fin cfg0.N := pt i 3 (by decide)

theorem p0_val (i : Fin 4) : (p0 i).val = 4 * i.val + 0 := rfl
theorem p1_val (i : Fin 4) : (p1 i).val = 4 * i.val + 1 := rfl
theorem p2_val (i : Fin 4) : (p2 i).val = 4 * i.val + 2 := rfl
theorem p3_val (i : Fin 4) : (p3 i).val = 4 * i.val + 3 := rfl

/-- Four steps on top of the zero block, at row r and column k: the four zero-accumulator products added in order. -/
theorem chain_apply (A0 A1 A2 A3 : Vec Ideal S2048x2048 .f32) (B0 B1 B2 B3 : Vec Ideal S2048x512 .f32)
    (r : Fin 2048) (k : Fin 512) :
    k0_pay2 (k0_pay2 (k0_pay2 (k0_pay2 (k0_pay1 (F := Ideal)) A0 B0) A1 B1) A2 B2) A3 B3 (ix2 r k)
      = ((((0 + (0 + ∑ s : Fin 2048, at2 A0 r s * at2 B0 s k)) + (0 + ∑ s : Fin 2048, at2 A1 r s * at2 B1 s k))
          + (0 + ∑ s : Fin 2048, at2 A2 r s * at2 B2 s k)) + (0 + ∑ s : Fin 2048, at2 A3 r s * at2 B3 s k)) := by
  refine (Cert.KernelIdeal.Payloads.fused_step _ A3 B3 r k).trans (congrArg (· + _) ?_)
  refine (Cert.KernelIdeal.Payloads.fused_step _ A2 B2 r k).trans (congrArg (· + _) ?_)
  refine (Cert.KernelIdeal.Payloads.fused_step _ A1 B1 r k).trans (congrArg (· + _) ?_)
  refine (Cert.KernelIdeal.Payloads.fused_step _ A0 B0 r k).trans (congrArg (· + _) ?_)
  exact Cert.KernelIdeal.Payloads.fused_zero r k

section AtIdeal

variable (W : (c : Dev nD) → (b : Ref sig .tc) → Buf (Elt Ideal) ((c : Thread nD τ).loc b))

/-- After the last point of row block i the accumulator holds the four steps on top of the zero block. -/
theorem acc_row (c : Dev nD) (i : Fin 4) :
    (stateAt W c (p3 i).val (p3 i).isLt).2
      = k0_pay2 (k0_pay2 (k0_pay2 (k0_pay2 (k0_pay1 (F := Ideal)) (iblk W c 0 (p0 i)) (iblk W c 1 (p0 i))) (iblk W c 0 (p1 i)) (iblk W c 1 (p1 i))) (iblk W c 0 (p2 i)) (iblk W c 1 (p2 i))) (iblk W c 0 (p3 i)) (iblk W c 1 (p3 i)) := by
  rw [acc_next W c (p3 i) (p2 i) rfl (by rw [p3_val]; omega),
    acc_next W c (p2 i) (p1 i) rfl (by rw [p2_val]; omega),
    acc_next W c (p1 i) (p0 i) rfl (by rw [p1_val]; omega),
    acc_first W c (p0 i) (by rw [p0_val]; omega)]

/-- One block's step at row r, column k, over the arrays: block b's sources are 2048·b + s. -/
theorem step_apply (c : Dev nD) (i b : Fin 4) (t : Fin cfg0.N) (ht : t.val = 4 * i.val + b.val) (r : Fin 2048) (k : Fin 512) :
    0 + ∑ s : Fin 2048, at2 (a := 2048) (b := 2048) (iblk W c 0 t) r s * at2 (a := 2048) (b := 512) (iblk W c 1 t) s k
      = 0 + ∑ s : Fin 2048, at2 (W c main_v44) (blk i r) (blk b s) * at2 (W c main_arg2) (blk b s) k :=
  congrArg (0 + ·) (Finset.sum_congr rfl fun s _ => by
    exact congrArg₂ (· * ·) (iblk0_apply W c t i b ht r s) (iblk1_apply W c t i b ht s k))

/-- Entry (d, j) of the result: the first layer's aggregation of row d, in four blocks, bias row added, clamped below at
    zero, times the second weight matrix, into a zero accumulator. -/
def result (c : Dev nD) (d : Fin 8192) (j : Fin 128) : EReal :=
  0 + ∑ k : Fin 512, max (blocked4 (fun s => at2 (W c main_v44) d s * at2 (W c main_arg2) s k) + at2 (W c main_v45) 0 k) 0
    * at2 (W c main_arg4) k j

/-- After the last point of row block i, row r of the accumulator is the blocked sum of row 2048·i + r. -/
theorem acc_row_apply (c : Dev nD) (i : Fin 4) (r : Fin 2048) (k : Fin 512) :
    at2 (a := 2048) (b := 512) (stateAt W c (p3 i).val (p3 i).isLt).2 r k
      = blocked4 (fun s => at2 (W c main_v44) (blk i r) s * at2 (W c main_arg2) s k) := by
  show (stateAt W c (p3 i).val (p3 i).isLt).2 (ix2 r k) = _
  rw [acc_row W c i]
  refine (chain_apply (iblk W c 0 (p0 i)) (iblk W c 0 (p1 i)) (iblk W c 0 (p2 i)) (iblk W c 0 (p3 i))
    (iblk W c 1 (p0 i)) (iblk W c 1 (p1 i)) (iblk W c 1 (p2 i)) (iblk W c 1 (p3 i)) r k).trans ?_
  unfold Cert.GcnSpec.blocked4
  exact congrArg₂ (· + ·) (congrArg₂ (· + ·) (congrArg₂ (· + ·) (congrArg (0 + ·)
    (step_apply W c i 0 (p0 i) rfl r k)) (step_apply W c i 1 (p1 i) rfl r k)) (step_apply W c i 2 (p2 i) rfl r k))
    (step_apply W c i 3 (p3 i) rfl r k)

end AtIdeal

section Result

variable (W : (c : Dev nD) → (b : Ref sig .tc) → Buf (Elt Ideal) ((c : Thread nD τ).loc b))

/-- After the last point of row block i the output block's entry (r, j) is entry (2048·i + r, j) of the result. -/
theorem out_row_apply (c : Dev nD) (i : Fin 4) (r : Fin 2048) (j : Fin 128) :
    at2 (a := 2048) (b := 128) (stateAt W c (p3 i).val (p3 i).isLt).1 r j = result W c (blk i r) j := by
  show (stateAt W c (p3 i).val (p3 i).isLt).1 (ix2 r j) = _
  rw [out_last W c (p3 i) (by rw [p3_val]; omega)]
  refine (Cert.KernelIdeal.Payloads.fused_out (stateAt W c (p3 i).val (p3 i).isLt).2 (iblk W c 2 (p3 i)) (iblk W c 3 (p3 i)) r j).trans ?_
  unfold result
  refine congrArg (0 + ·) (Finset.sum_congr rfl fun k _ => ?_)
  refine congrArg₂ (· * ·) (congrArg (max · 0) (congrArg₂ (· + ·) (acc_row_apply W c i r k) (iblk2_apply W c (p3 i) 0 k)))
    (iblk3_apply W c (p3 i) k j)

/-- The result as contents of the whole array. -/
def resultArr (c : Dev nD) : S8192x128.Idx → EReal := fun y => result W c (y 0) (y 1)

/-- What a last point writes back is its row block of the result. -/
theorem flushed_eq (c : Dev nD) (t : Fin cfg0.N) (hf : (cfg0.win 4).flush t = true) :
    (dat W c).flushed 4 t = ((cfg0.win 4).blk t).view.read (Elt Ideal) (resultArr W c) := by
  have h3 : t.val % 4 = 3 := (flush0_4 t).mp hf
  have hN : cfg0.N = 16 := N_0
  have hlt := t.isLt
  obtain ⟨i, rfl⟩ : ∃ i : Fin 4, t = p3 i :=
    ⟨⟨t.val / 4, by omega⟩, Fin.ext (by rw [p3_val]; show t.val = 4 * (t.val / 4) + 3; omega)⟩
  obtain ⟨e00, e01, e10, e11, e20, e21, e30, e31, e40, e41⟩ := idx_facts (p3 i)
  show (cfg0.win 4).cut (grid0.coords (p3 i)) ((dat W c).after 4 (p3 i)) = _
  rw [after_out]
  funext y
  obtain ⟨r, j, rfl⟩ : ∃ (r : Fin 2048) (j : Fin 128), y = ix2 r j := ⟨y 0, y 1, eq_ix2 y⟩
  rw [View.read_apply]
  show (stateAt W c (p3 i).val (p3 i).isLt).1 (ix2 r j) = resultArr W c (((cfg0.win 4).blk (p3 i)).view.emb (ix2 r j))
  have e0 : (((cfg0.win 4).blk (p3 i)).view.emb (ix2 r j)) 0 = blk i r := Fin.ext (by
    show win0_4.index (p3 i) (0 : Fin 2) * 2048 + 1 * r.val = 2048 * i.val + r.val
    rw [e40, p3_val]; have := i.isLt; omega)
  have e1 : (((cfg0.win 4).blk (p3 i)).view.emb (ix2 r j)) 1 = j := Fin.ext (by
    show win0_4.index (p3 i) (1 : Fin 2) * 128 + 1 * j.val = j.val
    rw [e41]; omega)
  exact (out_row_apply W c i r j).trans (congrArg₂ (result W c) e0.symm e1.symm)

/-- Every row lies in the row block of one last point. -/
theorem cover (i : S8192x128.Idx) : ∃ t : Fin cfg0.N, (cfg0.win 4).flush t = true ∧ i ∈ ((cfg0.win 4).blk t).view.set := by
  have h0 : (i 0).val < 8192 := (i 0).isLt
  have h1 : (i 1).val < 128 := (i 1).isLt
  let q : Fin 4 := ⟨(i 0).val / 2048, by omega⟩
  obtain ⟨e00, e01, e10, e11, e20, e21, e30, e31, e40, e41⟩ := idx_facts (p3 q)
  refine ⟨p3 q, (flush0_4 _).mpr (by rw [p3_val]; omega), ?_⟩
  show i ∈ ((View.whole main_v47).slice (win0_4.rect (p3 q))).set
  rw [View.set_slice_whole, Rect.mem_set_unit]
  intro a
  match a with
  | ⟨0, _⟩ =>
    show win0_4.index (p3 q) (0 : Fin 2) * 2048 ≤ (i 0).val ∧ (i 0).val < win0_4.index (p3 q) (0 : Fin 2) * 2048 + 2048
    rw [e40, p3_val]
    show (4 * ((i 0).val / 2048) + 3) / 4 * 2048 ≤ (i 0).val ∧ (i 0).val < (4 * ((i 0).val / 2048) + 3) / 4 * 2048 + 2048
    omega
  | ⟨1, _⟩ =>
    show win0_4.index (p3 q) (1 : Fin 2) * 128 ≤ (i 1).val ∧ (i 1).val < win0_4.index (p3 q) (1 : Fin 2) * 128 + 128
    rw [e41]; omega

/-- The result array after the run. -/
theorem final (c : Dev nD) : (dat W c).arrAt 4 cfg0.N = resultArr W c :=
  (dat W c).arrAt_eq_of_cover 4 (resultArr W c) (flushed_eq W c) cover

end Result

/-- The first layer's result array, entry by entry. -/
theorem fused_value (V : (c : Dev nD) → (b : Ref sig .tc) → Buf (Elt Ideal) ((c : Thread nD τ).loc b)) (c : Dev nD) (d : Fin 8192) (j : Fin 128) :
    Cert.GcnSpec.at2 ((Cert.KernelIdeal.Fused.dat (F := Ideal) V c).arrAt 4 cfg0.N) d j
      = 0 + ∑ k : Fin 512, max (Cert.GcnSpec.blocked4 (fun s => Cert.GcnSpec.at2 (V c main_v44) d s * Cert.GcnSpec.at2 (V c main_arg2) s k) + Cert.GcnSpec.at2 (V c main_v45) 0 k) 0 * Cert.GcnSpec.at2 (V c main_arg4) k j := by
  rw [final V c]
  rfl

end Cert.KernelIdeal.FusedValue

end
-- ==== Proof.GcnEdges.lean ====
/-
  How the programs' 32-bit integer arrays name the nodes and edges of the graph of module GcnSpec.

  An index word is read as a signed integer. A gather clamps it into [0, 8191] (`nodeOf`), after numpy's wrap of a
  negative index by +8192 (`wrapNeg`). The edge list has 262144 rows (source, destination) followed by the 8192 self loops
  (e, e). When every given endpoint lies in [0, 8192) (`InRange`) the wrap does nothing, the clamp does nothing, and a
  scatter, which drops an index outside the array, drops nothing: all index conventions then name the same node.
-/
import proofs.«157338_j2456721293623_2_alg».proof.Proof.GcnSpec
import Idealize.ShloMosaic.Lib.ValueIdx

noncomputable section

namespace Cert.GcnSpec

open Idealize.ShloMosaic Idealize.ShloMosaic.ValueIdx

/-- The shapes of the edge array and of the queried rows. -/
abbrev EdgeShape : Shape := ⟨2, ![262144, 2]⟩
abbrev QueryShape : Shape := ⟨1, ![2048]⟩

/-- A signed word as a node, clamped into the graph. -/
def nodeOf (x : BitVec 32) : Fin 8192 := ⟨min x.toInt.toNat 8191, by omega⟩

/-- numpy's wrap of a negative index. -/
def wrapNeg (x : BitVec 32) : BitVec 32 := if x.toInt < 0 then x + 8192#32 else x

/-- Endpoint `col` (0 = source, 1 = destination) of edge `e`: the given rows first, then the self loops. -/
def endpoint (ei : EdgeShape.Idx → BitVec 32) (col : Fin 2) (e : Fin 270336) : BitVec 32 :=
  if h : e.val < 262144 then ei (ix2 ⟨e.val, h⟩ col) else BitVec.ofNat 32 (e.val - 262144)

def srcNode (ei : EdgeShape.Idx → BitVec 32) (e : Fin 270336) : Fin 8192 := nodeOf (endpoint ei 0 e)
def dstNode (ei : EdgeShape.Idx → BitVec 32) (e : Fin 270336) : Fin 8192 := nodeOf (endpoint ei 1 e)

/-- The node queried at output row `r`. -/
def query (reg : QueryShape.Idx → BitVec 32) (r : Fin 2048) : Fin 8192 := nodeOf (wrapNeg (reg (ix1 r)))

/-- Every given endpoint is a node of the graph. -/
def InRange (ei : EdgeShape.Idx → BitVec 32) : Prop := ∀ i, 0 ≤ (ei i).toInt ∧ (ei i).toInt < 8192

end Cert.GcnSpec

end
-- ==== Proof.KI.HostValues.lean ====
/-
  What the TensorCore's buffers hold when the two kernels start, read entry by entry.

  Before the first kernel the host builds, from the edge list, the node degrees (a scatter-add of ones), their inverse square
  roots, one weight per edge (the product of the two endpoints' inverse square roots), and the dense weighted adjacency matrix
  (a scatter-add of the edge weights at (destination, source)); it also views the two bias vectors as one-row matrices. Between the
  kernels it gathers the queried rows of the adjacency matrix. This module states each of these arrays at an index, in the
  vocabulary of module GcnSpec, and records which arrays no host operation touches.
-/
import proofs.«157338_j2456721293623_2_alg».proof.Proof.Gen.KernelIdeal.Regions
import proofs.«157338_j2456721293623_2_alg».proof.Proof.GcnEdges
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 16384

noncomputable section

namespace Cert.KernelIdeal.HostSide

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (c : Dev nD)

/-! ## Arrays no host operation rewrites, and the two reshaped bias rows -/

/-- The first weight matrix reaches the first kernel as launched. -/
theorem W1_kept : V3 (F := Ideal) m c main_arg2 = m ((c.tc : Thread nD τ).loc main_arg2) :=
  (V3_of m c main_arg2 (by decide)).trans <| (V2_of m c main_arg2 (by decide)).trans <| (V1_of m c main_arg2 (by decide)).trans rfl

/-- The second weight matrix reaches the kernels as launched. -/
theorem W2_kept : V3 (F := Ideal) m c main_arg4 = m ((c.tc : Thread nD τ).loc main_arg4) :=
  (V3_of m c main_arg4 (by decide)).trans <| (V2_of m c main_arg4 (by decide)).trans <| (V1_of m c main_arg4 (by decide)).trans rfl

theorem b1row_eq : (V3 (F := Ideal) m c main_v45 : S1x512.Idx → EReal)
    = shapeCast S1x512 (m ((c.tc : Thread nD τ).loc main_arg3) : S512.Idx → EReal) shapeCasts_S512_S1x512 := by
  dsimp only [V3, V2, V1, V0, hostOps0_2, hostOps0_1, hostOps0]
  after_results_simp
  rfl

/-- The first bias as a one-row matrix. -/
theorem b1row_value (k : Fin 512) :
    (V3 (F := Ideal) m c main_v45 : S1x512.Idx → EReal) (ix2 0 k) = (m ((c.tc : Thread nD τ).loc main_arg3) : S512.Idx → EReal) (ix1 k) := by
  rw [b1row_eq]; exact shapeCast_a_1a_apply _ _ 0 k

theorem b2row_eq : (V3 (F := Ideal) m c main_v46 : S1x128.Idx → EReal)
    = shapeCast S1x128 (m ((c.tc : Thread nD τ).loc main_arg5) : S128.Idx → EReal) shapeCasts_S128_S1x128 := by
  dsimp only [V3, V2, V1, V0, hostOps0_2, hostOps0_1, hostOps0]
  after_results_simp
  rfl

/-- The second bias as a one-row matrix. -/
theorem b2row_value (j : Fin 128) :
    (V3 (F := Ideal) m c main_v46 : S1x128.Idx → EReal) (ix2 0 j) = (m ((c.tc : Thread nD τ).loc main_arg5) : S128.Idx → EReal) (ix1 j) := by
  rw [b2row_eq]; exact shapeCast_a_1a_apply _ _ 0 j

/-- After the second stretch of host operations the first kernel's output is still what that kernel left, and the second bias row
    is untouched. -/
theorem V5_kept (outs : Outs (F := Ideal)) :
    V5 (F := Ideal) m outs c main_v47 = outs 4 main_v47 c ∧ V5 (F := Ideal) m outs c main_v46 = V3 (F := Ideal) m c main_v46 :=
  ⟨(V5_of m outs c main_v47 (by decide)).trans (by simp only [V4, Function.update_self]),
   (V5_of m outs c main_v46 (by decide)).trans (V4_of m outs c main_v46 (by decide))⟩

/-! ## The index operations of this program, opened once

Each gather reads its operand at the start index, taken as a signed integer and clamped into the operand; each scatter-add
lands an update at its index vector when that lies inside the operand. -/

section Opened
variable {α : Type}

/-- The gather of one entry of a length-8192 vector per edge, read at edge `e`. -/
theorem gather_node_apply (x : S8192.Idx → α) (idx : IVec S270336x1 32) (e : Fin 270336) :
    Host.gather gather_S8192_S270336x1_S270336_n_0_n_n_0_1_1 x idx (ix1 e)
      = x (ix1 ⟨min (idx (ix2 e 0)).toInt.toNat 8191, by omega⟩) := by
  unfold Host.gather
  congr 1
  funext a
  obtain rfl : a = 0 := Subsingleton.elim _ _
  refine Fin.ext ?_
  show gather_S8192_S270336x1_S270336_n_0_n_n_0_1_1.start (ix1 e) idx 0
      + gather_S8192_S270336x1_S270336_n_0_n_n_0_1_1.batchCoord (ix1 e) 0
      + gather_S8192_S270336x1_S270336_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8192_S270336x1_S270336_n_0_n_n_0_1_1.startIndexMap from List.mem_singleton.mpr rfl)]
  have hsi : gather_S8192_S270336x1_S270336_n_0_n_n_0_1_1.siIdx (ix1 e)
      ⟨List.idxOf (0 : Fin 1) gather_S8192_S270336x1_S270336_n_0_n_n_0_1_1.startIndexMap,
        List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The gather of whole rows of the 8192 × 8192 matrix, read at (row `r`, column `s`). -/
theorem gather_row_apply (x : S8192x8192.Idx → α) (idx : IVec S2048x1 32) (r : Fin 2048) (s : Fin 8192) :
    Host.gather gather_S8192x8192_S2048x1_S2048x8192_1_0_n_n_0_1_18192 x idx (ix2 r s)
      = x (ix2 ⟨min (idx (ix2 r 0)).toInt.toNat 8191, by omega⟩ s) := by
  unfold Host.gather
  congr 1
  funext a
  refine Fin.ext ?_
  match a with
  | ⟨0, _⟩ =>
    show gather_S8192x8192_S2048x1_S2048x8192_1_0_n_n_0_1_18192.start (ix2 r s) idx 0
        + gather_S8192x8192_S2048x1_S2048x8192_1_0_n_n_0_1_18192.batchCoord (ix2 r s) 0
        + gather_S8192x8192_S2048x1_S2048x8192_1_0_n_n_0_1_18192.offCoord (ix2 r s) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x8192_S2048x1_S2048x8192_1_0_n_n_0_1_18192.startIndexMap from List.mem_singleton.mpr rfl)]
    have hsi : gather_S8192x8192_S2048x1_S2048x8192_1_0_n_n_0_1_18192.siIdx (ix2 r s)
        ⟨List.idxOf (0 : Fin 2) gather_S8192x8192_S2048x1_S2048x8192_1_0_n_n_0_1_18192.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show gather_S8192x8192_S2048x1_S2048x8192_1_0_n_n_0_1_18192.start (ix2 r s) idx 1
        + gather_S8192x8192_S2048x1_S2048x8192_1_0_n_n_0_1_18192.batchCoord (ix2 r s) 1
        + gather_S8192x8192_S2048x1_S2048x8192_1_0_n_n_0_1_18192.offCoord (ix2 r s) 1 = s.val
    have h1 : (1 : Fin 2) ∈ gather_S8192x8192_S2048x1_S2048x8192_1_0_n_n_0_1_18192.sKept :=
      (GatherDims.mem_sKept _ _).mpr ⟨by show (1 : Fin 2) ∉ [0]; decide, List.not_mem_nil⟩
    rw [GatherDims.batchCoord_eq_zero _ _ _ List.not_mem_nil]
    unfold GatherDims.start GatherDims.offCoord
    rw [dif_neg (show (1 : Fin 2) ∉ gather_S8192x8192_S2048x1_S2048x8192_1_0_n_n_0_1_18192.startIndexMap by
      show (1 : Fin 2) ∉ [0]; decide), dif_pos h1]
    simp only [Nat.zero_add, Nat.add_zero]
    rfl

/-- Where the degree scatter lands edge `e`'s update: at the edge's index word, when that is a node. -/
theorem scatter_node_iff (idx : IVec S270336x1 32) (e : Fin 270336) (d : Fin 8192)
    (h0 : 0 ≤ (idx (ix2 e 0)).toInt) (h1 : (idx (ix2 e 0)).toInt < 8192) :
    scatter_S8192_S270336x1_S270336_n_0_0_1.resultIdx? (ix1 e) idx = some (ix1 d) ↔ (idx (ix2 e 0)).toInt.toNat = d.val := by
  have hst : ∀ a, scatter_S8192_S270336x1_S270336_n_0_0_1.start (ix1 e) idx a
      + (scatter_S8192_S270336x1_S270336_n_0_0_1.window (ix1 e) a : Int) = (idx (ix2 e 0)).toInt := by
    intro a
    obtain rfl : a = 0 := Subsingleton.elim _ _
    have hw : scatter_S8192_S270336x1_S270336_n_0_0_1.window (ix1 e) 0 = 0 := by
      unfold ScatterDims.window
      rw [dif_neg (show (0 : Fin 1) ∉ scatter_S8192_S270336x1_S270336_n_0_0_1.sKept by
        show (0 : Fin 1) ∉ S8192.kept [0]; decide)]
    have hs : scatter_S8192_S270336x1_S270336_n_0_0_1.start (ix1 e) idx 0 = (idx (ix2 e 0)).toInt := by
      unfold ScatterDims.start
      rw [dif_pos (show (0 : Fin 1) ∈ scatter_S8192_S270336x1_S270336_n_0_0_1.scatterDimsToOperandDims from List.mem_singleton.mpr rfl)]
      have hsi : scatter_S8192_S270336x1_S270336_n_0_0_1.siIdx (ix1 e)
          ⟨List.idxOf (0 : Fin 1) scatter_S8192_S270336x1_S270336_n_0_0_1.scatterDimsToOperandDims,
            List.idxOf_lt_length_iff.2 (List.mem_singleton.mpr rfl)⟩ = ix2 e 0 := by
        funext b; refine Fin.ext ?_
        match b with
        | ⟨0, _⟩ => rfl
        | ⟨1, _⟩ => rfl
      rw [hsi]
    rw [hw, hs]; simp
  unfold ScatterDims.resultIdx?
  rw [dif_pos (fun a => by
    obtain rfl : a = 0 := Subsingleton.elim _ _
    rw [hst 0]; exact ⟨h0, h1⟩), Option.some_inj]
  constructor
  · intro h
    have := congrArg Fin.val (congrFun h 0)
    simp only [hst] at this
    exact this
  · intro h
    funext a
    obtain rfl : a = 0 := Subsingleton.elim _ _
    refine Fin.ext ?_
    show (scatter_S8192_S270336x1_S270336_n_0_0_1.start (ix1 e) idx 0
      + (scatter_S8192_S270336x1_S270336_n_0_0_1.window (ix1 e) 0 : Int)).toNat = d.val
    rw [hst]; exact h

/-- Where the adjacency scatter lands edge `e`'s update: at (row word, column word), when both are nodes. -/
theorem scatter_pair_iff (idx : IVec S270336x2 32) (e : Fin 270336) (d s : Fin 8192)
    (h0 : 0 ≤ (idx (ix2 e 0)).toInt) (h1 : (idx (ix2 e 0)).toInt < 8192)
    (k0 : 0 ≤ (idx (ix2 e 1)).toInt) (k1 : (idx (ix2 e 1)).toInt < 8192) :
    scatter_S8192x8192_S270336x2_S270336_n_01_01_1.resultIdx? (ix1 e) idx = some (ix2 d s)
      ↔ (idx (ix2 e 0)).toInt.toNat = d.val ∧ (idx (ix2 e 1)).toInt.toNat = s.val := by
  have hw : ∀ a, scatter_S8192x8192_S270336x2_S270336_n_01_01_1.window (ix1 e) a = 0 := by
    intro a
    unfold ScatterDims.window
    rw [dif_neg (show a ∉ scatter_S8192x8192_S270336x2_S270336_n_01_01_1.sKept by
      show a ∉ S8192x8192.kept [0, 1]
      match a with
      | ⟨0, _⟩ => (show (0 : Fin 2) ∉ S8192x8192.kept [0, 1]; decide)
      | ⟨1, _⟩ => (show (1 : Fin 2) ∉ S8192x8192.kept [0, 1]; decide))]
  have hs0 : scatter_S8192x8192_S270336x2_S270336_n_01_01_1.start (ix1 e) idx 0 = (idx (ix2 e 0)).toInt := by
    unfold ScatterDims.start
    rw [dif_pos (show (0 : Fin 2) ∈ scatter_S8192x8192_S270336x2_S270336_n_01_01_1.scatterDimsToOperandDims by
      show (0 : Fin 2) ∈ [0, 1]; decide)]
    have hsi : scatter_S8192x8192_S270336x2_S270336_n_01_01_1.siIdx (ix1 e)
        ⟨List.idxOf (0 : Fin 2) scatter_S8192x8192_S270336x2_S270336_n_01_01_1.scatterDimsToOperandDims,
          List.idxOf_lt_length_iff.2 (by show (0 : Fin 2) ∈ [0, 1]; decide)⟩ = ix2 e 0 := by
      funext b; refine Fin.ext ?_
      match b with
      | ⟨0, _⟩ => rfl
      | ⟨1, _⟩ => rfl
    rw [hsi]
  have hs1 : scatter_S8192x8192_S270336x2_S270336_n_01_01_1.start (ix1 e) idx 1 = (idx (ix2 e 1)).toInt := by
    unfold ScatterDims.start
    rw [dif_pos (show (1 : Fin 2) ∈ scatter_S8192x8192_S270336x2_S270336_n_01_01_1.scatterDimsToOperandDims by
      show (1 : Fin 2) ∈ [0, 1]; decide)]
    have hsi : scatter_S8192x8192_S270336x2_S270336_n_01_01_1.siIdx (ix1 e)
        ⟨List.idxOf (1 : Fin 2) scatter_S8192x8192_S270336x2_S270336_n_01_01_1.scatterDimsToOperandDims,
          List.idxOf_lt_length_iff.2 (by show (1 : Fin 2) ∈ [0, 1]; decide)⟩ = ix2 e 1 := by
      funext b; refine Fin.ext ?_
      match b with
      | ⟨0, _⟩ => rfl
      | ⟨1, _⟩ => rfl
    rw [hsi]
  have hst0 : scatter_S8192x8192_S270336x2_S270336_n_01_01_1.start (ix1 e) idx 0
      + (scatter_S8192x8192_S270336x2_S270336_n_01_01_1.window (ix1 e) 0 : Int) = (idx (ix2 e 0)).toInt := by
    rw [hw, hs0]; simp
  have hst1 : scatter_S8192x8192_S270336x2_S270336_n_01_01_1.start (ix1 e) idx 1
      + (scatter_S8192x8192_S270336x2_S270336_n_01_01_1.window (ix1 e) 1 : Int) = (idx (ix2 e 1)).toInt := by
    rw [hw, hs1]; simp
  unfold ScatterDims.resultIdx?
  rw [dif_pos (fun a => by
    match a with
    | ⟨0, _⟩ =>
      show 0 ≤ scatter_S8192x8192_S270336x2_S270336_n_01_01_1.start (ix1 e) idx 0
          + (scatter_S8192x8192_S270336x2_S270336_n_01_01_1.window (ix1 e) 0 : Int)
        ∧ scatter_S8192x8192_S270336x2_S270336_n_01_01_1.start (ix1 e) idx 0
          + (scatter_S8192x8192_S270336x2_S270336_n_01_01_1.window (ix1 e) 0 : Int) < ((8192 : Nat) : Int)
      rw [hst0]; exact ⟨h0, h1⟩
    | ⟨1, _⟩ =>
      show 0 ≤ scatter_S8192x8192_S270336x2_S270336_n_01_01_1.start (ix1 e) idx 1
          + (scatter_S8192x8192_S270336x2_S270336_n_01_01_1.window (ix1 e) 1 : Int)
        ∧ scatter_S8192x8192_S270336x2_S270336_n_01_01_1.start (ix1 e) idx 1
          + (scatter_S8192x8192_S270336x2_S270336_n_01_01_1.window (ix1 e) 1 : Int) < ((8192 : Nat) : Int)
      rw [hst1]; exact ⟨k0, k1⟩), Option.some_inj]
  constructor
  · intro h
    have e0 := congrArg Fin.val (congrFun h 0)
    have e1 := congrArg Fin.val (congrFun h 1)
    simp only [hst0] at e0
    simp only [hst1] at e1
    exact ⟨e0, e1⟩
  · rintro ⟨e0, e1⟩
    funext a
    refine Fin.ext ?_
    match a with
    | ⟨0, _⟩ =>
      show (scatter_S8192x8192_S270336x2_S270336_n_01_01_1.start (ix1 e) idx 0
        + (scatter_S8192x8192_S270336x2_S270336_n_01_01_1.window (ix1 e) 0 : Int)).toNat = d.val
      rw [hst0]; exact e0
    | ⟨1, _⟩ =>
      show (scatter_S8192x8192_S270336x2_S270336_n_01_01_1.start (ix1 e) idx 1
        + (scatter_S8192x8192_S270336x2_S270336_n_01_01_1.window (ix1 e) 1 : Int)).toNat = s.val
      rw [hst1]; exact e1

end Opened

/-! ## Words: numpy's wrap of a negative index, and nodes in range -/

section Words
open Cert.GcnSpec

/-- The program's `select (x < 0) (x + 8192) x` is the wrap of a negative index. -/
theorem wrapSel (x : BitVec 32) : Scalar.select (IntOp.cmpi .slt x 0#32) (IntOp.addi x 8192#32) x = wrapNeg x := by
  unfold wrapNeg Scalar.select IntOp.cmpi IntOp.addi
  by_cases h : x.toInt < 0
  · simp [BitVec.slt, h]
  · simp [BitVec.slt, h]

theorem wrapNeg_of_nonneg {x : BitVec 32} (h : 0 ≤ x.toInt) : wrapNeg x = x := by
  unfold wrapNeg; rw [if_neg (by omega)]

theorem nodeOf_val {x : BitVec 32} (h0 : 0 ≤ x.toInt) (h1 : x.toInt < 8192) : (nodeOf x).val = x.toInt.toNat := by
  show min x.toInt.toNat 8191 = _; omega

theorem toInt_ofNat_small {k : ℕ} (hk : k < 8192) : (BitVec.ofNat 32 k).toInt = (k : Int) := by
  rw [BitVec.toInt_eq_toNat_of_lt (by rw [BitVec.toNat_ofNat]; omega), BitVec.toNat_ofNat]
  congr 1; omega

/-- Under the precondition every endpoint word, given or self loop, is a node. -/
theorem endpoint_range {ei : EdgeShape.Idx → BitVec 32} (hin : InRange ei) (col : Fin 2) (e : Fin 270336) :
    0 ≤ (endpoint ei col e).toInt ∧ (endpoint ei col e).toInt < 8192 := by
  unfold endpoint
  split
  · exact hin _
  · next h =>
    have hk : e.val - 262144 < 8192 := by have := e.isLt; omega
    rw [toInt_ofNat_small hk]; omega

end Words

/-- A vector viewed as one column, read at row `e`. -/
theorem col_apply {n : ℕ} {α : Type} (hn : n ≠ 1) (h : (⟨1, ![n]⟩ : Shape).BroadcastsInDim ⟨2, ![n, 1]⟩ ![0])
    (w : (⟨1, ![n]⟩ : Shape).Idx → α) (e : Fin n) (u : Fin 1) :
    broadcastInDim ⟨2, ![n, 1]⟩ ![0] h w (ix2 e u) = w (ix1 e) :=
  broadcastInDim_apply _ h w _ (ix1 e) (fun a => by
    match a with
    | ⟨0, _⟩ => show e.val = if n = 1 then 0 else e.val; rw [if_neg hn])

/-! ## The queried rows -/

theorem rows_eq (outs : Outs (F := Ideal)) :
    (V5 (F := Ideal) m outs c main_v54 : S2048x8192.Idx → EReal)
      = Host.gather gather_S8192x8192_S2048x1_S2048x8192_1_0_n_n_0_1_18192 (V3 (F := Ideal) m c main_v44 : S8192x8192.Idx → EReal)
          (broadcastInDim S2048x1 ![0] bcast_S2048_S2048x1_0
            (select (cmpi .slt (m ((c.tc : Thread nD τ).loc main_arg0) : S2048.Idx → BitVec 32) (broadcastInDim S2048 ![] bcast_S_S2048 (constantI S_ 32 0#32)))
              (addi (m ((c.tc : Thread nD τ).loc main_arg0) : S2048.Idx → BitVec 32) (broadcastInDim S2048 ![] bcast_S_S2048 (constantI S_ 32 8192#32)))
              (m ((c.tc : Thread nD τ).loc main_arg0) : S2048.Idx → BitVec 32))) := by
  have ha : V4 (F := Ideal) m outs c main_arg0 = m ((c.tc : Thread nD τ).loc main_arg0) :=
    (V4_of m outs c main_arg0 (by decide)).trans <| (V3_of m c main_arg0 (by decide)).trans <|
      (V2_of m c main_arg0 (by decide)).trans <| (V1_of m c main_arg0 (by decide)).trans rfl
  have hv : V4 (F := Ideal) m outs c main_v44 = V3 (F := Ideal) m c main_v44 := V4_of m outs c main_v44 (by decide)
  rw [← ha, ← hv]
  dsimp only [V5, hostOps1]
  after_results_simp

/-- Row `r` of the gathered matrix is the adjacency matrix's row at the queried node. -/
theorem rows_value (outs : Outs (F := Ideal)) (r : Fin 2048) (s : Fin 8192) :
    (V5 (F := Ideal) m outs c main_v54 : S2048x8192.Idx → EReal) (ix2 r s)
      = (V3 (F := Ideal) m c main_v44 : S8192x8192.Idx → EReal)
          (ix2 (Cert.GcnSpec.query (m ((c.tc : Thread nD τ).loc main_arg0)) r) s) := by
  rw [rows_eq, gather_row_apply]
  refine congrArg (fun q : Fin 8192 => (V3 (F := Ideal) m c main_v44 : S8192x8192.Idx → EReal) (ix2 q s)) (Fin.ext ?_)
  show min _ 8191 = min _ 8191
  rw [col_apply (by decide) _ _ r 0]
  show min (Scalar.select (IntOp.cmpi .slt ((m ((c.tc : Thread nD τ).loc main_arg0) : S2048.Idx → BitVec 32) (ix1 r)) 0#32)
      (IntOp.addi ((m ((c.tc : Thread nD τ).loc main_arg0) : S2048.Idx → BitVec 32) (ix1 r)) 8192#32)
      ((m ((c.tc : Thread nD τ).loc main_arg0) : S2048.Idx → BitVec 32) (ix1 r))).toInt.toNat 8191 = _
  rw [wrapSel]

/-! ## The host's arrays before the first kernel, as terms of the edge array -/

section Stages

/-- Two arrays joined along one axis, as a function of the two arrays. -/
def cat2 {α : Type} (t : Shape) (ax : Fin t.rank) {s₁ s₂ : Shape} (h : Shape.Concatenates [s₁, s₂] t ax)
    (u : s₁.Idx → α) (v : s₂.Idx → α) : t.Idx → α := concatenate t ax [⟨s₁, u⟩, ⟨s₂, v⟩] h

theorem cat2_intro {α : Type} (t : Shape) (ax : Fin t.rank) {s₁ s₂ : Shape} (h : Shape.Concatenates [s₁, s₂] t ax)
    (u : s₁.Idx → α) (v : s₂.Idx → α) : concatenate t ax [⟨s₁, u⟩, ⟨s₂, v⟩] h = cat2 t ax h u v := rfl

/-- Column `col` of the edge array followed by the self loops' 0 … 8191: the edges' source words (`col` = 0) or destination
    words (`col` = 1). -/
def endW (ei : S262144x2.Idx → BitVec 32) (off : Fin 2 → ℕ) (hs : S262144x2.Slices off S262144x1) : IVec S270336 32 :=
  cat2 S270336 0 concatenates_S262144_S8192_S270336_d0
    (shapeCast _ (extractStridedSlice S262144x1 off ei hs) shapeCasts_S262144x1_S262144) (iotaInDim S8192 32 0)

def srcW (ei : S262144x2.Idx → BitVec 32) : IVec S270336 32 := endW ei ![0, 0] slices_S262144x2_S262144x1_0_0
def dstW (ei : S262144x2.Idx → BitVec 32) : IVec S270336 32 := endW ei ![0, 1] slices_S262144x2_S262144x1_0_1

/-- numpy's wrap of negative indices, on a vector of index words. -/
def wrapW (w : IVec S270336 32) : IVec S270336 32 :=
  select (cmpi .slt w (broadcastInDim S270336 ![] bcast_S_S270336 (constantI S_ 32 0#32)))
    (addi w (broadcastInDim S270336 ![] bcast_S_S270336 (constantI S_ 32 8192#32))) w

/-- A vector of index words as one column of index vectors. -/
def colW (w : IVec S270336 32) : IVec S270336x1 32 := broadcastInDim S270336x1 ![0] bcast_S270336_S270336x1_0 w

def zerosN : FVec Ideal S8192 .f32 := broadcastInDim S8192 ![] bcast_S_S8192 (constant (F := Ideal) S_ .f32 0x00000000#32)

/-- The node degrees: ones scattered at the destination words. -/
def degV (ei : S262144x2.Idx → BitVec 32) : FVec Ideal S8192 .f32 :=
  Host.scatterAdd (F := Ideal) scatter_S8192_S270336x1_S270336_n_0_0_1 zerosN (colW (dstW ei))
    (broadcastInDim S270336 ![] bcast_S_S270336 (constant (F := Ideal) S_ .f32 0x3F800000#32))

/-- Their inverse square roots, zero at a node of degree zero. -/
def disV (ei : S262144x2.Idx → BitVec 32) : FVec Ideal S8192 .f32 :=
  select (cmpf .ogt (degV ei) zerosN) (Host.rsqrt (degV ei))
    (broadcastInDim S8192 ![] bcast_S_S8192 (id (constant (F := Ideal) S_ .f32 0x00000000#32)))

/-- The edge weights. -/
def nrmV (ei : S262144x2.Idx → BitVec 32) : FVec Ideal S270336 .f32 :=
  mulf (Host.gather gather_S8192_S270336x1_S270336_n_0_n_n_0_1_1 (disV ei) (colW (wrapW (srcW ei))))
    (Host.gather gather_S8192_S270336x1_S270336_n_0_n_n_0_1_1 (disV ei) (colW (wrapW (dstW ei))))

/-- The (destination, source) index pairs. -/
def pairW (ei : S262144x2.Idx → BitVec 32) : IVec S270336x2 32 :=
  cat2 S270336x2 1 concatenates_S270336x1_S270336x1_S270336x2_d1 (colW (wrapW (dstW ei))) (colW (wrapW (srcW ei)))

/-- The dense weighted adjacency matrix. -/
def adjV (ei : S262144x2.Idx → BitVec 32) : FVec Ideal S8192x8192 .f32 :=
  Host.scatterAdd (F := Ideal) scatter_S8192x8192_S270336x2_S270336_n_01_01_1
    (broadcastInDim S8192x8192 ![] bcast_S_S8192x8192 (constant (F := Ideal) S_ .f32 0x00000000#32)) (pairW ei) (nrmV ei)

/-! ### The three stretches of host operations, one at a time -/

section Read

theorem src_eq : (V1 (F := Ideal) m c main_v5 : S270336.Idx → BitVec 32) = srcW (m ((c.tc : Thread nD τ).loc main_arg1)) := by
  dsimp only [V1, V0, hostOps0]
  simp (disch := decide) only [after_cons, after_nil, cat2_intro,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

theorem dst_eq : (V1 (F := Ideal) m c main_v6 : S270336.Idx → BitVec 32) = dstW (m ((c.tc : Thread nD τ).loc main_arg1)) := by
  dsimp only [V1, V0, hostOps0]
  simp (disch := decide) only [after_cons, after_nil, cat2_intro,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

theorem pos_eq : (V1 (F := Ideal) m c main_v12 : S8192.Idx → BitVec 1)
    = cmpf .ogt (degV (m ((c.tc : Thread nD τ).loc main_arg1))) zerosN := by
  dsimp only [V1, V0, hostOps0]
  simp (disch := decide) only [after_cons, after_nil, cat2_intro,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

theorem rsq_eq : (V1 (F := Ideal) m c main_v13 : S8192.Idx → EReal)
    = Host.rsqrt (degV (m ((c.tc : Thread nD τ).loc main_arg1))) := by
  dsimp only [V1, V0, hostOps0]
  simp (disch := decide) only [after_cons, after_nil, cat2_intro,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

theorem zero_eq : (V1 (F := Ideal) m c main_cst_2 : S_.Idx → EReal) = constant (F := Ideal) S_ .f32 0x00000000#32 := by
  dsimp only [V1, V0, hostOps0]
  simp (disch := decide) only [after_cons, after_nil, cat2_intro,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']

/-- The selection `where(deg > 0, rsqrt deg, 0)`, over whatever the buffers held before it. -/
theorem where_after (W : Valuation τ sig (Elt Ideal)) (A : S8192.Idx → BitVec 1) (B : S8192.Idx → EReal) (C : S_.Idx → EReal)
    (hA : (W main_v12 : S8192.Idx → BitVec 1) = A) (hB : (W main_v13 : S8192.Idx → EReal) = B) (hC : (W main_cst_2 : S_.Idx → EReal) = C) :
    (StableHlo.after hostOps0_1 W main_v14 : S8192.Idx → EReal) = select A B (broadcastInDim S8192 ![] bcast_S_S8192 (id C)) := by
  dsimp only [hostOps0_1]
  simp (disch := decide) only [after_cons, after_nil, cat2_intro,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [hA, hB, hC]
  rfl

theorem dis_eq : (V2 (F := Ideal) m c main_v14 : S8192.Idx → EReal) = disV (m ((c.tc : Thread nD τ).loc main_arg1)) :=
  where_after (V1 (F := Ideal) m c) _ _ _ (pos_eq m c) (rsq_eq m c) (zero_eq m c)

/-- The adjacency scatter, over whatever the buffers held before the third stretch. -/
theorem adj_after (W : Valuation τ sig (Elt Ideal)) (S D : S270336.Idx → BitVec 32) (X : S8192.Idx → EReal)
    (hS : (W main_v5 : S270336.Idx → BitVec 32) = S) (hD : (W main_v6 : S270336.Idx → BitVec 32) = D) (hX : (W main_v14 : S8192.Idx → EReal) = X) :
    (StableHlo.after hostOps0_2 W main_v44 : S8192x8192.Idx → EReal)
      = Host.scatterAdd (F := Ideal) scatter_S8192x8192_S270336x2_S270336_n_01_01_1
          (broadcastInDim S8192x8192 ![] bcast_S_S8192x8192 (constant (F := Ideal) S_ .f32 0x00000000#32))
          (cat2 S270336x2 1 concatenates_S270336x1_S270336x1_S270336x2_d1 (colW (wrapW D)) (colW (wrapW S)))
          (mulf (Host.gather gather_S8192_S270336x1_S270336_n_0_n_n_0_1_1 X (colW (wrapW S)))
            (Host.gather gather_S8192_S270336x1_S270336_n_0_n_n_0_1_1 X (colW (wrapW D)))) := by
  dsimp only [hostOps0_2]
  simp (disch := decide) only [after_cons, after_nil, cat2_intro,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [hS, hD, hX]
  rfl

theorem adj_eq : (V3 (F := Ideal) m c main_v44 : S8192x8192.Idx → EReal) = adjV (m ((c.tc : Thread nD τ).loc main_arg1)) :=
  adj_after (V2 (F := Ideal) m c) _ _ _ ((V2_of m c main_v5 (by decide)).trans (src_eq m c))
    ((V2_of m c main_v6 (by decide)).trans (dst_eq m c)) (dis_eq m c)

end Read

end Stages

/-! ## The host's arrays at an index -/

section AtIndex
open Cert.GcnSpec

/-- A sum over a filtered rank-1 index set is the sum over the coordinate. -/
theorem sum_filter_ix1 {n : ℕ} {M : Type} [AddCommMonoid M] (p : (⟨1, ![n]⟩ : Shape).Idx → Prop) [DecidablePred p]
    (f : (⟨1, ![n]⟩ : Shape).Idx → M) :
    ∑ j ∈ Finset.univ.filter p, f j = ∑ e ∈ Finset.univ.filter (fun e : Fin n => p (ix1 e)), f (ix1 e) := by
  let E : Fin n ≃ (⟨1, ![n]⟩ : Shape).Idx := ⟨ix1, fun j => j 0, fun e => rfl, fun j => (eq_ix1 j).symm⟩
  exact (Finset.sum_equiv E (by intro e; simp only [Finset.mem_filter, Finset.mem_univ, true_and]; rfl) (by intro e _; rfl)).symm

/-- The exact scatter-add at an index: the operand's entry plus the updates landing there. -/
theorem scatterAdd_apply {s si su : Shape} (d : ScatterDims s si su) {w : ℕ} (x : FVec Ideal s .f32) (idx : IVec si w)
    (upd : FVec Ideal su .f32) (i : s.Idx) :
    Host.scatterAdd (F := Ideal) d x idx upd i = Ideal.hostScatterAdd d x idx upd i := rfl

/-- A broadcast float literal reads the literal's value everywhere. -/
theorem bcast_const_apply {T : Shape} (h : S_.BroadcastsInDim T (![] : Fin 0 → Fin T.rank)) (b : BitVec 32) (j : T.Idx) :
    broadcastInDim T ![] h (constant (F := Ideal) S_ .f32 b) j = Ideal.ofBits .f32 b := rfl

/-- The inverse-square-root-or-zero selection at an index. -/
theorem where_apply {T : Shape} (X Z W : FVec Ideal T .f32) (i : T.Idx) :
    select (cmpf .ogt X Z) (Host.rsqrt X) W i = Scalar.select (Ideal.cmp .ogt (X i) (Z i)) (Ideal.rsqrt (X i)) (W i) := rfl

variable (ei : S262144x2.Idx → BitVec 32)

theorem endW_apply (off : Fin 2 → ℕ) (hs : S262144x2.Slices off S262144x1) (col : Fin 2) (h0 : off 0 = 0) (h1 : off 1 = col.val)
    (e : Fin 270336) : endW ei off hs (ix1 e) = endpoint ei col e := by
  unfold endW cat2 endpoint
  by_cases h : e.val < 262144
  · rw [dif_pos h]
    refine (concatenate_pair_apply_left (t := S270336) (s₁ := S262144) (s₂ := S8192) (0 : Fin 1) _ _
      concatenates_S262144_S8192_S270336_d0 (ix1 e : S270336.Idx) rfl (ix1 (⟨e.val, h⟩ : Fin 262144) : S262144.Idx)
      (fun (b : Fin 1) => by match b with | ⟨0, _⟩ => rfl)).trans ?_
    refine (shapeCast_apply (s := S262144x1) (t := S262144) _ shapeCasts_S262144x1_S262144 (ix1 (⟨e.val, h⟩ : Fin 262144) : S262144.Idx)
      (ix2 (⟨e.val, h⟩ : Fin 262144) (0 : Fin 1) : S262144x1.Idx) (by
      rw [Shape.rowMajor_val_two, Shape.rowMajor_val_one]; show e.val * 1 + 0 = e.val; omega)).trans ?_
    exact extractStridedSlice_apply (s := S262144x2) (t := S262144x1) off ei hs (ix2 (⟨e.val, h⟩ : Fin 262144) (0 : Fin 1) : S262144x1.Idx)
      (ix2 (⟨e.val, h⟩ : Fin 262144) col : S262144x2.Idx) (fun (a : Fin 2) => by
      match a with
      | ⟨0, _⟩ => show e.val = off 0 + e.val; rw [h0]; omega
      | ⟨1, _⟩ => show col.val = off 1 + 0; rw [h1]; rfl)
  · rw [dif_neg h]
    have hk : e.val - 262144 < 8192 := by have := e.isLt; omega
    exact concatenate_pair_apply_right (t := S270336) (s₁ := S262144) (s₂ := S8192) (0 : Fin 1) _ _
      concatenates_S262144_S8192_S270336_d0 (ix1 e : S270336.Idx) rfl rfl (ix1 (⟨e.val - 262144, hk⟩ : Fin 8192) : S8192.Idx)
      (fun (b : Fin 1) hb => absurd (Subsingleton.elim _ _) hb) (by
        show (e.val - 262144) + 262144 = e.val; omega)

theorem srcW_apply (e : Fin 270336) : srcW ei (ix1 e) = endpoint ei 0 e :=
  endW_apply ei ![0, 0] slices_S262144x2_S262144x1_0_0 0 rfl rfl e
theorem dstW_apply (e : Fin 270336) : dstW ei (ix1 e) = endpoint ei 1 e :=
  endW_apply ei ![0, 1] slices_S262144x2_S262144x1_0_1 1 rfl rfl e

theorem wrapW_apply (w : IVec S270336 32) (e : Fin 270336) : wrapW w (ix1 e) = wrapNeg (w (ix1 e)) := wrapSel _

theorem colW_apply (w : IVec S270336 32) (e : Fin 270336) (u : Fin 1) : colW w (ix2 e u) = w (ix1 e) :=
  col_apply (by decide) _ w e u

variable {ei} (hin : InRange ei)
include hin

/-- The degree scatter lands edge `e`'s one at its destination. -/
theorem deg_lands (e : Fin 270336) (d : Fin 8192) :
    scatter_S8192_S270336x1_S270336_n_0_0_1.resultIdx? (ix1 e) (colW (dstW ei)) = some (ix1 d) ↔ dstNode ei e = d := by
  have hr := endpoint_range hin 1 e
  have hw : colW (dstW ei) (ix2 e 0) = endpoint ei 1 e := by rw [colW_apply, dstW_apply]
  rw [scatter_node_iff _ e d (by rw [hw]; exact hr.1) (by rw [hw]; exact hr.2), hw, ← nodeOf_val hr.1 hr.2]
  exact ⟨fun h => Fin.ext h, fun h => congrArg Fin.val h⟩

theorem deg_value (d : Fin 8192) : degV ei (ix1 d) = deg (dstNode ei) d := by
  unfold degV deg
  rw [scatterAdd_apply]
  unfold Ideal.hostScatterAdd
  rw [sum_filter_ix1]
  exact congrArg₂ (· + ·) ((bcast_const_apply _ _ _).trans Ideal.ofBits_zero_f32)
    (Finset.sum_congr (Finset.filter_congr fun e _ => deg_lands hin e d)
      fun e _ => (bcast_const_apply _ _ _).trans Ideal.ofBits_one_f32)

theorem dis_value (d : Fin 8192) : disV ei (ix1 d) = dis (dstNode ei) d := by
  unfold disV
  rw [where_apply, deg_value hin d]
  have hz : zerosN (ix1 d) = 0 := (bcast_const_apply _ _ _).trans Ideal.ofBits_zero_f32
  have hw : broadcastInDim S8192 ![] bcast_S_S8192 (id (constant (F := Ideal) S_ .f32 0x00000000#32)) (ix1 d) = 0 :=
    (bcast_const_apply _ _ _).trans Ideal.ofBits_zero_f32
  rw [hz, hw]
  rfl

/-- A gather of the inverse square roots at a column of wrapped endpoint words reads them at the endpoint's node. -/
theorem gather_dis (x : S8192.Idx → EReal) (w : IVec S270336 32) (col : Fin 2) (hw : ∀ e, w (ix1 e) = endpoint ei col e) (e : Fin 270336) :
    Host.gather gather_S8192_S270336x1_S270336_n_0_n_n_0_1_1 x (colW (wrapW w)) (ix1 e) = x (ix1 (nodeOf (endpoint ei col e))) := by
  rw [gather_node_apply]
  refine congrArg (fun q : Fin 8192 => x (ix1 q)) (Fin.ext ?_)
  show min _ 8191 = min _ 8191
  rw [colW_apply, wrapW_apply, hw, wrapNeg_of_nonneg (endpoint_range hin col e).1]

theorem nrm_value (e : Fin 270336) : nrmV ei (ix1 e) = nrm (srcNode ei) (dstNode ei) e := by
  unfold nrmV
  rw [mulf_apply, gather_dis hin _ _ 0 (srcW_apply ei) e, gather_dis hin _ _ 1 (dstW_apply ei) e, dis_value hin, dis_value hin]
  rfl

theorem pairW_dst (e : Fin 270336) : pairW ei (ix2 e 0) = endpoint ei 1 e := by
  unfold pairW cat2
  refine (concatenate_pair_apply_left (t := S270336x2) (s₁ := S270336x1) (s₂ := S270336x1) (1 : Fin 2) _ _
    concatenates_S270336x1_S270336x1_S270336x2_d1 (ix2 e (0 : Fin 2) : S270336x2.Idx) rfl (ix2 e (0 : Fin 1) : S270336x1.Idx)
    (fun (b : Fin 2) => by match b with | ⟨0, _⟩ => rfl | ⟨1, _⟩ => rfl)).trans ?_
  rw [colW_apply, wrapW_apply, dstW_apply, wrapNeg_of_nonneg (endpoint_range hin 1 e).1]

theorem pairW_src (e : Fin 270336) : pairW ei (ix2 e 1) = endpoint ei 0 e := by
  unfold pairW cat2
  refine (concatenate_pair_apply_right (t := S270336x2) (s₁ := S270336x1) (s₂ := S270336x1) (1 : Fin 2) _ _
    concatenates_S270336x1_S270336x1_S270336x2_d1 (ix2 e (1 : Fin 2) : S270336x2.Idx) rfl rfl (ix2 e (0 : Fin 1) : S270336x1.Idx)
    (fun (b : Fin 2) hb => by
      match b, hb with
      | ⟨0, _⟩, _ => rfl
      | ⟨1, _⟩, hb => exact absurd rfl hb) (by show 0 + 1 = 1; rfl)).trans ?_
  rw [colW_apply, wrapW_apply, srcW_apply, wrapNeg_of_nonneg (endpoint_range hin 0 e).1]

/-- The adjacency scatter lands edge `e`'s weight at (destination, source). -/
theorem adj_lands (e : Fin 270336) (d s : Fin 8192) :
    scatter_S8192x8192_S270336x2_S270336_n_01_01_1.resultIdx? (ix1 e) (pairW ei) = some (ix2 d s)
      ↔ dstNode ei e = d ∧ srcNode ei e = s := by
  have hd := endpoint_range hin 1 e
  have hs := endpoint_range hin 0 e
  have e0 := pairW_dst hin e
  have e1 := pairW_src hin e
  rw [scatter_pair_iff _ e d s (by rw [e0]; exact hd.1) (by rw [e0]; exact hd.2) (by rw [e1]; exact hs.1) (by rw [e1]; exact hs.2),
    e0, e1, ← nodeOf_val hd.1 hd.2, ← nodeOf_val hs.1 hs.2]
  exact ⟨fun h => ⟨Fin.ext h.1, Fin.ext h.2⟩, fun h => ⟨congrArg Fin.val h.1, congrArg Fin.val h.2⟩⟩

theorem adjV_value (d s : Fin 8192) : adjV ei (ix2 d s) = adj (srcNode ei) (dstNode ei) d s := by
  unfold adjV adj
  rw [scatterAdd_apply]
  unfold Ideal.hostScatterAdd
  rw [sum_filter_ix1]
  exact congrArg₂ (· + ·) ((bcast_const_apply _ _ _).trans Ideal.ofBits_zero_f32)
    (Finset.sum_congr (Finset.filter_congr fun e _ => adj_lands hin e d s) fun e _ => nrm_value hin e)

end AtIndex

/-- The adjacency matrix the first kernel receives, entry by entry. -/
theorem adj_value (hin : Cert.GcnSpec.InRange (m ((c.tc : Thread nD τ).loc main_arg1))) (d s : Fin 8192) :
    (V3 (F := Ideal) m c main_v44 : S8192x8192.Idx → EReal) (ix2 d s)
      = Cert.GcnSpec.adj (Cert.GcnSpec.srcNode (m ((c.tc : Thread nD τ).loc main_arg1)))
          (Cert.GcnSpec.dstNode (m ((c.tc : Thread nD τ).loc main_arg1))) d s := by
  rw [adj_eq]; exact adjV_value hin d s

end Cert.KernelIdeal.HostSide

end
-- ==== Proof.KI.KernelValue.lean ====
/-
  The kernel program's result, as a formula. The second pallas_call leaves in the result array, at (r, j), the blocked sum
  over the 8192 sources of (queried row of the adjacency) · (first layer's output) plus the bias; the queried rows are rows
  of the dense weighted adjacency matrix the host built; the first layer's output is what the first pallas_call left:
  at (d, j) the zero-accumulator product over the 512 hidden columns of relu(blocked sum of adjacency · W1 + b1) with W2.
  Put together this is `GcnSpec.dense` of the edge list, the queried nodes and the four weight arrays.
-/
import proofs.«157338_j2456721293623_2_alg».proof.Proof.KI.Whole
import proofs.«157338_j2456721293623_2_alg».proof.Proof.KI.AggValue
import proofs.«157338_j2456721293623_2_alg».proof.Proof.KI.FusedValue
import proofs.«157338_j2456721293623_2_alg».proof.Proof.KI.HostValues
import proofs.«157338_j2456721293623_2_alg».proof.Proof.ReadAt

noncomputable section

namespace Cert.KernelIdeal.Whole

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The first layer's output, as the first pallas_call leaves it in main_v47. -/
theorem out47_value (hin : Cert.GcnSpec.InRange (m ((c.tc : Thread nD τ).loc main_arg1))) (d : Fin 8192) (j : Fin 128) :
    (out47 (F := Ideal) m c : S8192x128.Idx → EReal) (ix2 d j)
      = Cert.GcnSpec.dLin (Cert.GcnSpec.srcNode (m ((c.tc : Thread nD τ).loc main_arg1))) (Cert.GcnSpec.dstNode (m ((c.tc : Thread nD τ).loc main_arg1)))
          (fun s k => m ((c.tc : Thread nD τ).loc main_arg2) (ix2 s k)) (fun k => m ((c.tc : Thread nD τ).loc main_arg3) (ix1 k))
          (fun k j => m ((c.tc : Thread nD τ).loc main_arg4) (ix2 k j)) d j := by
  unfold out47
  refine (Cert.KernelIdeal.FusedValue.fused_value (E3 m) c d j).trans ?_
  simp only [Cert.GcnSpec.at2, Cert.KernelIdeal.HostSide.adj_value m c hin, Cert.KernelIdeal.HostSide.W1_kept m c,
    Cert.KernelIdeal.HostSide.b1row_value m c, Cert.KernelIdeal.HostSide.W2_kept m c]
  rfl

/-- The result array after the run, at (r, j). -/
theorem kernel_value (hin : Cert.GcnSpec.InRange (m ((c.tc : Thread nD τ).loc main_arg1))) (r : Fin 2048) (j : Fin 128) :
    (out55 (F := Ideal) m c : S2048x128.Idx → EReal) (ix2 r j)
      = Cert.GcnSpec.dense (Cert.GcnSpec.srcNode (m ((c.tc : Thread nD τ).loc main_arg1))) (Cert.GcnSpec.dstNode (m ((c.tc : Thread nD τ).loc main_arg1)))
          (Cert.GcnSpec.query (m ((c.tc : Thread nD τ).loc main_arg0)))
          (fun s k => m ((c.tc : Thread nD τ).loc main_arg2) (ix2 s k)) (fun k => m ((c.tc : Thread nD τ).loc main_arg3) (ix1 k))
          (fun k j => m ((c.tc : Thread nD τ).loc main_arg4) (ix2 k j)) (fun j => m ((c.tc : Thread nD τ).loc main_arg5) (ix1 j)) r j := by
  unfold out55
  rw [Cert.KernelIdeal.AggValue.agg_value (E5 m) c (E5 m c main_v54) (E5 m c main_v47) (E5 m c main_v46) rfl rfl rfl r j]
  simp only [Cert.KernelIdeal.HostSide.rows_value m c (outsA m), Cert.KernelIdeal.HostSide.adj_value m c hin,
    (Cert.KernelIdeal.HostSide.V5_kept m c (outsA m)).1, (Cert.KernelIdeal.HostSide.V5_kept m c (outsA m)).2, outsA_47,
    out47_value m c hin, Cert.KernelIdeal.HostSide.b2row_value m c]
  rfl

end Cert.KernelIdeal.Whole

end
-- ==== Proof.RefFrame.lean ====
/-
  The reference program's frame: it is a host program with no kernel launch, so its generated run (every weakly fair execution ends,
  each result at the composed term of the arguments) gives the frame by dropping the result.
-/
import proofs.«157338_j2456721293623_2_alg».proof.Defs
import proofs.«157338_j2456721293623_2_alg».proof.Proof.RefReadP

noncomputable section

namespace Cert.Proof.RefSide

open Idealize.ShloMosaic Idealize.ShloMosaic.TcCoe Idealize.SL.Sem

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

end Cert.Proof.RefSide

end
-- ==== Proof.RefValue.lean ====
/-
  The reference program read at an index.

  The program is the message-passing form of a two-layer graph convolution: it joins the given edge list with one self loop
  per node, counts the edges into every node by a scatter-add of ones, turns the counts into the edge weights
  deg(src)^(-1/2) · deg(dst)^(-1/2) by two gathers, and runs each layer as gather (an edge takes its source's row),
  scale, scatter-add (into its destination's row). This module reads every such operation at an index and identifies the
  result, at a queried row and a column, with the formula `Cert.GcnSpec.passing` over the nodes the edge words name.
-/
import proofs.«157338_j2456721293623_2_alg».proof.Proof.RefReadP
import proofs.«157338_j2456721293623_2_alg».proof.Proof.GcnEdges
import Idealize.ShloMosaic.Lib.ValueIdx
import Idealize.ShloMosaic.Lib.Pipeline.Value
import Idealize.ShloMosaic.Lib.ValueLayout
import Idealize.ShloMosaic.PureOps.Ideal.Laws

noncomputable section

namespace Cert.Proof.RefSide

open Cert.ReferenceIdeal Cert.ReferenceIdeal.Gen Cert.ReferenceIdeal.ReadP Cert.GcnSpec Idealize.ShloMosaic Idealize.ShloMosaic.ValueIdx

/-! ### The joined edge list -/

/-- The joined list of endpoints, column `0`: the given sources, then the self loops. -/
theorem src_word (ei : (⟨S262144x2, .i32⟩ : BufTy).Contents (Elt Ideal)) (e : Fin 270336) :
    val_main_v12 (F := Ideal) ei (ix1 e) = endpoint ei 0 e := by
  unfold endpoint val_main_v12
  by_cases h : e.val < 262144
  · rw [dif_pos h]
    refine (concatenate_pair_apply_left (t := S270336) (s₁ := S262144) (s₂ := S8192) (0 : Fin 1) _ _ concatenates_S262144_S8192_S270336_d0 (ix1 e) rfl
      (ix1 (⟨e.val, h⟩ : Fin 262144)) (fun b => match b with | ⟨0, _⟩ => rfl)).trans ?_
    rw [val_main_v1_apply, val_main_v0_apply]
    refine congrArg ei (funext fun a => Fin.ext ?_)
    match a with
    | ⟨0, _⟩ => exact Nat.div_one _
    | ⟨1, _⟩ => rfl
  · rw [dif_neg h]
    have h2 : e.val - 262144 < 8192 := by have := e.isLt; omega
    refine (concatenate_pair_apply_right (t := S270336) (s₁ := S262144) (s₂ := S8192) (0 : Fin 1) _ _ concatenates_S262144_S8192_S270336_d0 (ix1 e) rfl rfl
      (ix1 (⟨e.val - 262144, h2⟩ : Fin 8192)) (fun b hb => absurd (Fin.ext (by have hb1 : b.val < 1 := b.isLt; show b.val = 0; omega)) hb)
      (by show e.val - 262144 + 262144 = e.val; omega)).trans ?_
    rfl

/-- The joined list of endpoints, column `1`: the given destinations, then the self loops. -/
theorem dst_word (ei : (⟨S262144x2, .i32⟩ : BufTy).Contents (Elt Ideal)) (e : Fin 270336) :
    val_main_v13 (F := Ideal) ei (ix1 e) = endpoint ei 1 e := by
  unfold endpoint val_main_v13
  by_cases h : e.val < 262144
  · rw [dif_pos h]
    refine (concatenate_pair_apply_left (t := S270336) (s₁ := S262144) (s₂ := S8192) (0 : Fin 1) _ _ concatenates_S262144_S8192_S270336_d0 (ix1 e) rfl
      (ix1 (⟨e.val, h⟩ : Fin 262144)) (fun b => match b with | ⟨0, _⟩ => rfl)).trans ?_
    rw [val_main_v3_apply, val_main_v2_apply]
    refine congrArg ei (funext fun a => Fin.ext ?_)
    match a with
    | ⟨0, _⟩ => exact Nat.div_one _
    | ⟨1, _⟩ => rfl
  · rw [dif_neg h]
    have h2 : e.val - 262144 < 8192 := by have := e.isLt; omega
    refine (concatenate_pair_apply_right (t := S270336) (s₁ := S262144) (s₂ := S8192) (0 : Fin 1) _ _ concatenates_S262144_S8192_S270336_d0 (ix1 e) rfl rfl
      (ix1 (⟨e.val - 262144, h2⟩ : Fin 8192)) (fun b hb => absurd (Fin.ext (by have hb1 : b.val < 1 := b.isLt; show b.val = 0; omega)) hb)
      (by show e.val - 262144 + 262144 = e.val; omega)).trans ?_
    rfl

/-- The second layer rebuilds the same two lists. -/
theorem src_word' (ei : (⟨S262144x2, .i32⟩ : BufTy).Contents (Elt Ideal)) :
    val_main_v56 (F := Ideal) ei = val_main_v12 (F := Ideal) ei := rfl
theorem dst_word' (ei : (⟨S262144x2, .i32⟩ : BufTy).Contents (Elt Ideal)) :
    val_main_v57 (F := Ideal) ei = val_main_v13 (F := Ideal) ei := rfl

/-! ### Gathers read at an index -/

/-- A gather of single elements of a vector of 8192 at a column of start words: the element the word names (read signed,
    clamped into the vector). -/
theorem gather_vec_apply {α : Type} (x : S8192.Idx → α) (idx : IVec S270336x1 32) (e : Fin 270336) :
    Host.gather gather_S8192_S270336x1_S270336_n_0_n_n_0_1_1 x idx (ix1 e) = x (ix1 (nodeOf (idx (ix2 e (0 : Fin 1))))) := by
  unfold Host.gather
  congr 1
  funext a
  obtain rfl : a = 0 := Subsingleton.elim _ _
  refine Fin.ext ?_
  show gather_S8192_S270336x1_S270336_n_0_n_n_0_1_1.start (ix1 e) idx 0
    + gather_S8192_S270336x1_S270336_n_0_n_n_0_1_1.batchCoord (ix1 e) 0
    + gather_S8192_S270336x1_S270336_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8192_S270336x1_S270336_n_0_n_n_0_1_1.startIndexMap from List.mem_singleton.mpr rfl)]
  have hsi : gather_S8192_S270336x1_S270336_n_0_n_n_0_1_1.siIdx (ix1 e)
      ⟨List.idxOf (0 : Fin 1) gather_S8192_S270336x1_S270336_n_0_n_n_0_1_1.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A gather of whole rows of a matrix with 8192 rows at a column of 270336 start words, read at (e, k): row the word
    names (read signed, clamped into the matrix), column k. -/
theorem gather_rows512_apply {α : Type} (x : S8192x512.Idx → α) (idx : IVec S270336x1 32) (e : Fin 270336) (k : Fin 512) :
    Host.gather gather_S8192x512_S270336x1_S270336x512_1_0_n_n_0_1_1512 x idx (ix2 e k) = x (ix2 (nodeOf (idx (ix2 e (0 : Fin 1)))) k) := by
  unfold Host.gather
  congr 1
  funext a
  refine Fin.ext ?_
  match a with
  | ⟨0, _⟩ =>
    show gather_S8192x512_S270336x1_S270336x512_1_0_n_n_0_1_1512.start (ix2 e k) idx 0 + gather_S8192x512_S270336x1_S270336x512_1_0_n_n_0_1_1512.batchCoord (ix2 e k) 0 + gather_S8192x512_S270336x1_S270336x512_1_0_n_n_0_1_1512.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x512_S270336x1_S270336x512_1_0_n_n_0_1_1512.startIndexMap from List.mem_singleton.mpr rfl)]
    have hsi : gather_S8192x512_S270336x1_S270336x512_1_0_n_n_0_1_1512.siIdx (ix2 e k) ⟨List.idxOf (0 : Fin 2) gather_S8192x512_S270336x1_S270336x512_1_0_n_n_0_1_1512.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S8192x512_S270336x1_S270336x512_1_0_n_n_0_1_1512.start (ix2 e k) idx 1 + gather_S8192x512_S270336x1_S270336x512_1_0_n_n_0_1_1512.batchCoord (ix2 e k) 1 + gather_S8192x512_S270336x1_S270336x512_1_0_n_n_0_1_1512.offCoord (ix2 e k) 1 = k.val
    have hs : gather_S8192x512_S270336x1_S270336x512_1_0_n_n_0_1_1512.start (ix2 e k) idx 1 = 0 := by
      unfold GatherDims.start
      rw [dif_neg (by decide)]
    have ho : gather_S8192x512_S270336x1_S270336x512_1_0_n_n_0_1_1512.offCoord (ix2 e k) 1 = k.val := by
      unfold GatherDims.offCoord
      rw [dif_pos (by decide)]
      rfl
    rw [GatherDims.batchCoord_eq_zero _ _ _ List.not_mem_nil, hs, ho]
    simp only [Nat.zero_add, Nat.add_zero]

/-- A gather of whole rows of a matrix with 8192 rows at a column of 270336 start words, read at (e, k): row the word
    names (read signed, clamped into the matrix), column k. -/
theorem gather_rows128_apply {α : Type} (x : S8192x128.Idx → α) (idx : IVec S270336x1 32) (e : Fin 270336) (k : Fin 128) :
    Host.gather gather_S8192x128_S270336x1_S270336x128_1_0_n_n_0_1_1128 x idx (ix2 e k) = x (ix2 (nodeOf (idx (ix2 e (0 : Fin 1)))) k) := by
  unfold Host.gather
  congr 1
  funext a
  refine Fin.ext ?_
  match a with
  | ⟨0, _⟩ =>
    show gather_S8192x128_S270336x1_S270336x128_1_0_n_n_0_1_1128.start (ix2 e k) idx 0 + gather_S8192x128_S270336x1_S270336x128_1_0_n_n_0_1_1128.batchCoord (ix2 e k) 0 + gather_S8192x128_S270336x1_S270336x128_1_0_n_n_0_1_1128.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x128_S270336x1_S270336x128_1_0_n_n_0_1_1128.startIndexMap from List.mem_singleton.mpr rfl)]
    have hsi : gather_S8192x128_S270336x1_S270336x128_1_0_n_n_0_1_1128.siIdx (ix2 e k) ⟨List.idxOf (0 : Fin 2) gather_S8192x128_S270336x1_S270336x128_1_0_n_n_0_1_1128.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S8192x128_S270336x1_S270336x128_1_0_n_n_0_1_1128.start (ix2 e k) idx 1 + gather_S8192x128_S270336x1_S270336x128_1_0_n_n_0_1_1128.batchCoord (ix2 e k) 1 + gather_S8192x128_S270336x1_S270336x128_1_0_n_n_0_1_1128.offCoord (ix2 e k) 1 = k.val
    have hs : gather_S8192x128_S270336x1_S270336x128_1_0_n_n_0_1_1128.start (ix2 e k) idx 1 = 0 := by
      unfold GatherDims.start
      rw [dif_neg (by decide)]
    have ho : gather_S8192x128_S270336x1_S270336x128_1_0_n_n_0_1_1128.offCoord (ix2 e k) 1 = k.val := by
      unfold GatherDims.offCoord
      rw [dif_pos (by decide)]
      rfl
    rw [GatherDims.batchCoord_eq_zero _ _ _ List.not_mem_nil, hs, ho]
    simp only [Nat.zero_add, Nat.add_zero]

/-- A gather of whole rows of a matrix with 8192 rows at a column of 2048 start words, read at (e, k): row the word
    names (read signed, clamped into the matrix), column k. -/
theorem gather_query_apply {α : Type} (x : S8192x128.Idx → α) (idx : IVec S2048x1 32) (e : Fin 2048) (k : Fin 128) :
    Host.gather gather_S8192x128_S2048x1_S2048x128_1_0_n_n_0_1_1128 x idx (ix2 e k) = x (ix2 (nodeOf (idx (ix2 e (0 : Fin 1)))) k) := by
  unfold Host.gather
  congr 1
  funext a
  refine Fin.ext ?_
  match a with
  | ⟨0, _⟩ =>
    show gather_S8192x128_S2048x1_S2048x128_1_0_n_n_0_1_1128.start (ix2 e k) idx 0 + gather_S8192x128_S2048x1_S2048x128_1_0_n_n_0_1_1128.batchCoord (ix2 e k) 0 + gather_S8192x128_S2048x1_S2048x128_1_0_n_n_0_1_1128.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x128_S2048x1_S2048x128_1_0_n_n_0_1_1128.startIndexMap from List.mem_singleton.mpr rfl)]
    have hsi : gather_S8192x128_S2048x1_S2048x128_1_0_n_n_0_1_1128.siIdx (ix2 e k) ⟨List.idxOf (0 : Fin 2) gather_S8192x128_S2048x1_S2048x128_1_0_n_n_0_1_1128.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S8192x128_S2048x1_S2048x128_1_0_n_n_0_1_1128.start (ix2 e k) idx 1 + gather_S8192x128_S2048x1_S2048x128_1_0_n_n_0_1_1128.batchCoord (ix2 e k) 1 + gather_S8192x128_S2048x1_S2048x128_1_0_n_n_0_1_1128.offCoord (ix2 e k) 1 = k.val
    have hs : gather_S8192x128_S2048x1_S2048x128_1_0_n_n_0_1_1128.start (ix2 e k) idx 1 = 0 := by
      unfold GatherDims.start
      rw [dif_neg (by decide)]
    have ho : gather_S8192x128_S2048x1_S2048x128_1_0_n_n_0_1_1128.offCoord (ix2 e k) 1 = k.val := by
      unfold GatherDims.offCoord
      rw [dif_pos (by decide)]
      rfl
    rw [GatherDims.batchCoord_eq_zero _ _ _ List.not_mem_nil, hs, ho]
    simp only [Nat.zero_add, Nat.add_zero]
/-! ### Sums over the indices a scatter sends to one place -/

/-- A sum over the rank-1 indices picked by a condition on the coordinate is the sum over the coordinates. -/
theorem sum_filter_ix1 {n : Nat} (Q : (⟨1, ![n]⟩ : Shape).Idx → Prop) [DecidablePred Q] (P : Fin n → Prop) [DecidablePred P]
    (hQ : ∀ j, Q j ↔ P (j 0)) (f : (⟨1, ![n]⟩ : Shape).Idx → EReal) :
    ∑ j ∈ Finset.univ.filter Q, f j = ∑ e ∈ Finset.univ.filter P, f (ix1 e) := by
  refine Finset.sum_nbij' (fun j => j 0) (fun e => ix1 e) ?_ ?_ ?_ ?_ ?_
  · intro j hj
    exact Finset.mem_filter.2 ⟨Finset.mem_univ _, (hQ j).1 (Finset.mem_filter.1 hj).2⟩
  · intro e he
    exact Finset.mem_filter.2 ⟨Finset.mem_univ _, (hQ (ix1 e)).2 (Finset.mem_filter.1 he).2⟩
  · intro j _
    exact (eq_ix1 j).symm
  · intro e _
    rfl
  · intro j _
    exact congrArg f (eq_ix1 j)

/-- A sum over the rank-2 indices whose row satisfies a condition and whose column is `k` is the sum over those rows. -/
theorem sum_filter_ix2 {n0 n1 : Nat} (Q : (⟨2, ![n0, n1]⟩ : Shape).Idx → Prop) [DecidablePred Q] (P : Fin n0 → Prop)
    [DecidablePred P] (k : Fin n1) (hQ : ∀ j, Q j ↔ (P (j 0) ∧ j 1 = k)) (f : (⟨2, ![n0, n1]⟩ : Shape).Idx → EReal) :
    ∑ j ∈ Finset.univ.filter Q, f j = ∑ e ∈ Finset.univ.filter P, f (ix2 e k) := by
  have hback : ∀ j, Q j → ix2 (j 0) k = j := fun j hj => by
    have h2 := ((hQ j).1 hj).2
    rw [← h2]; exact (eq_ix2 j).symm
  refine Finset.sum_nbij' (fun j => j 0) (fun e => ix2 e k) ?_ ?_ ?_ ?_ ?_
  · intro j hj
    exact Finset.mem_filter.2 ⟨Finset.mem_univ _, ((hQ j).1 (Finset.mem_filter.1 hj).2).1⟩
  · intro e he
    exact Finset.mem_filter.2 ⟨Finset.mem_univ _, (hQ (ix2 e k)).2 ⟨(Finset.mem_filter.1 he).2, rfl⟩⟩
  · intro j hj
    exact hback j (Finset.mem_filter.1 hj).2
  · intro e _
    rfl
  · intro j hj
    exact congrArg f (hback j (Finset.mem_filter.1 hj).2).symm

/-! ### Scatter-adds read at an index -/

/-- Where the scatter into a vector of 8192 sends update e when every index word names an element: the element the word
    names. -/
theorem scatter_vec_idx (idx : IVec S270336x1 32)
    (hidx : ∀ e : Fin 270336, 0 ≤ (idx (ix2 e (0 : Fin 1))).toInt ∧ (idx (ix2 e (0 : Fin 1))).toInt < 8192)
    (j : S270336.Idx) (i : S8192.Idx) :
    scatter_S8192_S270336x1_S270336_n_0_0_1.resultIdx? j idx = some i ↔ nodeOf (idx (ix2 (j 0) (0 : Fin 1))) = i 0 := by
  obtain ⟨e, rfl⟩ : ∃ e : Fin 270336, j = ix1 e := ⟨j 0, eq_ix1 j⟩
  obtain ⟨d, rfl⟩ : ∃ d : Fin 8192, i = ix1 d := ⟨i 0, eq_ix1 i⟩
  obtain ⟨h0, h1⟩ := hidx e
  have hst0 : scatter_S8192_S270336x1_S270336_n_0_0_1.start (ix1 e) idx 0 = (idx (ix2 e (0 : Fin 1))).toInt := by
    unfold ScatterDims.start
    rw [dif_pos (show (0 : Fin 1) ∈ scatter_S8192_S270336x1_S270336_n_0_0_1.scatterDimsToOperandDims from List.mem_singleton.mpr rfl)]
    have hsi : scatter_S8192_S270336x1_S270336_n_0_0_1.siIdx (ix1 e) ⟨List.idxOf (0 : Fin 1) scatter_S8192_S270336x1_S270336_n_0_0_1.scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : scatter_S8192_S270336x1_S270336_n_0_0_1.window (ix1 e) 0 = 0 := by
    unfold ScatterDims.window
    rw [dif_neg (by decide)]
  have hall : ∀ a, 0 ≤ scatter_S8192_S270336x1_S270336_n_0_0_1.start (ix1 e) idx a + scatter_S8192_S270336x1_S270336_n_0_0_1.window (ix1 e) a
      ∧ scatter_S8192_S270336x1_S270336_n_0_0_1.start (ix1 e) idx a + scatter_S8192_S270336x1_S270336_n_0_0_1.window (ix1 e) a < S8192.size a := fun a => by
    match a with
    | ⟨0, _⟩ =>
      show 0 ≤ scatter_S8192_S270336x1_S270336_n_0_0_1.start (ix1 e) idx 0 + scatter_S8192_S270336x1_S270336_n_0_0_1.window (ix1 e) 0
        ∧ scatter_S8192_S270336x1_S270336_n_0_0_1.start (ix1 e) idx 0 + scatter_S8192_S270336x1_S270336_n_0_0_1.window (ix1 e) 0 < ((8192 : Nat) : Int)
      rw [hst0, hw0]; omega
  unfold ScatterDims.resultIdx?
  rw [dif_pos hall, Option.some_inj]
  constructor
  · intro h
    have e0 := congrArg (fun f => (f 0).val) h
    simp only at e0
    change (scatter_S8192_S270336x1_S270336_n_0_0_1.start (ix1 e) idx 0 + scatter_S8192_S270336x1_S270336_n_0_0_1.window (ix1 e) 0).toNat = d.val at e0
    rw [hst0, hw0] at e0
    refine Fin.ext ?_
    show min (idx (ix2 e (0 : Fin 1))).toInt.toNat 8191 = d.val
    omega
  · intro hd
    have hd' : min (idx (ix2 e (0 : Fin 1))).toInt.toNat 8191 = d.val := congrArg Fin.val hd
    funext a; refine Fin.ext ?_
    match a with
    | ⟨0, _⟩ =>
      show (scatter_S8192_S270336x1_S270336_n_0_0_1.start (ix1 e) idx 0 + scatter_S8192_S270336x1_S270336_n_0_0_1.window (ix1 e) 0).toNat = d.val
      rw [hst0, hw0]; omega

/-- The scatter-add into a vector read at d: the operand's element plus the updates of the edges whose word names d. -/
theorem scatter_vec_apply (x : S8192.Idx → EReal) (idx : IVec S270336x1 32) (upd : S270336.Idx → EReal)
    (hidx : ∀ e : Fin 270336, 0 ≤ (idx (ix2 e (0 : Fin 1))).toInt ∧ (idx (ix2 e (0 : Fin 1))).toInt < 8192)
    (d : Fin 8192) :
    Host.scatterAdd (F := Ideal) (φ := .f32) scatter_S8192_S270336x1_S270336_n_0_0_1 x idx upd (ix1 d)
      = x (ix1 d) + ∑ e ∈ Finset.univ.filter (fun e : Fin 270336 => nodeOf (idx (ix2 e (0 : Fin 1))) = d), upd (ix1 e) := by
  show x (ix1 d) + ∑ j ∈ Finset.univ.filter (fun j => scatter_S8192_S270336x1_S270336_n_0_0_1.resultIdx? j idx = some (ix1 d)), upd j = _
  refine congrArg (x (ix1 d) + ·) ?_
  exact sum_filter_ix1 _ (fun e : Fin 270336 => nodeOf (idx (ix2 e (0 : Fin 1))) = d)
    (fun j => scatter_vec_idx idx hidx j (ix1 d)) upd

/-- Where the scatter into a matrix with 8192 rows sends update (e, k') when every index word names a row: row the word
    names, column k'. -/
theorem scatter_rows512_idx (idx : IVec S270336x1 32)
    (hidx : ∀ e : Fin 270336, 0 ≤ (idx (ix2 e (0 : Fin 1))).toInt ∧ (idx (ix2 e (0 : Fin 1))).toInt < 8192)
    (j : S270336x512.Idx) (i : S8192x512.Idx) :
    scatter_S8192x512_S270336x1_S270336x512_1_0_0_1.resultIdx? j idx = some i ↔ (nodeOf (idx (ix2 (j 0) (0 : Fin 1))) = i 0 ∧ j 1 = i 1) := by
  obtain ⟨e, k', rfl⟩ : ∃ (e : Fin 270336) (k' : Fin 512), j = ix2 e k' := ⟨j 0, j 1, eq_ix2 j⟩
  obtain ⟨d, k, rfl⟩ : ∃ (d : Fin 8192) (k : Fin 512), i = ix2 d k := ⟨i 0, i 1, eq_ix2 i⟩
  obtain ⟨h0, h1⟩ := hidx e
  have hst0 : scatter_S8192x512_S270336x1_S270336x512_1_0_0_1.start (ix2 e k') idx 0 = (idx (ix2 e (0 : Fin 1))).toInt := by
    unfold ScatterDims.start
    rw [dif_pos (show (0 : Fin 2) ∈ scatter_S8192x512_S270336x1_S270336x512_1_0_0_1.scatterDimsToOperandDims from List.mem_singleton.mpr rfl)]
    have hsi : scatter_S8192x512_S270336x1_S270336x512_1_0_0_1.siIdx (ix2 e k') ⟨List.idxOf (0 : Fin 2) scatter_S8192x512_S270336x1_S270336x512_1_0_0_1.scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hst1 : scatter_S8192x512_S270336x1_S270336x512_1_0_0_1.start (ix2 e k') idx 1 = 0 := by
    unfold ScatterDims.start
    rw [dif_neg (by decide)]
  have hw0 : scatter_S8192x512_S270336x1_S270336x512_1_0_0_1.window (ix2 e k') 0 = 0 := by
    unfold ScatterDims.window
    rw [dif_neg (by decide)]
  have hw1 : scatter_S8192x512_S270336x1_S270336x512_1_0_0_1.window (ix2 e k') 1 = k'.val := by
    unfold ScatterDims.window
    rw [dif_pos (by decide)]
    rfl
  have hk' : k'.val < 512 := k'.isLt
  have hall : ∀ a, 0 ≤ scatter_S8192x512_S270336x1_S270336x512_1_0_0_1.start (ix2 e k') idx a + scatter_S8192x512_S270336x1_S270336x512_1_0_0_1.window (ix2 e k') a
      ∧ scatter_S8192x512_S270336x1_S270336x512_1_0_0_1.start (ix2 e k') idx a + scatter_S8192x512_S270336x1_S270336x512_1_0_0_1.window (ix2 e k') a < S8192x512.size a := fun a => by
    match a with
    | ⟨0, _⟩ =>
      show 0 ≤ scatter_S8192x512_S270336x1_S270336x512_1_0_0_1.start (ix2 e k') idx 0 + scatter_S8192x512_S270336x1_S270336x512_1_0_0_1.window (ix2 e k') 0
        ∧ scatter_S8192x512_S270336x1_S270336x512_1_0_0_1.start (ix2 e k') idx 0 + scatter_S8192x512_S270336x1_S270336x512_1_0_0_1.window (ix2 e k') 0 < ((8192 : Nat) : Int)
      rw [hst0, hw0]; omega
    | ⟨1, _⟩ =>
      show 0 ≤ scatter_S8192x512_S270336x1_S270336x512_1_0_0_1.start (ix2 e k') idx 1 + scatter_S8192x512_S270336x1_S270336x512_1_0_0_1.window (ix2 e k') 1
        ∧ scatter_S8192x512_S270336x1_S270336x512_1_0_0_1.start (ix2 e k') idx 1 + scatter_S8192x512_S270336x1_S270336x512_1_0_0_1.window (ix2 e k') 1 < ((512 : Nat) : Int)
      rw [hst1, hw1]; omega
  unfold ScatterDims.resultIdx?
  rw [dif_pos hall, Option.some_inj]
  constructor
  · intro h
    have e0 := congrArg (fun f => (f 0).val) h
    have e1 := congrArg (fun f => (f 1).val) h
    simp only at e0 e1
    change (scatter_S8192x512_S270336x1_S270336x512_1_0_0_1.start (ix2 e k') idx 0 + scatter_S8192x512_S270336x1_S270336x512_1_0_0_1.window (ix2 e k') 0).toNat = d.val at e0
    change (scatter_S8192x512_S270336x1_S270336x512_1_0_0_1.start (ix2 e k') idx 1 + scatter_S8192x512_S270336x1_S270336x512_1_0_0_1.window (ix2 e k') 1).toNat = k.val at e1
    rw [hst0, hw0] at e0
    rw [hst1, hw1] at e1
    refine ⟨Fin.ext ?_, Fin.ext ?_⟩
    · show min (idx (ix2 e (0 : Fin 1))).toInt.toNat 8191 = d.val
      omega
    · show k'.val = k.val
      omega
  · rintro ⟨hd, hk⟩
    have hd' : min (idx (ix2 e (0 : Fin 1))).toInt.toNat 8191 = d.val := congrArg Fin.val hd
    have hk'' : k'.val = k.val := congrArg Fin.val hk
    funext a; refine Fin.ext ?_
    match a with
    | ⟨0, _⟩ =>
      show (scatter_S8192x512_S270336x1_S270336x512_1_0_0_1.start (ix2 e k') idx 0 + scatter_S8192x512_S270336x1_S270336x512_1_0_0_1.window (ix2 e k') 0).toNat = d.val
      rw [hst0, hw0]; omega
    | ⟨1, _⟩ =>
      show (scatter_S8192x512_S270336x1_S270336x512_1_0_0_1.start (ix2 e k') idx 1 + scatter_S8192x512_S270336x1_S270336x512_1_0_0_1.window (ix2 e k') 1).toNat = k.val
      rw [hst1, hw1]; omega

/-- The scatter-add read at (d, k): the operand's element plus the updates (e, k) of the edges e whose word names row d. -/
theorem scatter_rows512_apply (x : S8192x512.Idx → EReal) (idx : IVec S270336x1 32) (upd : S270336x512.Idx → EReal)
    (hidx : ∀ e : Fin 270336, 0 ≤ (idx (ix2 e (0 : Fin 1))).toInt ∧ (idx (ix2 e (0 : Fin 1))).toInt < 8192)
    (d : Fin 8192) (k : Fin 512) :
    Host.scatterAdd (F := Ideal) (φ := .f32) scatter_S8192x512_S270336x1_S270336x512_1_0_0_1 x idx upd (ix2 d k)
      = x (ix2 d k) + ∑ e ∈ Finset.univ.filter (fun e : Fin 270336 => nodeOf (idx (ix2 e (0 : Fin 1))) = d), upd (ix2 e k) := by
  show x (ix2 d k) + ∑ j ∈ Finset.univ.filter (fun j => scatter_S8192x512_S270336x1_S270336x512_1_0_0_1.resultIdx? j idx = some (ix2 d k)), upd j = _
  refine congrArg (x (ix2 d k) + ·) ?_
  exact sum_filter_ix2 _ (fun e : Fin 270336 => nodeOf (idx (ix2 e (0 : Fin 1))) = d) k
    (fun j => (scatter_rows512_idx idx hidx j (ix2 d k)).trans (by simp only [eq_comm])) upd

/-- Where the scatter into a matrix with 8192 rows sends update (e, k') when every index word names a row: row the word
    names, column k'. -/
theorem scatter_rows128_idx (idx : IVec S270336x1 32)
    (hidx : ∀ e : Fin 270336, 0 ≤ (idx (ix2 e (0 : Fin 1))).toInt ∧ (idx (ix2 e (0 : Fin 1))).toInt < 8192)
    (j : S270336x128.Idx) (i : S8192x128.Idx) :
    scatter_S8192x128_S270336x1_S270336x128_1_0_0_1.resultIdx? j idx = some i ↔ (nodeOf (idx (ix2 (j 0) (0 : Fin 1))) = i 0 ∧ j 1 = i 1) := by
  obtain ⟨e, k', rfl⟩ : ∃ (e : Fin 270336) (k' : Fin 128), j = ix2 e k' := ⟨j 0, j 1, eq_ix2 j⟩
  obtain ⟨d, k, rfl⟩ : ∃ (d : Fin 8192) (k : Fin 128), i = ix2 d k := ⟨i 0, i 1, eq_ix2 i⟩
  obtain ⟨h0, h1⟩ := hidx e
  have hst0 : scatter_S8192x128_S270336x1_S270336x128_1_0_0_1.start (ix2 e k') idx 0 = (idx (ix2 e (0 : Fin 1))).toInt := by
    unfold ScatterDims.start
    rw [dif_pos (show (0 : Fin 2) ∈ scatter_S8192x128_S270336x1_S270336x128_1_0_0_1.scatterDimsToOperandDims from List.mem_singleton.mpr rfl)]
    have hsi : scatter_S8192x128_S270336x1_S270336x128_1_0_0_1.siIdx (ix2 e k') ⟨List.idxOf (0 : Fin 2) scatter_S8192x128_S270336x1_S270336x128_1_0_0_1.scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hst1 : scatter_S8192x128_S270336x1_S270336x128_1_0_0_1.start (ix2 e k') idx 1 = 0 := by
    unfold ScatterDims.start
    rw [dif_neg (by decide)]
  have hw0 : scatter_S8192x128_S270336x1_S270336x128_1_0_0_1.window (ix2 e k') 0 = 0 := by
    unfold ScatterDims.window
    rw [dif_neg (by decide)]
  have hw1 : scatter_S8192x128_S270336x1_S270336x128_1_0_0_1.window (ix2 e k') 1 = k'.val := by
    unfold ScatterDims.window
    rw [dif_pos (by decide)]
    rfl
  have hk' : k'.val < 128 := k'.isLt
  have hall : ∀ a, 0 ≤ scatter_S8192x128_S270336x1_S270336x128_1_0_0_1.start (ix2 e k') idx a + scatter_S8192x128_S270336x1_S270336x128_1_0_0_1.window (ix2 e k') a
      ∧ scatter_S8192x128_S270336x1_S270336x128_1_0_0_1.start (ix2 e k') idx a + scatter_S8192x128_S270336x1_S270336x128_1_0_0_1.window (ix2 e k') a < S8192x128.size a := fun a => by
    match a with
    | ⟨0, _⟩ =>
      show 0 ≤ scatter_S8192x128_S270336x1_S270336x128_1_0_0_1.start (ix2 e k') idx 0 + scatter_S8192x128_S270336x1_S270336x128_1_0_0_1.window (ix2 e k') 0
        ∧ scatter_S8192x128_S270336x1_S270336x128_1_0_0_1.start (ix2 e k') idx 0 + scatter_S8192x128_S270336x1_S270336x128_1_0_0_1.window (ix2 e k') 0 < ((8192 : Nat) : Int)
      rw [hst0, hw0]; omega
    | ⟨1, _⟩ =>
      show 0 ≤ scatter_S8192x128_S270336x1_S270336x128_1_0_0_1.start (ix2 e k') idx 1 + scatter_S8192x128_S270336x1_S270336x128_1_0_0_1.window (ix2 e k') 1
        ∧ scatter_S8192x128_S270336x1_S270336x128_1_0_0_1.start (ix2 e k') idx 1 + scatter_S8192x128_S270336x1_S270336x128_1_0_0_1.window (ix2 e k') 1 < ((128 : Nat) : Int)
      rw [hst1, hw1]; omega
  unfold ScatterDims.resultIdx?
  rw [dif_pos hall, Option.some_inj]
  constructor
  · intro h
    have e0 := congrArg (fun f => (f 0).val) h
    have e1 := congrArg (fun f => (f 1).val) h
    simp only at e0 e1
    change (scatter_S8192x128_S270336x1_S270336x128_1_0_0_1.start (ix2 e k') idx 0 + scatter_S8192x128_S270336x1_S270336x128_1_0_0_1.window (ix2 e k') 0).toNat = d.val at e0
    change (scatter_S8192x128_S270336x1_S270336x128_1_0_0_1.start (ix2 e k') idx 1 + scatter_S8192x128_S270336x1_S270336x128_1_0_0_1.window (ix2 e k') 1).toNat = k.val at e1
    rw [hst0, hw0] at e0
    rw [hst1, hw1] at e1
    refine ⟨Fin.ext ?_, Fin.ext ?_⟩
    · show min (idx (ix2 e (0 : Fin 1))).toInt.toNat 8191 = d.val
      omega
    · show k'.val = k.val
      omega
  · rintro ⟨hd, hk⟩
    have hd' : min (idx (ix2 e (0 : Fin 1))).toInt.toNat 8191 = d.val := congrArg Fin.val hd
    have hk'' : k'.val = k.val := congrArg Fin.val hk
    funext a; refine Fin.ext ?_
    match a with
    | ⟨0, _⟩ =>
      show (scatter_S8192x128_S270336x1_S270336x128_1_0_0_1.start (ix2 e k') idx 0 + scatter_S8192x128_S270336x1_S270336x128_1_0_0_1.window (ix2 e k') 0).toNat = d.val
      rw [hst0, hw0]; omega
    | ⟨1, _⟩ =>
      show (scatter_S8192x128_S270336x1_S270336x128_1_0_0_1.start (ix2 e k') idx 1 + scatter_S8192x128_S270336x1_S270336x128_1_0_0_1.window (ix2 e k') 1).toNat = k.val
      rw [hst1, hw1]; omega

/-- The scatter-add read at (d, k): the operand's element plus the updates (e, k) of the edges e whose word names row d. -/
theorem scatter_rows128_apply (x : S8192x128.Idx → EReal) (idx : IVec S270336x1 32) (upd : S270336x128.Idx → EReal)
    (hidx : ∀ e : Fin 270336, 0 ≤ (idx (ix2 e (0 : Fin 1))).toInt ∧ (idx (ix2 e (0 : Fin 1))).toInt < 8192)
    (d : Fin 8192) (k : Fin 128) :
    Host.scatterAdd (F := Ideal) (φ := .f32) scatter_S8192x128_S270336x1_S270336x128_1_0_0_1 x idx upd (ix2 d k)
      = x (ix2 d k) + ∑ e ∈ Finset.univ.filter (fun e : Fin 270336 => nodeOf (idx (ix2 e (0 : Fin 1))) = d), upd (ix2 e k) := by
  show x (ix2 d k) + ∑ j ∈ Finset.univ.filter (fun j => scatter_S8192x128_S270336x1_S270336x128_1_0_0_1.resultIdx? j idx = some (ix2 d k)), upd j = _
  refine congrArg (x (ix2 d k) + ·) ?_
  exact sum_filter_ix2 _ (fun e : Fin 270336 => nodeOf (idx (ix2 e (0 : Fin 1))) = d) k
    (fun j => (scatter_rows128_idx idx hidx j (ix2 d k)).trans (by simp only [eq_comm])) upd
/-! ### Index words -/

/-- Under the precondition every endpoint word of the joined list names a node. -/
theorem endpoint_range (ei : EdgeShape.Idx → BitVec 32) (hin : InRange ei) (c : Fin 2) (e : Fin 270336) :
    0 ≤ (endpoint ei c e).toInt ∧ (endpoint ei c e).toInt < 8192 := by
  unfold endpoint
  by_cases h : e.val < 262144
  · rw [dif_pos h]; exact hin _
  · rw [dif_neg h]
    have h2 : e.val - 262144 < 8192 := by have := e.isLt; omega
    have h3 : (BitVec.ofNat 32 (e.val - 262144)).toNat = e.val - 262144 := by
      rw [BitVec.toNat_ofNat]; exact Nat.mod_eq_of_lt (by omega)
    have h4 : (BitVec.ofNat 32 (e.val - 262144)).toInt = ((e.val - 262144 : Nat) : Int) := by
      rw [BitVec.toInt_eq_toNat_of_lt (by rw [h3]; omega), h3]
    rw [h4]; omega

/-- The program's wrap of a negative index word (compare with 0, add 8192, select). -/
theorem select_wrap (x : BitVec 32) :
    Scalar.select (IntOp.cmpi .slt x 0#32) (IntOp.addi x 8192#32) x = wrapNeg x := by
  have hs : IntOp.cmpi .slt x 0#32 = BitVec.ofBool (decide (x.toInt < 0)) := by
    unfold IntOp.cmpi
    simp only [BitVec.slt, BitVec.toInt_zero]
  rw [hs]
  unfold Scalar.select IntOp.addi wrapNeg
  by_cases h : x.toInt < 0
  · rw [if_pos h, decide_eq_true h]; rfl
  · rw [if_neg h, decide_eq_false h]; rfl

/-- The wrap leaves a word that is not negative alone. -/
theorem wrapNeg_of_nonneg (x : BitVec 32) (h : 0 ≤ x.toInt) : wrapNeg x = x := by
  unfold wrapNeg; rw [if_neg (by omega)]

/-- An entry of the identity matrix as the program builds it (row number = column number, as a float). -/
theorem eye_entry (a b : Fin 8192) :
    FloatOps.uitofp (F := Ideal) .f32 (IntOp.cmpi .eq (IntOp.addi (BitVec.ofNat 32 a.val) 0#32) (BitVec.ofNat 32 b.val))
      = if a = b then (1 : EReal) else 0 := by
  have hne : a ≠ b → BitVec.ofNat 32 a.val ≠ BitVec.ofNat 32 b.val := fun h hh => by
    apply h; apply Fin.ext
    have h5 := congrArg BitVec.toNat hh
    simp only [BitVec.toNat_ofNat] at h5
    have := a.isLt; have := b.isLt; omega
  unfold IntOp.cmpi IntOp.addi
  rw [BitVec.add_zero]
  by_cases h : a = b
  · subst h
    rw [if_pos rfl]
    simp only [beq_self_eq_true]
    show (((BitVec.ofBool true).toNat : ℝ) : EReal) = 1
    simp
  · rw [if_neg h]
    have : (BitVec.ofNat 32 a.val == BitVec.ofNat 32 b.val) = false := by simpa using hne h
    simp only [this]
    show (((BitVec.ofBool false).toNat : ℝ) : EReal) = 0
    simp

/-- The float word of one. -/
theorem one_word : Ideal.ofBits .f32 0x3F800000#32 = 1 := by
  simp [Ideal.ofBits, Ideal.ieee, -EReal.coe_mul] <;> norm_num

/-! ### The columns of index words the gathers and scatters read -/

/-- A vector of 270336 broadcast to a one-column matrix, read at (e, 0). -/
theorem col_apply {α : Type} (y : S270336.Idx → α) (e : Fin 270336) :
    broadcastInDim S270336x1 ![0] bcast_S270336_S270336x1_0 y (ix2 e (0 : Fin 1)) = y (ix1 e) :=
  broadcastInDim_apply _ bcast_S270336_S270336x1_0 y (ix2 e (0 : Fin 1)) (ix1 e) (fun a => match a with
    | ⟨0, _⟩ => by show e.val = if (270336 : Nat) = 1 then 0 else e.val; rw [if_neg (by decide)])

section Stages

variable (ei : (⟨S262144x2, .i32⟩ : BufTy).Contents (Elt Ideal))

/-- The destination column the degree scatter reads. -/
theorem deg_col (e : Fin 270336) : val_main_v16 (F := Ideal) ei (ix2 e (0 : Fin 1)) = endpoint ei 1 e := by
  unfold val_main_v16; rw [col_apply, dst_word]

/-- The destination column the first aggregation's scatter reads. -/
theorem agg_col (e : Fin 270336) : val_main_v48 (F := Ideal) ei (ix2 e (0 : Fin 1)) = endpoint ei 1 e := by
  unfold val_main_v48; rw [col_apply, dst_word]

/-- The wrapped source column the first weight gather reads: under the precondition the wrap does nothing. -/
theorem src_col (hin : InRange ei) (e : Fin 270336) :
    val_main_v27 (F := Ideal) ei (ix2 e (0 : Fin 1)) = endpoint ei 0 e := by
  unfold val_main_v27
  rw [col_apply, val_main_v26_apply, val_main_v23_apply, val_main_v25_apply, val_main_v22_apply, val_main_v24_apply,
    val_main_c_3_apply, val_main_c_4_apply, src_word, select_wrap, wrapNeg_of_nonneg _ (endpoint_range ei hin 0 e).1]

/-- The wrapped destination column the second weight gather reads. -/
theorem dst_col (hin : InRange ei) (e : Fin 270336) :
    val_main_v34 (F := Ideal) ei (ix2 e (0 : Fin 1)) = endpoint ei 1 e := by
  unfold val_main_v34
  rw [col_apply, val_main_v33_apply, val_main_v30_apply, val_main_v32_apply, val_main_v29_apply, val_main_v31_apply,
    val_main_c_5_apply, val_main_c_6_apply, dst_word, select_wrap, wrapNeg_of_nonneg _ (endpoint_range ei hin 1 e).1]

/-- The wrapped source column the feature gather reads. -/
theorem row_col (hin : InRange ei) (e : Fin 270336) :
    val_main_v42 (F := Ideal) ei (ix2 e (0 : Fin 1)) = endpoint ei 0 e := by
  unfold val_main_v42
  rw [col_apply, val_main_v41_apply, val_main_v38_apply, val_main_v40_apply, val_main_v37_apply, val_main_v39_apply,
    val_main_c_7_apply, val_main_c_8_apply, src_word, select_wrap, wrapNeg_of_nonneg _ (endpoint_range ei hin 0 e).1]

/-! ### Degrees and edge weights -/

/-- The scatter-add of ones: the degree. -/
theorem deg_at (hin : InRange ei) (d : Fin 8192) :
    val_main_v17 (F := Ideal) ei (ix1 d) = deg (dstNode ei) d := by
  unfold val_main_v17
  rw [scatter_vec_apply _ _ _ (fun e => by rw [deg_col]; exact endpoint_range ei hin 1 e)]
  rw [val_main_v15_apply, val_main_cst_0_apply, Ideal.ofBits_def, Ideal.ofBits_zero_f32]
  unfold deg
  refine congrArg (0 + ·) ?_
  refine Finset.sum_congr (Finset.filter_congr fun e _ => by rw [deg_col]; exact Iff.rfl) fun e _ => ?_
  rw [val_main_v14_apply, val_main_cst_apply, Ideal.ofBits_def, one_word]

/-- The guarded inverse square root of the degree. -/
theorem dis_at (hin : InRange ei) (d : Fin 8192) :
    val_main_v21 (F := Ideal) ei (ix1 d) = dis (dstNode ei) d := by
  rw [val_main_v21_apply, val_main_v19_apply, val_main_v20_apply, val_main_v18_apply, val_main_cst_1_apply,
    val_main_call0_v1_apply, val_main_call0_v0_apply, val_main_cst_2_apply, deg_at ei hin d, Ideal.ofBits_def,
    Ideal.ofBits_zero_f32, Ideal.hostUnary_rsqrt_def]
  rfl

/-- The weight of an edge: the two gathers of the guarded inverse square roots, multiplied. -/
theorem nrm_at (hin : InRange ei) (e : Fin 270336) :
    val_main_v36 (F := Ideal) ei (ix1 e) = nrm (srcNode ei) (dstNode ei) e := by
  rw [val_main_v36_apply]
  unfold val_main_v28 val_main_v35
  rw [gather_vec_apply, gather_vec_apply, src_col ei hin, dst_col ei hin, dis_at ei hin, dis_at ei hin]
  rfl

/-- The second layer recomputes the same weights, by the same operations. -/
theorem nrm_at' (hin : InRange ei) (e : Fin 270336) :
    val_main_v80 (F := Ideal) ei (ix1 e) = nrm (srcNode ei) (dstNode ei) e :=
  (congrFun (rfl : val_main_v80 (F := Ideal) ei = val_main_v36 (F := Ideal) ei) (ix1 e)).trans (nrm_at ei hin e)

/-- The second layer's columns are the first's. -/
theorem row_col' (hin : InRange ei) (e : Fin 270336) :
    val_main_v86 (F := Ideal) ei (ix2 e (0 : Fin 1)) = endpoint ei 0 e :=
  (congrFun (rfl : val_main_v86 (F := Ideal) ei = val_main_v42 (F := Ideal) ei) _).trans (row_col ei hin e)
theorem agg_col' (e : Fin 270336) :
    val_main_v92 (F := Ideal) ei (ix2 e (0 : Fin 1)) = endpoint ei 1 e :=
  (congrFun (rfl : val_main_v92 (F := Ideal) ei = val_main_v48 (F := Ideal) ei) _).trans (agg_col ei e)

end Stages

/-! ### The two layers -/

section Layers

variable (reg : (⟨S2048, .i32⟩ : BufTy).Contents (Elt Ideal)) (ei : (⟨S262144x2, .i32⟩ : BufTy).Contents (Elt Ideal))
  (W1 : (⟨S8192x512, .f32⟩ : BufTy).Contents (Elt Ideal)) (b1 : (⟨S512, .f32⟩ : BufTy).Contents (Elt Ideal))
  (W2 : (⟨S512x128, .f32⟩ : BufTy).Contents (Elt Ideal)) (b2 : (⟨S128, .f32⟩ : BufTy).Contents (Elt Ideal))

/-- The identity feature matrix times the first weight matrix. -/
theorem eyeW_at (s : Fin 8192) (k : Fin 512) :
    val_main_v10 (F := Ideal) W1 (ix2 s k) = eyeW (fun s k => W1 (ix2 s k)) s k := by
  rw [val_main_v10_apply]
  unfold eyeW
  refine Finset.sum_congr rfl fun t _ => ?_
  have hr : ridx_main_v10 (ix2 s k) t = ix2 t k := funext fun a => match a with | ⟨0, _⟩ => rfl | ⟨1, _⟩ => rfl
  rw [hr, val_main_v9_apply, val_main_v8_apply, val_main_v7_apply, val_main_v4_apply, val_main_v6_apply, val_main_c_apply,
    val_main_v5_apply]
  exact congrArg (· * W1 (ix2 t k)) (eye_entry s t)

/-- What an edge carries in the first layer: its source's row, scaled by the edge's weight. -/
theorem msg1_at (hin : InRange ei) (e : Fin 270336) (k : Fin 512) :
    val_main_v46 (F := Ideal) ei W1 (ix2 e k)
      = eyeW (fun s k => W1 (ix2 s k)) (srcNode ei e) k * nrm (srcNode ei) (dstNode ei) e := by
  have h45 : idx_main_v45 (ix2 e k) = ix2 e (0 : Fin 1) :=
    funext fun a => match a with | ⟨0, _⟩ => rfl | ⟨1, _⟩ => rfl
  rw [val_main_v46_apply, Ideal.mulf_def, val_main_v45_apply, h45]
  unfold val_main_v43 val_main_v44
  rw [col_apply, nrm_at ei hin, gather_rows512_apply, row_col ei hin, eyeW_at]
  rfl

/-- The first aggregation: every edge's message added into its destination's row. -/
theorem agg1_at (hin : InRange ei) (d : Fin 8192) (k : Fin 512) :
    val_main_v49 (F := Ideal) ei W1 (ix2 d k)
      = pass (srcNode ei) (dstNode ei) (fun s => eyeW (fun s k => W1 (ix2 s k)) s k) d := by
  unfold val_main_v49
  rw [scatter_rows512_apply _ _ _ (fun e => by rw [agg_col]; exact endpoint_range ei hin 1 e)]
  rw [val_main_v47_apply, val_main_cst_9_apply, Ideal.ofBits_def, Ideal.ofBits_zero_f32]
  unfold pass
  refine congrArg (0 + ·) ?_
  refine Finset.sum_congr (Finset.filter_congr fun e _ => by rw [agg_col]; exact Iff.rfl) fun e _ => ?_
  exact msg1_at ei W1 hin e k

/-- The hidden layer: bias added, negative part cut. -/
theorem hid_at (hin : InRange ei) (d : Fin 8192) (k : Fin 512) :
    val_main_v53 (F := Ideal) ei W1 b1 (ix2 d k)
      = hid (srcNode ei) (dstNode ei) (fun s k => W1 (ix2 s k)) (fun k => b1 (ix1 k)) d k := by
  have h51 : idx_main_v50 (idx_main_v51 (ix2 d k)) = ix1 k := funext fun a => match a with | ⟨0, _⟩ => rfl
  rw [val_main_v53_apply, val_main_v52_apply, val_main_v51_apply, val_main_v50_apply, h51, val_main_call1_v0_apply,
    val_main_call1_cst_apply, Ideal.ofBits_def, Ideal.ofBits_zero_f32, Ideal.maximumf_def, Ideal.addf_def,
    agg1_at ei W1 hin]
  rfl

/-- The hidden layer times the second weight matrix. -/
theorem lin_at (hin : InRange ei) (d : Fin 8192) (j : Fin 128) :
    val_main_v54 (F := Ideal) ei W1 b1 W2 (ix2 d j)
      = lin (srcNode ei) (dstNode ei) (fun s k => W1 (ix2 s k)) (fun k => b1 (ix1 k)) (fun k j => W2 (ix2 k j)) d j := by
  rw [val_main_v54_apply]
  unfold lin
  refine Finset.sum_congr rfl fun k _ => ?_
  have hl : lidx_main_v54 (ix2 d j) k = ix2 d k := funext fun a => match a with | ⟨0, _⟩ => rfl | ⟨1, _⟩ => rfl
  have hr : ridx_main_v54 (ix2 d j) k = ix2 k j := funext fun a => match a with | ⟨0, _⟩ => rfl | ⟨1, _⟩ => rfl
  rw [hl, hr, hid_at ei W1 b1 hin]

/-- What an edge carries in the second layer. -/
theorem msg2_at (hin : InRange ei) (e : Fin 270336) (j : Fin 128) :
    val_main_v90 (F := Ideal) ei W1 b1 W2 (ix2 e j)
      = lin (srcNode ei) (dstNode ei) (fun s k => W1 (ix2 s k)) (fun k => b1 (ix1 k)) (fun k j => W2 (ix2 k j)) (srcNode ei e) j
        * nrm (srcNode ei) (dstNode ei) e := by
  have h89 : idx_main_v89 (ix2 e j) = ix2 e (0 : Fin 1) :=
    funext fun a => match a with | ⟨0, _⟩ => rfl | ⟨1, _⟩ => rfl
  rw [val_main_v90_apply, Ideal.mulf_def, val_main_v89_apply, h89]
  unfold val_main_v87 val_main_v88
  rw [col_apply, nrm_at' ei hin, gather_rows128_apply, row_col' ei hin, lin_at ei W1 b1 W2 hin]
  rfl

/-- The second aggregation. -/
theorem agg2_at (hin : InRange ei) (d : Fin 8192) (j : Fin 128) :
    val_main_v93 (F := Ideal) ei W1 b1 W2 (ix2 d j)
      = pass (srcNode ei) (dstNode ei)
          (fun s => lin (srcNode ei) (dstNode ei) (fun s k => W1 (ix2 s k)) (fun k => b1 (ix1 k)) (fun k j => W2 (ix2 k j)) s j) d := by
  unfold val_main_v93
  rw [scatter_rows128_apply _ _ _ (fun e => by rw [agg_col']; exact endpoint_range ei hin 1 e)]
  rw [val_main_v91_apply, val_main_cst_20_apply, Ideal.ofBits_def, Ideal.ofBits_zero_f32]
  unfold pass
  refine congrArg (0 + ·) ?_
  refine Finset.sum_congr (Finset.filter_congr fun e _ => by rw [agg_col']; exact Iff.rfl) fun e _ => ?_
  exact msg2_at ei W1 b1 W2 hin e j

/-- The network's output before the query: the second aggregation plus the bias. -/
theorem out_at (hin : InRange ei) (d : Fin 8192) (j : Fin 128) :
    val_main_v96 (F := Ideal) ei W1 b1 W2 b2 (ix2 d j)
      = pass (srcNode ei) (dstNode ei)
          (fun s => lin (srcNode ei) (dstNode ei) (fun s k => W1 (ix2 s k)) (fun k => b1 (ix1 k)) (fun k j => W2 (ix2 k j)) s j) d
        + b2 (ix1 j) := by
  have h95 : idx_main_v94 (idx_main_v95 (ix2 d j)) = ix1 j := funext fun a => match a with | ⟨0, _⟩ => rfl
  rw [val_main_v96_apply, val_main_v95_apply, val_main_v94_apply, h95, Ideal.addf_def, agg2_at ei W1 b1 W2 hin]

/-- The wrapped query word the last gather reads (no range is assumed of the queried rows: the wrap stays). -/
theorem query_col (r : Fin 2048) :
    val_main_v102 (F := Ideal) reg (ix2 r (0 : Fin 1)) = wrapNeg (reg (ix1 r)) := by
  have h102 : idx_main_v102 (ix2 r (0 : Fin 1)) = ix1 r := funext fun a => match a with | ⟨0, _⟩ => rfl
  rw [val_main_v102_apply, h102, val_main_v101_apply, val_main_v98_apply, val_main_v100_apply, val_main_v97_apply,
    val_main_v99_apply, val_main_c_21_apply, val_main_c_22_apply, select_wrap]

end Layers

/-! ### The reference at a queried row and a column -/

theorem ref_value (reg : (⟨Cert.ReferenceIdeal.S2048, .i32⟩ : BufTy).Contents (Elt Ideal)) (ei : (⟨Cert.ReferenceIdeal.S262144x2, .i32⟩ : BufTy).Contents (Elt Ideal))
    (W1 : (⟨Cert.ReferenceIdeal.S8192x512, .f32⟩ : BufTy).Contents (Elt Ideal)) (b1 : (⟨Cert.ReferenceIdeal.S512, .f32⟩ : BufTy).Contents (Elt Ideal))
    (W2 : (⟨Cert.ReferenceIdeal.S512x128, .f32⟩ : BufTy).Contents (Elt Ideal)) (b2 : (⟨Cert.ReferenceIdeal.S128, .f32⟩ : BufTy).Contents (Elt Ideal))
    (hin : Cert.GcnSpec.InRange ei) (r : Fin 2048) (j : Fin 128) :
    Cert.ReferenceIdeal.ReadP.val_main_v103 (F := Ideal) reg ei W1 b1 W2 b2 (ValueIdx.ix2 r j)
      = Cert.GcnSpec.passing (Cert.GcnSpec.srcNode ei) (Cert.GcnSpec.dstNode ei) (Cert.GcnSpec.query reg)
          (fun s k => W1 (ValueIdx.ix2 s k)) (fun k => b1 (ValueIdx.ix1 k)) (fun k j => W2 (ValueIdx.ix2 k j)) (fun j => b2 (ValueIdx.ix1 j)) r j := by
  unfold val_main_v103
  rw [gather_query_apply, query_col, out_at ei W1 b1 W2 b2 hin]
  rfl

end Cert.Proof.RefSide

end
-- ==== Proof.Algebra.lean ====
/-
  The dense form of the network equals its message-passing form when the weights are real numbers.

  Every degree is a finite count, so every deg^(-1/2) (or the 0 standing for a node without edges) is a real number, and
  so is every edge weight and every entry of the adjacency matrix. For a real-valued X the product of the adjacency
  matrix with X at node d is
      Σ_s (Σ_{e : s → d} nrm e) · X s = Σ_{e into d} X (sN e) · nrm e,
  by distributing, and collecting the edges into d by their source. The identity feature matrix times W1 is W1, a sum
  taken in four blocks of 2048 from a zero accumulator is the sum over all 8192 sources, and a leading 0 + changes
  nothing. The distributive law is where real numbers are needed: it fails among the extended reals.
-/
import proofs.«157338_j2456721293623_2_alg».proof.Proof.GcnSpec

noncomputable section

namespace Cert.GcnSpec

open Idealize.ShloMosaic

/-! ### Real numbers among the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_zero : IsReal 0 := ⟨0, EReal.coe_zero.symm⟩

theorem isReal_one : IsReal 1 := ⟨1, EReal.coe_one.symm⟩

theorem isReal_add {a b : EReal} (ha : IsReal a) (hb : IsReal b) : IsReal (a + b) := by
  obtain ⟨x, rfl⟩ := ha
  obtain ⟨y, rfl⟩ := hb
  exact ⟨x + y, (EReal.coe_add x y).symm⟩

theorem isReal_mul {a b : EReal} (ha : IsReal a) (hb : IsReal b) : IsReal (a * b) := by
  obtain ⟨x, rfl⟩ := ha
  obtain ⟨y, rfl⟩ := hb
  exact ⟨x * y, (EReal.coe_mul x y).symm⟩

/-- The larger of a real and 0 is one of the two. -/
theorem isReal_max_zero {a : EReal} (ha : IsReal a) : IsReal (max a 0) := by
  rcases le_total a 0 with h | h
  · rw [max_eq_right h]; exact isReal_zero
  · rw [max_eq_left h]; exact ha

theorem isReal_sum {ι : Type*} (s : Finset ι) (f : ι → EReal) (hf : ∀ i, IsReal (f i)) :
    IsReal (∑ i ∈ s, f i) := by
  choose g hg using hf
  exact ⟨∑ i ∈ s, g i, by rw [coe_sum]; exact Finset.sum_congr rfl (fun i _ => hg i)⟩

/-! ### The four blocks are all the sources -/

/-- Block number and place in the block, against the source index. -/
def blkEquiv : Fin 4 × Fin 2048 ≃ Fin 8192 where
  toFun p := blk p.1 p.2
  invFun s := (⟨s.val / 2048, by have := s.isLt; omega⟩, ⟨s.val % 2048, by omega⟩)
  left_inv p := by
    rcases p with ⟨b, s⟩
    have hb := b.isLt
    have hs := s.isLt
    apply Prod.ext <;> apply Fin.ext <;> simp only [blk] <;> omega
  right_inv s := by
    apply Fin.ext
    simp only [blk]
    omega

/-- A sum taken block after block from a zero accumulator is the sum over all sources: addition of extended reals is
    associative and commutative, and 0 is neutral. -/
theorem blocked4_eq_sum (f : Fin 8192 → EReal) : blocked4 f = ∑ s : Fin 8192, f s := by
  rw [← Equiv.sum_comp blkEquiv f, Fintype.sum_prod_type, Fin.sum_univ_four]
  unfold blocked4
  simp only [zero_add]
  rfl

/-! ### Collecting edges by their source, in ℝ -/

/-- Σ_s (Σ_{e : s → d} ν e) · x s = Σ_{e into d} x (sN e) · ν e. -/
theorem real_collect (sN dN : Fin 270336 → Fin 8192) (ν : Fin 270336 → ℝ) (x : Fin 8192 → ℝ) (d : Fin 8192) :
    ∑ s : Fin 8192, (∑ e ∈ Finset.univ.filter (fun e => dN e = d ∧ sN e = s), ν e) * x s
      = ∑ e ∈ Finset.univ.filter (fun e => dN e = d), x (sN e) * ν e := by
  rw [← Finset.sum_fiberwise (Finset.univ.filter (fun e => dN e = d)) sN (fun e => x (sN e) * ν e)]
  refine Finset.sum_congr rfl (fun s _ => ?_)
  rw [Finset.sum_mul, Finset.filter_filter]
  refine Finset.sum_congr rfl (fun e he => ?_)
  rw [(Finset.mem_filter.mp he).2.2, mul_comm]

section

variable (sN dN : Fin 270336 → Fin 8192) (q : Fin 2048 → Fin 8192)
  (W1 : Fin 8192 → Fin 512 → EReal) (b1 : Fin 512 → EReal) (W2 : Fin 512 → Fin 128 → EReal) (b2 : Fin 128 → EReal)

/-! ### Degrees and weights are real -/

/-- A degree is a finite count. -/
theorem isReal_deg (d : Fin 8192) : IsReal (deg dN d) :=
  isReal_add isReal_zero (isReal_sum _ _ (fun _ => isReal_one))

/-- deg^(-1/2) of a positive real is a real; a node of degree 0 gets 0. -/
theorem isReal_dis (d : Fin 8192) : IsReal (dis dN d) := by
  obtain ⟨r, hr⟩ := isReal_deg dN d
  unfold dis
  rw [hr]
  split_ifs with h
  · have hpos : (0 : EReal) < (r : EReal) := by
      by_contra hn
      simp [Ideal.cmp, hn] at h
    have hr0 : 0 < r := EReal.coe_pos.mp hpos
    rw [Ideal.rsqrt_coe, if_neg (not_lt.mpr hr0.le), if_neg hr0.ne']
    exact ⟨_, rfl⟩
  · exact isReal_zero

theorem isReal_nrm (e : Fin 270336) : IsReal (nrm sN dN e) :=
  isReal_mul (isReal_dis dN _) (isReal_dis dN _)

theorem isReal_pass (X : Fin 8192 → EReal) (hX : ∀ s, IsReal (X s)) (d : Fin 8192) : IsReal (pass sN dN X d) :=
  isReal_add isReal_zero (isReal_sum _ _ (fun e => isReal_mul (hX _) (isReal_nrm sN dN e)))

/-! ### One layer: the adjacency product is the message passing -/

theorem adj_product_eq_pass (X : Fin 8192 → EReal) (hX : ∀ s, IsReal (X s)) (d : Fin 8192) :
    blocked4 (fun s => adj sN dN d s * X s) = pass sN dN X d := by
  choose x hx using hX
  choose ν hν using isReal_nrm sN dN
  have hadj : ∀ s, adj sN dN d s
      = ((∑ e ∈ Finset.univ.filter (fun e => dN e = d ∧ sN e = s), ν e : ℝ) : EReal) := by
    intro s
    unfold adj
    rw [zero_add, coe_sum]
    exact Finset.sum_congr rfl (fun e _ => hν e)
  have hpass : pass sN dN X d
      = ((∑ e ∈ Finset.univ.filter (fun e => dN e = d), x (sN e) * ν e : ℝ) : EReal) := by
    unfold pass
    rw [zero_add, coe_sum]
    refine Finset.sum_congr rfl (fun e _ => ?_)
    rw [hx, hν, EReal.coe_mul]
  rw [blocked4_eq_sum, hpass, ← real_collect, coe_sum]
  refine Finset.sum_congr rfl (fun s _ => ?_)
  rw [hadj, hx, EReal.coe_mul]

/-! ### The network -/

/-- The identity matrix times W1 is W1: one term of the sum is 1 · W1 d k, the others are 0 · W1 s k = 0. -/
theorem eyeW_eq (d : Fin 8192) (k : Fin 512) : eyeW W1 d k = W1 d k := by
  unfold eyeW
  simp only [ite_mul, one_mul, zero_mul, Finset.sum_ite_eq, Finset.mem_univ, if_true]

theorem isReal_hid (hW1 : ∀ s k, IsReal (W1 s k)) (hb1 : ∀ k, IsReal (b1 k)) (d : Fin 8192) (k : Fin 512) :
    IsReal (hid sN dN W1 b1 d k) :=
  isReal_max_zero (isReal_add
    (isReal_pass sN dN _ (fun s => by rw [eyeW_eq]; exact hW1 s k) d) (hb1 k))

theorem isReal_lin (hW1 : ∀ s k, IsReal (W1 s k)) (hb1 : ∀ k, IsReal (b1 k)) (hW2 : ∀ k j, IsReal (W2 k j))
    (d : Fin 8192) (j : Fin 128) : IsReal (lin sN dN W1 b1 W2 d j) :=
  isReal_sum _ _ (fun k => isReal_mul (isReal_hid sN dN W1 b1 hW1 hb1 d k) (hW2 k j))

theorem dHid_eq_hid (hW1 : ∀ s k, IsReal (W1 s k)) (d : Fin 8192) (k : Fin 512) :
    dHid sN dN W1 b1 d k = hid sN dN W1 b1 d k := by
  unfold dHid hid
  rw [adj_product_eq_pass sN dN (fun s => W1 s k) (fun s => hW1 s k) d]
  have hE : (fun s => eyeW W1 s k) = fun s => W1 s k := funext (fun s => eyeW_eq W1 s k)
  rw [hE]

theorem dLin_eq_lin (hW1 : ∀ s k, IsReal (W1 s k)) (d : Fin 8192) (j : Fin 128) :
    dLin sN dN W1 b1 W2 d j = lin sN dN W1 b1 W2 d j := by
  unfold dLin lin
  rw [zero_add]
  exact Finset.sum_congr rfl (fun k _ => by rw [dHid_eq_hid sN dN W1 b1 hW1 d k])

/-- The dense form and the message-passing form of the network agree on real weights. -/
theorem dense_eq_passing
    (hW1 : ∀ s k, IsReal (W1 s k)) (hb1 : ∀ k, IsReal (b1 k)) (hW2 : ∀ k j, IsReal (W2 k j)) (hb2 : ∀ j, IsReal (b2 j))
    (r : Fin 2048) (j : Fin 128) :
    dense sN dN q W1 b1 W2 b2 r j = passing sN dN q W1 b1 W2 b2 r j := by
  unfold dense passing
  have hL : (fun s => adj sN dN (q r) s * dLin sN dN W1 b1 W2 s j)
      = fun s => adj sN dN (q r) s * lin sN dN W1 b1 W2 s j :=
    funext (fun s => by rw [dLin_eq_lin sN dN W1 b1 W2 hW1 s j])
  rw [hL, adj_product_eq_pass sN dN (fun s => lin sN dN W1 b1 W2 s j)
    (fun s => isReal_lin sN dN W1 b1 W2 hW1 hb1 hW2 s j) (q r)]

end

end Cert.GcnSpec

end
-- ==== Proof.PreFacts.lean ====
/-
  What the precondition says of the inputs.

  The precondition is a conjunction of five tests, each an "all" over one input array: every entry of the four float
  arrays has absolute value below +∞, and every entry x of the edge array has 0 ≤ x and x < 8192 as signed words.
  At the exact instance an extended real whose absolute value max x (-x) lies below +∞ is neither -∞ nor +∞: it is
  a real number. So the edge array is in range and the weights and biases are real.
-/
import proofs.«157338_j2456721293623_2_alg».proof.Pre_finite_inputs
import proofs.«157338_j2456721293623_2_alg».proof.Proof.Gen.Pre_finite_inputs
import proofs.«157338_j2456721293623_2_alg».proof.Proof.GcnEdges
import Idealize.ShloMosaic.Lib.ReduceAll

noncomputable section

namespace Cert.GcnSpec

open Idealize.ShloMosaic Idealize.ShloMosaic.ValueIdx

/-- The pattern 0x7F800000 is +∞. -/
theorem ofBits_inf : Ideal.ofBits .f32 0x7F800000#32 = ⊤ := by simp [Ideal.ofBits, Ideal.ieee]

/-- |x| < +∞ leaves only the real numbers: |-∞| = |+∞| = +∞. -/
theorem isReal_of_abs_lt_inf (x : EReal)
    (hx : Ideal.cmp .olt (max x (-x)) (Ideal.ofBits .f32 0x7F800000#32) = 1#1) : IsReal x := by
  rw [ofBits_inf] at hx
  induction x using EReal.rec with
  | bot => simp [Ideal.cmp] at hx
  | coe r => exact ⟨r, rfl⟩
  | top => simp [Ideal.cmp] at hx

theorem pre_facts [Cert.Pre_finite_inputs.Facts] (reg : IVec Cert.Pre_finite_inputs.S2048 32)
    (ei : IVec Cert.Pre_finite_inputs.S262144x2 32) (W1 : FVec Ideal Cert.Pre_finite_inputs.S8192x512 .f32)
    (b1 : FVec Ideal Cert.Pre_finite_inputs.S512 .f32) (W2 : FVec Ideal Cert.Pre_finite_inputs.S512x128 .f32)
    (b2 : FVec Ideal Cert.Pre_finite_inputs.S128 .f32)
    (h : Cert.Pre_finite_inputs.fn (F := Ideal) reg ei W1 b1 W2 b2 = fun _ => 1#1) :
    Cert.GcnSpec.InRange ei ∧ (∀ i, Cert.GcnSpec.IsReal (W1 i)) ∧ (∀ i, Cert.GcnSpec.IsReal (b1 i))
      ∧ (∀ i, Cert.GcnSpec.IsReal (W2 i)) ∧ (∀ i, Cert.GcnSpec.IsReal (b2 i)) := by
  -- the result of an "all" has a single index
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  change IntOp.andi (IntOp.andi (IntOp.andi (IntOp.andi _ _) _) _) _ = 1#1 at h0
  rw [IntOp.andi_eq_one, IntOp.andi_eq_one, IntOp.andi_eq_one, IntOp.andi_eq_one] at h0
  obtain ⟨⟨⟨⟨hW1, hb1⟩, hW2⟩, hb2⟩, hei⟩ := h0
  refine ⟨fun i => ?_, fun i => ?_, fun i => ?_, fun i => ?_, fun i => ?_⟩
  · -- the two signed comparisons at entry i
    have hi := Host.reduce_andi_all _ _ _ _ _ hei i
    change IntOp.andi (IntOp.cmpi .sge (ei i) 0#32) (IntOp.cmpi .slt (ei i) 8192#32) = 1#1 at hi
    rw [IntOp.andi_eq_one, IntOp.cmpi_sge, IntOp.cmpi_slt] at hi
    rw [show (0#32 : BitVec 32).toInt = 0 from by decide,
      show (8192#32 : BitVec 32).toInt = 8192 from by decide] at hi
    exact hi
  · exact isReal_of_abs_lt_inf (W1 i) (Host.reduce_andi_all _ _ _ _ _ hW1 i)
  · exact isReal_of_abs_lt_inf (b1 i) (Host.reduce_andi_all _ _ _ _ _ hb1 i)
  · exact isReal_of_abs_lt_inf (W2 i) (Host.reduce_andi_all _ _ _ _ _ hW2 i)
  · exact isReal_of_abs_lt_inf (b2 i) (Host.reduce_andi_all _ _ _ _ _ hb2 i)

end Cert.GcnSpec

end
-- ==== Proof.lean ====
/-
  The claim: a two-layer graph convolution on 8192 nodes, computed by the kernel program through a dense weighted adjacency
  matrix and two Pallas matrix-product kernels, and by the reference through gather / scatter-add message passing, gives the
  same extended reals at every queried row and column whenever the weights and biases are finite and every edge endpoint is a
  node of the graph.
  * The two kernel programs' frames (word-level and exact) are the whole-program run of module Whole read at the arguments.
  * The reference's frame is its run with the result dropped.
  * The ideal pass rewrote nothing, so the kernel's idealization is the program's own text read at the exact instance.
  * The two results: the kernel program's result array is `GcnSpec.dense` of the inputs (modules Whole, AggValue, FusedValue,
    HostValues, put together in KernelValue), the reference's is `GcnSpec.passing` (module RefValue), and the two formulas agree
    on real weights (module Algebra); the precondition gives the realness and the index range (module PreFacts).
-/
import proofs.«157338_j2456721293623_2_alg».proof.Defs
import proofs.«157338_j2456721293623_2_alg».proof.Proof.Gen.Kernel
import proofs.«157338_j2456721293623_2_alg».proof.Proof.Gen.KernelIdeal
import proofs.«157338_j2456721293623_2_alg».proof.Proof.Gen.ReferenceIdeal
import proofs.«157338_j2456721293623_2_alg».proof.Proof.Gen.Pre_finite_inputs
import proofs.«157338_j2456721293623_2_alg».proof.Proof.KB.Whole
import proofs.«157338_j2456721293623_2_alg».proof.Proof.KI.KernelValue
import proofs.«157338_j2456721293623_2_alg».proof.Proof.RefFrame
import proofs.«157338_j2456721293623_2_alg».proof.Proof.RefValue
import proofs.«157338_j2456721293623_2_alg».proof.Proof.Algebra
import proofs.«157338_j2456721293623_2_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem

/-- At the exact instance the two programs, run from memories that agree on the arguments, end with the same result array. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Whole.out55 (F := Ideal) m c, Cert.KernelIdeal.Whole.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨hin, hW1, hb1, hW2, hb2⟩ := Cert.GcnSpec.pre_facts _ _ _ _ _ _ (hpre c)
  rw [Cert.ReferenceIdeal.ReadP.val_main_v103_eq, (hagree c).1, (hagree c).2.1, (hagree c).2.2.1, (hagree c).2.2.2.1,
    (hagree c).2.2.2.2.1, (hagree c).2.2.2.2.2]
  funext i
  obtain ⟨r, j, rfl⟩ : ∃ (r : Fin 2048) (j : Fin 128), i = ix2 r j := ⟨i 0, i 1, eq_ix2 i⟩
  rw [Cert.Proof.RefSide.ref_value _ _ _ _ _ _ hin r j]
  show _ = Cert.KernelIdeal.Whole.out55 (F := Ideal) m c (ix2 r j)
  rw [Cert.KernelIdeal.Whole.kernel_value m c hin r j]
  exact (Cert.GcnSpec.dense_eq_passing _ _ _ _ _ _ _ (fun s k => hW1 _) (fun k => hb1 _) (fun k j => hW2 _) (fun j => hb2 _) r j).symm

theorem claim : Cert.Claim := ⟨Cert.Kernel.Gen.facts, Cert.KernelIdeal.Gen.facts, Cert.ReferenceIdeal.Gen.facts, Cert.Pre_finite_inputs.Gen.facts,
  fun m ρ _ => Cert.Kernel.Whole.frame m ρ,
  fun m ρ _ => Cert.KernelIdeal.Whole.frame m ρ,
  Cert.Proof.RefSide.frame_ri,
  trivial,
  Cert.Proof.algebraic⟩

end Cert.Proof

end
